-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S40 .f32) (main_v63 : IVec S_ 1) (main_v67 : IVec S_ 1) : IVec S_ 1 :=
  let main_v68 : IVec S_ 1 := andi main_v63 main_v67
  let main_v69 : FVec F S40 .f32 := Host.absf main_arg15
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x40 .f32) (main_arg15 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x40 .f32 := Host.absf main_arg14
  let main_cst_24 : FVec F S_ .f32 := constant S_ .f32 0x7F800000#32
  let main_v65 : FVec F S128x40 .f32 := broadcastInDim S128x40 ![] bcast_S_S128x40 main_cst_24
  let main_v66 : IVec S128x40 1 := cmpf .olt main_v64 main_v65
  let main_c_25 : IVec S_ 1 := constantI S_ 1 1#1
  let main_v67 : IVec S_ 1 := (fun x v => Host.reduce IntOp.andi x v reducesTo_S128x40_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x40 .f32) (main_arg15 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x40 .f32) (main_arg15 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x40 .f32) (main_arg15 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S2000 : Shape := ⟨1, ![2000]⟩
abbrev S1x40 : Shape := ⟨2, ![1, 40]⟩
abbrev S100000x40 : Shape := ⟨2, ![100000, 40]⟩
abbrev S2000x40 : Shape := ⟨2, ![2000, 40]⟩

abbrev nBuf : Space → Nat
  | .hbm => 123
  | .vmem => 58
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x40, .f32⟩
  | .hbm, ⟨15, _⟩ => ⟨S40, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S_, .f32⟩
  | .hbm, ⟨31, _⟩ => ⟨S1600000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S1600000x1, .f32⟩
  | .hbm, ⟨90, _⟩ => ⟨S1600000x128, .f32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x128, .f32⟩
  | .hbm, ⟨110, _⟩ => ⟨S1600000x1, .f32⟩
  | .hbm, ⟨111, _⟩ => ⟨S1600000x128, .f32⟩
  | .hbm, ⟨112, _⟩ => ⟨S1600000x128, .f32⟩
  | .hbm, ⟨113, _⟩ => ⟨S_, .f32⟩
  | .hbm, ⟨114, _⟩ => ⟨S100000x128, .f32⟩
  | .hbm, ⟨115, _⟩ => ⟨S1600000x1, .i32⟩
  | .hbm, ⟨116, _⟩ => ⟨S100000x128, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S100000x128, .f32⟩
  | .hbm, ⟨121, _⟩ => ⟨S1x40, .f32⟩
  | .hbm, ⟨122, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x1, .f32⟩
  | .local _ .vmem, ⟨46, _⟩ => ⟨S2000x1, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S128x40, .f32⟩
  | .local _ .vmem, ⟨55, _⟩ => ⟨S1x40, .f32⟩
  | .local _ .vmem, ⟨56, _⟩ => ⟨S2000x40, .f32⟩
  | .local _ .vmem, ⟨57, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg3_1 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem3_1 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .f32 = 32 ∨ (Rect.block (s := S100000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S100000x1.size a
  hwx5_3 : ∀ i : grid5.Coords, EltTy.bits .f32 = 32 ∨ (Rect.block (s := S100000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S100000x128.size a
  hwx5_7 : ∀ i : grid5.Coords, EltTy.bits .f32 = 32 ∨ (Rect.block (s := S100000x128) S2000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S100000x40.size a
  hwx6_3 : ∀ i : grid6.Coords, EltTy.bits .f32 = 32 ∨ (Rect.block (s := S100000x40) S2000x40.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v68) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v32) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v86) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v86) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 312
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x40, .f32⟩
  | 15 => ⟨S40, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S100000, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x1, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S_, .i32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S100000x128, .f32⟩
  | 97 => ⟨S_, .f32⟩
  | 98 => ⟨S_, .f32⟩
  | 99 => ⟨S_, .f32⟩
  | 100 => ⟨S_, .f32⟩
  | 101 => ⟨S100000, .f32⟩
  | 102 => ⟨S100000x1, .f32⟩
  | 103 => ⟨S100000x1, .f32⟩
  | 104 => ⟨S100000x1, .f32⟩
  | 105 => ⟨S_, .f32⟩
  | 106 => ⟨S_, .i1⟩
  | 107 => ⟨S_, .f32⟩
  | 108 => ⟨S_, .f32⟩
  | 109 => ⟨S100000x1, .f32⟩
  | 110 => ⟨S100000x1, .f32⟩
  | 111 => ⟨S100000x128, .f32⟩
  | 112 => ⟨S100000x128, .f32⟩
  | 113 => ⟨S_, .f32⟩
  | 114 => ⟨S100000x1, .f32⟩
  | 115 => ⟨S100000x1, .f32⟩
  | 116 => ⟨S100000x1, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .i1⟩
  | _ => ⟨S100000x128, .f32⟩

abbrev hbmTy0_1 (i : Nat) : BufTy := match i % 128 with
  | 0 => ⟨S_, .f32⟩
  | 1 => ⟨S100000x128, .f32⟩
  | 2 => ⟨S100000x128, .i1⟩
  | 3 => ⟨S_, .f32⟩
  | 4 => ⟨S_, .f32⟩
  | 5 => ⟨S100000x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S1600000x1, .f32⟩
  | 23 => ⟨S1600000x128, .f32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S_, .i32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S100000x128, .f32⟩
  | 50 => ⟨S100000x128, .f32⟩
  | 51 => ⟨S100000x128, .f32⟩
  | 52 => ⟨S_, .f32⟩
  | 53 => ⟨S_, .f32⟩
  | 54 => ⟨S_, .f32⟩
  | 55 => ⟨S_, .f32⟩
  | 56 => ⟨S100000, .f32⟩
  | 57 => ⟨S100000x1, .f32⟩
  | 58 => ⟨S100000x1, .f32⟩
  | 59 => ⟨S100000x1, .f32⟩
  | 60 => ⟨S_, .f32⟩
  | 61 => ⟨S_, .i1⟩
  | 62 => ⟨S_, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .i1⟩
  | 83 => ⟨S_, .f32⟩
  | 84 => ⟨S100000x128, .f32⟩
  | 85 => ⟨S100000x128, .i1⟩
  | 86 => ⟨S_, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x1, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S_, .i32⟩
  | 127 => ⟨S_, .f32⟩
  | _ => ⟨S100000x128, .f32⟩

abbrev hbmTy0_2 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S100000x128, .f32⟩
  | 8 => ⟨S_, .f32⟩
  | 9 => ⟨S_, .f32⟩
  | 10 => ⟨S_, .f32⟩
  | 11 => ⟨S_, .f32⟩
  | 12 => ⟨S100000, .f32⟩
  | 13 => ⟨S100000x1, .f32⟩
  | 14 => ⟨S100000x1, .f32⟩
  | 15 => ⟨S100000x1, .f32⟩
  | 16 => ⟨S_, .f32⟩
  | 17 => ⟨S_, .i1⟩
  | 18 => ⟨S_, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S_, .f32⟩
  | 25 => ⟨S100000x1, .f32⟩
  | 26 => ⟨S100000x1, .f32⟩
  | 27 => ⟨S100000x1, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .i1⟩
  | 39 => ⟨S_, .f32⟩
  | 40 => ⟨S100000x128, .f32⟩
  | 41 => ⟨S100000x128, .i1⟩
  | 42 => ⟨S_, .f32⟩
  | 43 => ⟨S_, .f32⟩
  | 44 => ⟨S100000x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S100000x128, .f32⟩
  | 52 => ⟨S100000x40, .f32⟩
  | 53 => ⟨S1x40, .f32⟩
  | 54 => ⟨S100000x40, .f32⟩
  | 55 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_cst_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_cst_1 : Ref sig .tc := ⟨.hbm, 98, rfl⟩
abbrev main_call0_v8 : Ref sig .tc := ⟨.hbm, 99, rfl⟩
abbrev main_call0_cst_2 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_v12 : Ref sig .tc := ⟨.hbm, 104, rfl⟩
abbrev main_call0_cst_3 : Ref sig .tc := ⟨.hbm, 105, rfl⟩
abbrev main_call0_v13 : Ref sig .tc := ⟨.hbm, 106, rfl⟩
abbrev main_call0_cst_4 : Ref sig .tc := ⟨.hbm, 107, rfl⟩
abbrev main_call0_call0_v0 : Ref sig .tc := ⟨.hbm, 108, rfl⟩
abbrev main_call0_call0_v1 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_13 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_cst_1 : Ref sig .tc := ⟨.hbm, 131, rfl⟩
abbrev main_call1_call0_v0 : Ref sig .tc := ⟨.hbm, 132, rfl⟩
abbrev main_call1_call0_v1 : Ref sig .tc := ⟨.hbm, 133, rfl⟩
abbrev main_call1_v4 : Ref sig .tc := ⟨.hbm, 134, rfl⟩
abbrev main_call1_v5 : Ref sig .tc := ⟨.hbm, 135, rfl⟩
abbrev main_call1_cst_2 : Ref sig .tc := ⟨.hbm, 136, rfl⟩
abbrev main_call1_v6 : Ref sig .tc := ⟨.hbm, 137, rfl⟩
abbrev main_call1_v7 : Ref sig .tc := ⟨.hbm, 138, rfl⟩
abbrev main_v71 : Ref sig .tc := ⟨.hbm, 139, rfl⟩
abbrev main_v72 : Ref sig .tc := ⟨.hbm, 140, rfl⟩
abbrev main_c_14 : Ref sig .tc := ⟨.hbm, 141, rfl⟩
abbrev main_v73 : Ref sig .tc := ⟨.hbm, 142, rfl⟩
abbrev main_v74 : Ref sig .tc := ⟨.hbm, 143, rfl⟩
abbrev main_c_15 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_cst_16 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_cst_17 : Ref sig .tc := ⟨.hbm, 164, rfl⟩
abbrev main_v93 : Ref sig .tc := ⟨.hbm, 165, rfl⟩
abbrev main_v94 : Ref sig .tc := ⟨.hbm, 166, rfl⟩
abbrev main_cst_18 : Ref sig .tc := ⟨.hbm, 167, rfl⟩
abbrev main_v95 : Ref sig .tc := ⟨.hbm, 168, rfl⟩
abbrev main_v96 : Ref sig .tc := ⟨.hbm, 169, rfl⟩
abbrev main_c_19 : Ref sig .tc := ⟨.hbm, 170, rfl⟩
abbrev main_call2_cst : Ref sig .tc := ⟨.hbm, 171, rfl⟩
abbrev main_call2_v0 : Ref sig .tc := ⟨.hbm, 172, rfl⟩
abbrev main_call2_v1 : Ref sig .tc := ⟨.hbm, 173, rfl⟩
abbrev main_call2_cst_0 : Ref sig .tc := ⟨.hbm, 174, rfl⟩
abbrev main_call2_v2 : Ref sig .tc := ⟨.hbm, 175, rfl⟩
abbrev main_call2_v3 : Ref sig .tc := ⟨.hbm, 176, rfl⟩
abbrev main_call2_v4 : Ref sig .tc := ⟨.hbm, 177, rfl⟩
abbrev main_call2_v5 : Ref sig .tc := ⟨.hbm, 178, rfl⟩
abbrev main_call2_v6 : Ref sig .tc := ⟨.hbm, 179, rfl⟩
abbrev main_call2_v7 : Ref sig .tc := ⟨.hbm, 180, rfl⟩
abbrev main_call2_cst_1 : Ref sig .tc := ⟨.hbm, 181, rfl⟩
abbrev main_call2_v8 : Ref sig .tc := ⟨.hbm, 182, rfl⟩
abbrev main_call2_cst_2 : Ref sig .tc := ⟨.hbm, 183, rfl⟩
abbrev main_call2_v9 : Ref sig .tc := ⟨.hbm, 184, rfl⟩
abbrev main_call2_v10 : Ref sig .tc := ⟨.hbm, 185, rfl⟩
abbrev main_call2_v11 : Ref sig .tc := ⟨.hbm, 186, rfl⟩
abbrev main_call2_v12 : Ref sig .tc := ⟨.hbm, 187, rfl⟩
abbrev main_call2_cst_3 : Ref sig .tc := ⟨.hbm, 188, rfl⟩
abbrev main_call2_v13 : Ref sig .tc := ⟨.hbm, 189, rfl⟩
abbrev main_call2_cst_4 : Ref sig .tc := ⟨.hbm, 190, rfl⟩
abbrev main_call2_call0_v0 : Ref sig .tc := ⟨.hbm, 191, rfl⟩
abbrev main_call2_call0_v1 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_cst_20 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_call3_cst : Ref sig .tc := ⟨.hbm, 208, rfl⟩
abbrev main_call3_v0 : Ref sig .tc := ⟨.hbm, 209, rfl⟩
abbrev main_call3_v1 : Ref sig .tc := ⟨.hbm, 210, rfl⟩
abbrev main_call3_cst_0 : Ref sig .tc := ⟨.hbm, 211, rfl⟩
abbrev main_call3_v2 : Ref sig .tc := ⟨.hbm, 212, rfl⟩
abbrev main_call3_v3 : Ref sig .tc := ⟨.hbm, 213, rfl⟩
abbrev main_call3_cst_1 : Ref sig .tc := ⟨.hbm, 214, rfl⟩
abbrev main_call3_call0_v0 : Ref sig .tc := ⟨.hbm, 215, rfl⟩
abbrev main_call3_call0_v1 : Ref sig .tc := ⟨.hbm, 216, rfl⟩
abbrev main_call3_v4 : Ref sig .tc := ⟨.hbm, 217, rfl⟩
abbrev main_call3_v5 : Ref sig .tc := ⟨.hbm, 218, rfl⟩
abbrev main_call3_cst_2 : Ref sig .tc := ⟨.hbm, 219, rfl⟩
abbrev main_call3_v6 : Ref sig .tc := ⟨.hbm, 220, rfl⟩
abbrev main_call3_v7 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_c_21 : Ref sig .tc := ⟨.hbm, 225, rfl⟩
abbrev main_v114 : Ref sig .tc := ⟨.hbm, 226, rfl⟩
abbrev main_v115 : Ref sig .tc := ⟨.hbm, 227, rfl⟩
abbrev main_c_22 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_cst_23 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_cst_24 : Ref sig .tc := ⟨.hbm, 248, rfl⟩
abbrev main_v134 : Ref sig .tc := ⟨.hbm, 249, rfl⟩
abbrev main_v135 : Ref sig .tc := ⟨.hbm, 250, rfl⟩
abbrev main_cst_25 : Ref sig .tc := ⟨.hbm, 251, rfl⟩
abbrev main_v136 : Ref sig .tc := ⟨.hbm, 252, rfl⟩
abbrev main_v137 : Ref sig .tc := ⟨.hbm, 253, rfl⟩
abbrev main_c_26 : Ref sig .tc := ⟨.hbm, 254, rfl⟩
abbrev main_call4_cst : Ref sig .tc := ⟨.hbm, 255, rfl⟩
abbrev main_call4_v0 : Ref sig .tc := ⟨.hbm, 256, rfl⟩
abbrev main_call4_v1 : Ref sig .tc := ⟨.hbm, 257, rfl⟩
abbrev main_call4_cst_0 : Ref sig .tc := ⟨.hbm, 258, rfl⟩
abbrev main_call4_v2 : Ref sig .tc := ⟨.hbm, 259, rfl⟩
abbrev main_call4_v3 : Ref sig .tc := ⟨.hbm, 260, rfl⟩
abbrev main_call4_v4 : Ref sig .tc := ⟨.hbm, 261, rfl⟩
abbrev main_call4_v5 : Ref sig .tc := ⟨.hbm, 262, rfl⟩
abbrev main_call4_v6 : Ref sig .tc := ⟨.hbm, 263, rfl⟩
abbrev main_call4_v7 : Ref sig .tc := ⟨.hbm, 264, rfl⟩
abbrev main_call4_cst_1 : Ref sig .tc := ⟨.hbm, 265, rfl⟩
abbrev main_call4_v8 : Ref sig .tc := ⟨.hbm, 266, rfl⟩
abbrev main_call4_cst_2 : Ref sig .tc := ⟨.hbm, 267, rfl⟩
abbrev main_call4_v9 : Ref sig .tc := ⟨.hbm, 268, rfl⟩
abbrev main_call4_v10 : Ref sig .tc := ⟨.hbm, 269, rfl⟩
abbrev main_call4_v11 : Ref sig .tc := ⟨.hbm, 270, rfl⟩
abbrev main_call4_v12 : Ref sig .tc := ⟨.hbm, 271, rfl⟩
abbrev main_call4_cst_3 : Ref sig .tc := ⟨.hbm, 272, rfl⟩
abbrev main_call4_v13 : Ref sig .tc := ⟨.hbm, 273, rfl⟩
abbrev main_call4_cst_4 : Ref sig .tc := ⟨.hbm, 274, rfl⟩
abbrev main_call4_call0_v0 : Ref sig .tc := ⟨.hbm, 275, rfl⟩
abbrev main_call4_call0_v1 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_cst_27 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_v150 : Ref sig .tc := ⟨.hbm, 290, rfl⟩
abbrev main_v151 : Ref sig .tc := ⟨.hbm, 291, rfl⟩
abbrev main_call5_cst : Ref sig .tc := ⟨.hbm, 292, rfl⟩
abbrev main_call5_v0 : Ref sig .tc := ⟨.hbm, 293, rfl⟩
abbrev main_call5_v1 : Ref sig .tc := ⟨.hbm, 294, rfl⟩
abbrev main_call5_cst_0 : Ref sig .tc := ⟨.hbm, 295, rfl⟩
abbrev main_call5_v2 : Ref sig .tc := ⟨.hbm, 296, rfl⟩
abbrev main_call5_v3 : Ref sig .tc := ⟨.hbm, 297, rfl⟩
abbrev main_call5_cst_1 : Ref sig .tc := ⟨.hbm, 298, rfl⟩
abbrev main_call5_call0_v0 : Ref sig .tc := ⟨.hbm, 299, rfl⟩
abbrev main_call5_call0_v1 : Ref sig .tc := ⟨.hbm, 300, rfl⟩
abbrev main_call5_v4 : Ref sig .tc := ⟨.hbm, 301, rfl⟩
abbrev main_call5_v5 : Ref sig .tc := ⟨.hbm, 302, rfl⟩
abbrev main_call5_cst_2 : Ref sig .tc := ⟨.hbm, 303, rfl⟩
abbrev main_call5_v6 : Ref sig .tc := ⟨.hbm, 304, rfl⟩
abbrev main_call5_v7 : Ref sig .tc := ⟨.hbm, 305, rfl⟩
abbrev main_v152 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run with its result named: after every weakly fair execution the result buffer holds what the
  last region's write-backs leave, the fold of the segments' buffer contents read at the result; the arguments end as
  launched.
-/
import proofs.«175674_j31894427140389_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Hand

end
-- ==== Proof.Spec.lean ====
/-
  The graph-convolution layers of this kernel, entry by entry on the extended reals.

  `mm a w` is the plain matrix product: entry (r, c) is the sum over k of a(r, k) · w(k, c).

  `core agg h d b g be` is one layer after the neighbourhood sum: with
      val(r, c)  = agg(r, c) + h(r, c) · d(r) + b(c),
      mu(r)      = (Σ_c val(r, c)) / 128,
      dev(r, c)  = val(r, c) − mu(r),
      var(r)     = (Σ_c dev(r, c)²) / 128,
      z(r, c)    = dev(r, c) · rsqrt(var(r) + ε) · g(c) + be(c),
  entry (r, c) is z(r, c) where z(r, c) > 0 and exp(z(r, c)) − 1 elsewhere. Every entry of row r depends on row r of
  `agg` and `h`, on d(r), and on the three rows b, g, be only.
-/
import Idealize.ShloMosaic.Lib.ValueIdx
import Idealize.ShloMosaic.PureOps.Ideal

noncomputable section

namespace GcnSpec

open Idealize.ShloMosaic Idealize.ShloMosaic.ValueIdx

/-- An a-by-b matrix of extended reals. -/
abbrev Mat (a b : Nat) := (⟨2, ![a, b]⟩ : Shape).Idx → EReal

variable {R K P : Nat}

/-- The plain matrix product. -/
def mm (a : Mat R K) (w : Mat K P) : Mat R P := fun i => ∑ k : Fin K, a (ix2 (i 0) k) * w (ix2 k (i 1))

theorem mm_apply (a : Mat R K) (w : Mat K P) (r : Fin R) (c : Fin P) :
    mm a w (ix2 r c) = ∑ k : Fin K, a (ix2 r k) * w (ix2 k c) := rfl

/-- The word of the layer norm's ε. -/
abbrev epsW : BitVec 32 := 0x3727C5AC#32

/-- val(r, c) = agg(r, c) + h(r, c) · d(r) + b(c). -/
def val (agg h : Mat R P) (d : Mat R 1) (b : Mat 1 P) (r : Fin R) (c : Fin P) : EReal :=
  agg (ix2 r c) + h (ix2 r c) * d (ix2 r (0 : Fin 1)) + b (ix2 (0 : Fin 1) c)

/-- mu(r): the row's sum over its 128-word. -/
def mu (agg h : Mat R P) (d : Mat R 1) (b : Mat 1 P) (r : Fin R) : EReal :=
  Ideal.div (∑ c : Fin P, val agg h d b r c) (Ideal.ofBits .f32 0x43000000#32)

def dev (agg h : Mat R P) (d : Mat R 1) (b : Mat 1 P) (r : Fin R) (c : Fin P) : EReal :=
  val agg h d b r c - mu agg h d b r

def var (agg h : Mat R P) (d : Mat R 1) (b : Mat 1 P) (r : Fin R) : EReal :=
  Ideal.div (∑ c : Fin P, dev agg h d b r c * dev agg h d b r c) (Ideal.ofBits .f32 0x43000000#32)

def z (agg h : Mat R P) (d : Mat R 1) (b g be : Mat 1 P) (r : Fin R) (c : Fin P) : EReal :=
  dev agg h d b r c * Ideal.rsqrt (var agg h d b r + Ideal.ofBits .f32 epsW) * g (ix2 (0 : Fin 1) c) + be (ix2 (0 : Fin 1) c)

/-- The exponential-linear unit on one value, as the kernel spells it. -/
def elu1 (x : EReal) : EReal :=
  Scalar.select (Ideal.cmp .ogt x (Ideal.ofBits .f32 0x00000000#32)) x (Ideal.exp x - Ideal.ofBits .f32 0x3F800000#32)

/-- One layer after the neighbourhood sum. -/
def core (agg h : Mat R P) (d : Mat R 1) (b g be : Mat 1 P) : Mat R P := fun i =>
  elu1 (z agg h d b g be (i 0) (i 1))

theorem core_apply (agg h : Mat R P) (d : Mat R 1) (b g be : Mat 1 P) (r : Fin R) (c : Fin P) :
    core agg h d b g be (ix2 r c) = elu1 (z agg h d b g be r c) := rfl

/-- The same with the layer's input added back. -/
def coreRes (agg h xin : Mat R P) (d : Mat R 1) (b g be : Mat 1 P) : Mat R P := fun i =>
  core agg h d b g be i + xin i

/-! ## A row of the layer depends on the same row of its operands -/

section Rows

variable {R' : Nat}
variable (agg h : Mat R P) (d : Mat R 1) (b g be : Mat 1 P) (agg' h' : Mat R' P) (d' : Mat R' 1) (b' g' be' : Mat 1 P)
variable (r : Fin R) (r' : Fin R')

theorem val_rows (ha : ∀ k, agg' (ix2 r' k) = agg (ix2 r k)) (hh : ∀ k, h' (ix2 r' k) = h (ix2 r k))
    (hd : d' (ix2 r' (0 : Fin 1)) = d (ix2 r (0 : Fin 1))) (hb : ∀ k, b' (ix2 (0 : Fin 1) k) = b (ix2 (0 : Fin 1) k)) (c : Fin P) :
    val agg' h' d' b' r' c = val agg h d b r c := by
  unfold val; rw [ha c, hh c, hd, hb c]

theorem mu_rows (ha : ∀ k, agg' (ix2 r' k) = agg (ix2 r k)) (hh : ∀ k, h' (ix2 r' k) = h (ix2 r k))
    (hd : d' (ix2 r' (0 : Fin 1)) = d (ix2 r (0 : Fin 1))) (hb : ∀ k, b' (ix2 (0 : Fin 1) k) = b (ix2 (0 : Fin 1) k)) :
    mu agg' h' d' b' r' = mu agg h d b r := by
  unfold mu
  exact congrArg (Ideal.div · _) (Finset.sum_congr rfl fun c _ => val_rows agg h d b agg' h' d' b' r r' ha hh hd hb c)

theorem dev_rows (ha : ∀ k, agg' (ix2 r' k) = agg (ix2 r k)) (hh : ∀ k, h' (ix2 r' k) = h (ix2 r k))
    (hd : d' (ix2 r' (0 : Fin 1)) = d (ix2 r (0 : Fin 1))) (hb : ∀ k, b' (ix2 (0 : Fin 1) k) = b (ix2 (0 : Fin 1) k)) (c : Fin P) :
    dev agg' h' d' b' r' c = dev agg h d b r c := by
  unfold dev
  rw [val_rows agg h d b agg' h' d' b' r r' ha hh hd hb c, mu_rows agg h d b agg' h' d' b' r r' ha hh hd hb]

theorem var_rows (ha : ∀ k, agg' (ix2 r' k) = agg (ix2 r k)) (hh : ∀ k, h' (ix2 r' k) = h (ix2 r k))
    (hd : d' (ix2 r' (0 : Fin 1)) = d (ix2 r (0 : Fin 1))) (hb : ∀ k, b' (ix2 (0 : Fin 1) k) = b (ix2 (0 : Fin 1) k)) :
    var agg' h' d' b' r' = var agg h d b r := by
  unfold var
  exact congrArg (Ideal.div · _) (Finset.sum_congr rfl fun c _ => by
    rw [dev_rows agg h d b agg' h' d' b' r r' ha hh hd hb c])

theorem z_rows (ha : ∀ k, agg' (ix2 r' k) = agg (ix2 r k)) (hh : ∀ k, h' (ix2 r' k) = h (ix2 r k))
    (hd : d' (ix2 r' (0 : Fin 1)) = d (ix2 r (0 : Fin 1))) (hb : ∀ k, b' (ix2 (0 : Fin 1) k) = b (ix2 (0 : Fin 1) k))
    (hg : ∀ k, g' (ix2 (0 : Fin 1) k) = g (ix2 (0 : Fin 1) k)) (hbe : ∀ k, be' (ix2 (0 : Fin 1) k) = be (ix2 (0 : Fin 1) k)) (c : Fin P) :
    z agg' h' d' b' g' be' r' c = z agg h d b g be r c := by
  unfold z
  rw [dev_rows agg h d b agg' h' d' b' r r' ha hh hd hb c, var_rows agg h d b agg' h' d' b' r r' ha hh hd hb, hg c, hbe c]

/-- Entry (r', c) of the layer of one set of operands is entry (r, c) of the layer of another whose row r, degree entry r and
    three rows agree with the first's row r', entry r' and rows. -/
theorem core_rows (ha : ∀ k, agg' (ix2 r' k) = agg (ix2 r k)) (hh : ∀ k, h' (ix2 r' k) = h (ix2 r k))
    (hd : d' (ix2 r' (0 : Fin 1)) = d (ix2 r (0 : Fin 1))) (hb : ∀ k, b' (ix2 (0 : Fin 1) k) = b (ix2 (0 : Fin 1) k))
    (hg : ∀ k, g' (ix2 (0 : Fin 1) k) = g (ix2 (0 : Fin 1) k)) (hbe : ∀ k, be' (ix2 (0 : Fin 1) k) = be (ix2 (0 : Fin 1) k)) (c : Fin P) :
    core agg' h' d' b' g' be' (ix2 r' c) = core agg h d b g be (ix2 r c) := by
  rw [core_apply, core_apply, z_rows agg h d b g be agg' h' d' b' g' be' r r' ha hh hd hb hg hbe c]

end Rows

end GcnSpec

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.MmBlocks.lean ====
/-
  An entry of a matrix product computed from row blocks.

  Entry (r, c) of a · w reads row r of a and column c of w only. So when a 2000-row block x0 holds, at its row r', the
  row r of a 100000-row matrix A, and a matrix x1 holds at its column c' the column c of W, entry (r', c') of x0 · x1 is
  entry (r, c) of A · W: the two sums over k agree term by term.
-/
import Idealize.ShloMosaic.Lib.ValueIdx
import proofs.«175674_j31894427140389_1_alg».proof.Proof.Spec

noncomputable section

namespace Cert.KernelIdeal.Hand

open Idealize.ShloMosaic Idealize.ShloMosaic.ValueIdx

/-- An entry of a product of blocks is the entry of the product of the arrays, when the block of the left operand holds
    the entry's row and the block of the right operand holds the entry's column. -/
theorem mm_of_blocks (A : GcnSpec.Mat 100000 128) (W : GcnSpec.Mat 128 128) (x0 : GcnSpec.Mat 2000 128) (x1 : GcnSpec.Mat 128 128)
    (j : (⟨2, ![2000, 128]⟩ : Shape).Idx) (i : (⟨2, ![100000, 128]⟩ : Shape).Idx)
    (h0 : ∀ k : Fin 128, x0 (ix2 (j 0) k) = A (ix2 (i 0) k)) (h1 : ∀ k : Fin 128, x1 (ix2 k (j 1)) = W (ix2 k (i 1))) :
    GcnSpec.mm x0 x1 j = GcnSpec.mm A W i := by
  show ∑ k : Fin 128, x0 (ix2 (j 0) k) * x1 (ix2 k (j 1)) = ∑ k : Fin 128, A (ix2 (i 0) k) * W (ix2 k (i 1))
  exact Finset.sum_congr rfl fun k _ => by rw [h0 k, h1 k]

end Cert.KernelIdeal.Hand

end
-- ==== Proof.Region0.lean ====
/-
  Region 0: the first layer's product x · W, as one equation between whole arrays.

  The region walks the 100000 rows in 50 blocks of 2000. At point t it multiplies rows 2000·t … 2000·t + 1999 of the left
  array by the whole 128-by-128 right array, on the matrix unit into a splat of zeros, and writes the 2000-by-128 result
  to the same rows of the result array. On the extended reals the block product is the plain sum over k of
  left(r, k) · right(k, c) (the change of float format before the product is the identity, the zero accumulator adds
  nothing), and a row of a product reads that row of the left operand only. So block t of the result is block t of the
  product of the two whole arrays, the 50 blocks cover every row (row r is in block r / 2000), and the result array ends
  holding the plain product, for whatever contents the region finds.
-/
import proofs.«175674_j31894427140389_1_alg».proof.Proof.Gen.KernelIdeal.Frame
import proofs.«175674_j31894427140389_1_alg».proof.Proof.Spec
import proofs.«175674_j31894427140389_1_alg».proof.Proof.LibPlainProduct
import proofs.«175674_j31894427140389_1_alg».proof.Proof.MmBlocks
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

theorem hz0 : (![0, 0] : Fin 2 → Nat) = fun _ => 0 := funext fun a => by fin_cases a <;> rfl

/-- The block's product is the plain matrix product of the two blocks. -/
theorem pay0 (x0 : Vec Ideal S2000x128 .f32) (x1 : Vec Ideal S128x128 .f32) :
    Gen.k0_pay1 x0 x1 = GcnSpec.mm x0 x1 := by
  funext i
  obtain ⟨r, q, rfl⟩ : ∃ (r : Fin 2000) (q : Fin 128), i = ix2 r q := ⟨i 0, i 1, eq_ix2 i⟩
  unfold Gen.k0_pay1
  exact PlainProduct.matmul_zero_apply Gen.dot_S2000x128_S128x128_S2000x128_1_0_0_1_n_n_wf none
    (truncf .bf16 x0 bitsLt_bf16_f32) (truncf .bf16 x1 bitsLt_bf16_f32) r q

/-- Point t's blocks: rows 2000·t … 2000·t + 1999 of the left operand and of the result, the whole right operand. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_eq (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (GcnSpec.mm (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero hz0]
  simp only [View.ld_unit_zero (S := S2000x128) hz0, View.ld_unit_zero (S := S128x128) hz0]
  rw [pay0]
  obtain ⟨e0, e1, e2, e3, e4, e5⟩ := idx0 t
  funext j
  refine mm_of_blocks (V c (Pipeline.arrRef spec0 0)) (V c (Pipeline.arrRef spec0 1)) (Gen.iblk0 V c 0 t) (Gen.iblk0 V c 1 t)
    ((cfg0.win 2).xinj (grid0.coords t) j) (((cfg0.win 2).blk t).view.emb j) (fun k => ?_) (fun k => ?_)
  · show V c (Pipeline.arrRef spec0 0) (((cfg0.win 0).blk t).view.emb (ix2 (j 0) k)) = V c (Pipeline.arrRef spec0 0) (ix2 ((((cfg0.win 2).blk t).view.emb j) 0) k)
    refine congrArg (V c (Pipeline.arrRef spec0 0)) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c (Pipeline.arrRef spec0 1) (((cfg0.win 1).blk t).view.emb (ix2 k (j 1))) = V c (Pipeline.arrRef spec0 1) (ix2 k ((((cfg0.win 2).blk t).view.emb j) 1))
    refine congrArg (V c (Pipeline.arrRef spec0 1)) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row r of the result lies in the block of point r / 2000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := by rw [show cfg0.N = 50 from N_0]; omega
  refine ⟨⟨(i 0).val / 2000, ht⟩, flush0_2 _, ?_⟩
  rw [mem_blk0]
  obtain ⟨e0, e1, e2, e3, e4, e5⟩ := idx0 ⟨(i 0).val / 2000, ht⟩
  have e4' : win0_2.index ⟨(i 0).val / 2000, ht⟩ (0 : Fin 2) = (i 0).val / 2000 := e4
  intro a
  match a with
  | ⟨0, _⟩ => show win0_2.index _ (0 : Fin 2) * 2000 ≤ (i 0).val ∧ (i 0).val < win0_2.index _ (0 : Fin 2) * 2000 + 2000; omega
  | ⟨1, _⟩ => show win0_2.index _ (1 : Fin 2) * 128 ≤ (i 1).val ∧ (i 1).val < win0_2.index _ (1 : Fin 2) * 128 + 128; omega

/-- REGION 0: the result array ends holding the plain product of the two arrays the region finds. -/
theorem final0 (V : (c : Dev nD) → (b : Ref sig .tc) → Buf (Elt Ideal) ((c : Thread nD τ).loc b)) (c : Dev nD) :
    (Gen.dat0 (F := Ideal) V c).arrAt 2 cfg0.N
      = GcnSpec.mm (V c (Pipeline.arrRef spec0 0)) (V c (Pipeline.arrRef spec0 1)) :=
  (Gen.dat0 (F := Ideal) V c).arrAt_eq_of_cover 2 (GcnSpec.mm (V c (Pipeline.arrRef spec0 0)) (V c (Pipeline.arrRef spec0 1)))
    (fun t _ => flushed0_eq V c t) cover0

end Cert.KernelIdeal.Hand

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.CombineBody.lean ====
/-
  What the combine body computes on one block of 2000 rows, entry by entry: with the block's rows of the neighbourhood
  sum and of the product, its rows of the degree column, and the three rows b, g, be, the stored value at (p, q) is the
  layer `GcnSpec.core` of those blocks at (p, q): the lane sums are sums over the 128 columns of row p, the
  column-shaped intermediates are read at (p, 0), the row-shaped operands at (0, q).
-/
import proofs.«175674_j31894427140389_1_alg».proof.Proof.Gen.KernelIdeal.Skeleton
import proofs.«175674_j31894427140389_1_alg».proof.Proof.Spec
import proofs.«175674_j31894427140389_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.LibColumns

/-- The source index of a lane sum over the columns of a [2000,128] block: row p, column k. -/
theorem lift_row (h : S2000x128.Reduces [1] S2000) (p : Fin 2000) (k : Fin 128) :
    h.lift (ix1 p) k = ix2 p k := by
  funext c; apply Fin.ext
  match c with
  | ⟨0, _⟩ => rfl
  | ⟨1, _⟩ => rfl

/-- A lane sum of a [2000,128] block, read at row p: the sum over the 128 columns of row p. -/
theorem laneSum_apply (src : FVec Ideal S2000x128 .f32) (h : S2000x128.Reduces [1] S2000) (hφ : FTy.f32 = FTy.f32 ∨ FTy.f32 = FTy.bf16)
    (hacc : (0x00000000#32 : BitVec 32) = 0x00000000#32) (p : Fin 2000) :
    multiReduction .add [1] S2000 src 0x00000000#32 h hφ hacc (ix1 p) = ∑ k : Fin 128, src (ix2 p k) := by
  refine (Ideal.multiReduction_add_single src 0x00000000#32 h hφ hacc (ix1 p)).trans ?_
  exact Finset.sum_congr rfl fun k _ => congrArg src (lift_row h p k)

theorem rsqrt_at {s : Shape} (v : FVec Ideal s .f32) (i : s.Idx) : rsqrt v i = Ideal.rsqrt (v i) := rfl
theorem exp_at {s : Shape} (v : FVec Ideal s .f32) (i : s.Idx) : exp v i = Ideal.exp (v i) := rfl

/-- The normalised value the body of region 1 computes before the unit: `GcnSpec.z` of the blocks, at (p, q). -/
theorem pay2_apply1 (x0 x1 : Vec Ideal S2000x128 .f32) (x2 : Vec Ideal S2000x1 .f32) (x3 x4 x5 : Vec Ideal S1x128 .f32)
    (p : Fin 2000) (q : Fin 128) :
    k1_pay2 x0 x1 x2 x3 x4 x5 (ix2 p q) = GcnSpec.z x0 x1 x2 x3 x4 x5 p q := by
  unfold k1_pay2
  dsimp only
  simp only [addf_apply, mulf_apply, subf_apply, divf_apply, broadcast_apply, shapeCast_self,
    broadcastTo_a1_ab_apply, broadcastTo_1b_ab_apply, shapeCast_a_a1_apply, rsqrt_at]
  rw [laneSum_apply]
  try rw [laneSum_apply]
  simp only [addf_apply, mulf_apply, subf_apply, divf_apply, broadcast_apply, shapeCast_self,
    broadcastTo_a1_ab_apply, broadcastTo_1b_ab_apply, shapeCast_a_a1_apply, rsqrt_at]
  try rw [laneSum_apply]
  simp only [addf_apply, mulf_apply, subf_apply, divf_apply, broadcast_apply, shapeCast_self,
    broadcastTo_a1_ab_apply, broadcastTo_1b_ab_apply, shapeCast_a_a1_apply, rsqrt_at]
  simp only [GcnSpec.z, GcnSpec.dev, GcnSpec.mu, GcnSpec.var, GcnSpec.val]
  rfl

/-- What the body of region 1 stores, as one function of its loaded blocks: the layer of the blocks. -/
theorem body1_eq (x0 x1 : Vec Ideal S2000x128 .f32) (x2 : Vec Ideal S2000x1 .f32) (x3 x4 x5 : Vec Ideal S1x128 .f32) :
    k1_pay1 (k1_pay2 x0 x1 x2 x3 x4 x5) (k1_pay3 x0 x1 x2 x3 x4 x5) (k1_pay4 x0 x1 x2 x3 x4 x5) (Scalar.ofBits .f32 0x3F800000#32)
      = GcnSpec.core x0 x1 x2 x3 x4 x5 := by
  funext i
  obtain ⟨p, q, rfl⟩ : ∃ (p : Fin 2000) (q : Fin 128), i = ix2 p q := ⟨i 0, i 1, eq_ix2 i⟩
  unfold k1_pay1 k1_pay3 k1_pay4
  dsimp only
  simp only [select_apply, cmpf_apply, subf_apply, addf_apply, broadcast_apply, exp_at, shapeCast_self]
  rw [pay2_apply1]
  rfl

/-- The normalised value the body of region 3 computes before the unit: `GcnSpec.z` of the blocks, at (p, q). -/
theorem pay2_apply3 (x0 x1 : Vec Ideal S2000x128 .f32) (x2 : Vec Ideal S2000x1 .f32) (x3 x4 x5 : Vec Ideal S1x128 .f32)
    (p : Fin 2000) (q : Fin 128) :
    k3_pay2 x0 x1 x2 x3 x4 x5 (ix2 p q) = GcnSpec.z x0 x1 x2 x3 x4 x5 p q := by
  unfold k3_pay2
  dsimp only
  simp only [addf_apply, mulf_apply, subf_apply, divf_apply, broadcast_apply, shapeCast_self,
    broadcastTo_a1_ab_apply, broadcastTo_1b_ab_apply, shapeCast_a_a1_apply, rsqrt_at]
  rw [laneSum_apply]
  try rw [laneSum_apply]
  simp only [addf_apply, mulf_apply, subf_apply, divf_apply, broadcast_apply, shapeCast_self,
    broadcastTo_a1_ab_apply, broadcastTo_1b_ab_apply, shapeCast_a_a1_apply, rsqrt_at]
  try rw [laneSum_apply]
  simp only [addf_apply, mulf_apply, subf_apply, divf_apply, broadcast_apply, shapeCast_self,
    broadcastTo_a1_ab_apply, broadcastTo_1b_ab_apply, shapeCast_a_a1_apply, rsqrt_at]
  simp only [GcnSpec.z, GcnSpec.dev, GcnSpec.mu, GcnSpec.var, GcnSpec.val]
  rfl

/-- What the body of region 3 stores, as one function of its loaded blocks: the layer of the blocks, plus the block of the layer's input. -/
theorem body3_eq (x0 x1 : Vec Ideal S2000x128 .f32) (x2 : Vec Ideal S2000x1 .f32) (x3 x4 x5 : Vec Ideal S1x128 .f32) (xr : Vec Ideal S2000x128 .f32) :
    k3_pay1 (k3_pay2 x0 x1 x2 x3 x4 x5) (k3_pay3 x0 x1 x2 x3 x4 x5) (k3_pay4 x0 x1 x2 x3 x4 x5) (Scalar.ofBits .f32 0x3F800000#32) xr
      = GcnSpec.coreRes x0 x1 xr x2 x3 x4 x5 := by
  funext i
  obtain ⟨p, q, rfl⟩ : ∃ (p : Fin 2000) (q : Fin 128), i = ix2 p q := ⟨i 0, i 1, eq_ix2 i⟩
  unfold k3_pay1 k3_pay3 k3_pay4
  dsimp only
  simp only [select_apply, cmpf_apply, subf_apply, addf_apply, broadcast_apply, exp_at, shapeCast_self]
  rw [pay2_apply3]
  rfl

/-- The normalised value the body of region 5 computes before the unit: `GcnSpec.z` of the blocks, at (p, q). -/
theorem pay2_apply5 (x0 x1 : Vec Ideal S2000x128 .f32) (x2 : Vec Ideal S2000x1 .f32) (x3 x4 x5 : Vec Ideal S1x128 .f32)
    (p : Fin 2000) (q : Fin 128) :
    k5_pay2 x0 x1 x2 x3 x4 x5 (ix2 p q) = GcnSpec.z x0 x1 x2 x3 x4 x5 p q := by
  unfold k5_pay2
  dsimp only
  simp only [addf_apply, mulf_apply, subf_apply, divf_apply, broadcast_apply, shapeCast_self,
    broadcastTo_a1_ab_apply, broadcastTo_1b_ab_apply, shapeCast_a_a1_apply, rsqrt_at]
  rw [laneSum_apply]
  try rw [laneSum_apply]
  simp only [addf_apply, mulf_apply, subf_apply, divf_apply, broadcast_apply, shapeCast_self,
    broadcastTo_a1_ab_apply, broadcastTo_1b_ab_apply, shapeCast_a_a1_apply, rsqrt_at]
  try rw [laneSum_apply]
  simp only [addf_apply, mulf_apply, subf_apply, divf_apply, broadcast_apply, shapeCast_self,
    broadcastTo_a1_ab_apply, broadcastTo_1b_ab_apply, shapeCast_a_a1_apply, rsqrt_at]
  simp only [GcnSpec.z, GcnSpec.dev, GcnSpec.mu, GcnSpec.var, GcnSpec.val]
  rfl

/-- What the body of region 5 stores, as one function of its loaded blocks: the layer of the blocks, plus the block of the layer's input. -/
theorem body5_eq (x0 x1 : Vec Ideal S2000x128 .f32) (x2 : Vec Ideal S2000x1 .f32) (x3 x4 x5 : Vec Ideal S1x128 .f32) (xr : Vec Ideal S2000x128 .f32) :
    k5_pay1 (k5_pay2 x0 x1 x2 x3 x4 x5) (k5_pay3 x0 x1 x2 x3 x4 x5) (k5_pay4 x0 x1 x2 x3 x4 x5) (Scalar.ofBits .f32 0x3F800000#32) xr
      = GcnSpec.coreRes x0 x1 xr x2 x3 x4 x5 := by
  funext i
  obtain ⟨p, q, rfl⟩ : ∃ (p : Fin 2000) (q : Fin 128), i = ix2 p q := ⟨i 0, i 1, eq_ix2 i⟩
  unfold k5_pay1 k5_pay3 k5_pay4
  dsimp only
  simp only [select_apply, cmpf_apply, subf_apply, addf_apply, broadcast_apply, exp_at, shapeCast_self]
  rw [pay2_apply5]
  rfl

end Cert.KernelIdeal.Hand

end
-- ==== Proof.Region1.lean ====
/-
  Region 1 (the combine step of one layer) as one whole-array equation: after the region its result array holds the layer
  `GcnSpec.core` of the arrays it reads, entry by entry. Point t reads rows 2000·t … 2000·t + 1999 of the row-blocked arrays and
  the whole of the three one-row arrays, a row of the layer depends on the same row of its operands, and the fifty
  blocks of 2000 rows cover the 100000 rows.
-/
import proofs.«175674_j31894427140389_1_alg».proof.Proof.Gen.KernelIdeal.Frame
import proofs.«175674_j31894427140389_1_alg».proof.Proof.CombineBody
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl

/-- The printed index maps over the grid: the row-blocked windows sit at block row t, the one-row windows at block 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_6.index t (0 : Fin 2) = t.val
    ∧ win1_6.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

/-- Row p of point t's block is row 2000·t + p of the array. -/
def rowOf1 (t : Fin cfg1.N) (p : Fin 2000) : Fin 100000 :=
  ⟨2000 * t.val + p.val, by have := t.isLt; have hN : cfg1.N = 50 := N_1; have := p.isLt; omega⟩

/-- Window 0's block at point t is rows 2000·t … 2000·t + 1999 of its array. -/
theorem iblk1_0_apply (c : Dev nD) (t : Fin cfg1.N) (p : Fin 2000) (k : Fin 128) :
    (iblk1 V c 0 t : S2000x128.Idx → EReal) (ix2 p k) = ((V c (Pipeline.arrRef spec1 0)) : S100000x128.Idx → EReal) (ix2 (rowOf1 t p) k) := by
  unfold iblk1
  rw [View.read_apply]
  refine congrArg ((V c (Pipeline.arrRef spec1 0)) : S100000x128.Idx → EReal) ?_
  funext a; apply Fin.ext
  match a with
  | ⟨0, _⟩ => show win1_0.index t (0 : Fin 2) * 2000 + 1 * p.val = 2000 * t.val + p.val; rw [(idx1 t).1]; omega
  | ⟨1, _⟩ => show win1_0.index t (1 : Fin 2) * 128 + 1 * k.val = k.val; rw [(idx1 t).2.1]; omega

/-- Window 1's block at point t is rows 2000·t … 2000·t + 1999 of its array. -/
theorem iblk1_1_apply (c : Dev nD) (t : Fin cfg1.N) (p : Fin 2000) (k : Fin 128) :
    (iblk1 V c 1 t : S2000x128.Idx → EReal) (ix2 p k) = ((V c (Pipeline.arrRef spec1 1)) : S100000x128.Idx → EReal) (ix2 (rowOf1 t p) k) := by
  unfold iblk1
  rw [View.read_apply]
  refine congrArg ((V c (Pipeline.arrRef spec1 1)) : S100000x128.Idx → EReal) ?_
  funext a; apply Fin.ext
  match a with
  | ⟨0, _⟩ => show win1_1.index t (0 : Fin 2) * 2000 + 1 * p.val = 2000 * t.val + p.val; rw [(idx1 t).2.2.1]; omega
  | ⟨1, _⟩ => show win1_1.index t (1 : Fin 2) * 128 + 1 * k.val = k.val; rw [(idx1 t).2.2.2.1]; omega

/-- The degree column's block at point t is entries 2000·t … 2000·t + 1999 of the column. -/
theorem iblk1_2_apply (c : Dev nD) (t : Fin cfg1.N) (p : Fin 2000) :
    (iblk1 V c 2 t : S2000x1.Idx → EReal) (ix2 p (0 : Fin 1)) = ((V c (Pipeline.arrRef spec1 2)) : S100000x1.Idx → EReal) (ix2 (rowOf1 t p) (0 : Fin 1)) := by
  unfold iblk1
  rw [View.read_apply]
  refine congrArg ((V c (Pipeline.arrRef spec1 2)) : S100000x1.Idx → EReal) ?_
  funext a; apply Fin.ext
  match a with
  | ⟨0, _⟩ => show win1_2.index t (0 : Fin 2) * 2000 + 1 * p.val = 2000 * t.val + p.val; rw [(idx1 t).2.2.2.2.1]; omega
  | ⟨1, _⟩ => show win1_2.index t (1 : Fin 2) * 1 + 1 * (0 : Fin 1).val = (0 : Fin 1).val; rw [(idx1 t).2.2.2.2.2.1]; rfl

/-- Window 3's block at every point is its whole one-row array. -/
theorem iblk1_3_apply (c : Dev nD) (t : Fin cfg1.N) (k : Fin 128) :
    (iblk1 V c 3 t : S1x128.Idx → EReal) (ix2 (0 : Fin 1) k) = ((V c (Pipeline.arrRef spec1 3)) : S1x128.Idx → EReal) (ix2 (0 : Fin 1) k) := by
  unfold iblk1
  rw [View.read_apply]
  refine congrArg ((V c (Pipeline.arrRef spec1 3)) : S1x128.Idx → EReal) ?_
  funext a; apply Fin.ext
  match a with
  | ⟨0, _⟩ => show win1_3.index t (0 : Fin 2) * 1 + 1 * (0 : Fin 1).val = (0 : Fin 1).val; rw [(idx1 t).2.2.2.2.2.2.2.2.1]; rfl
  | ⟨1, _⟩ => show win1_3.index t (1 : Fin 2) * 128 + 1 * k.val = k.val; rw [(idx1 t).2.2.2.2.2.2.2.2.2.1]; omega

/-- Window 4's block at every point is its whole one-row array. -/
theorem iblk1_4_apply (c : Dev nD) (t : Fin cfg1.N) (k : Fin 128) :
    (iblk1 V c 4 t : S1x128.Idx → EReal) (ix2 (0 : Fin 1) k) = ((V c (Pipeline.arrRef spec1 4)) : S1x128.Idx → EReal) (ix2 (0 : Fin 1) k) := by
  unfold iblk1
  rw [View.read_apply]
  refine congrArg ((V c (Pipeline.arrRef spec1 4)) : S1x128.Idx → EReal) ?_
  funext a; apply Fin.ext
  match a with
  | ⟨0, _⟩ => show win1_4.index t (0 : Fin 2) * 1 + 1 * (0 : Fin 1).val = (0 : Fin 1).val; rw [(idx1 t).2.2.2.2.2.2.2.2.2.2.1]; rfl
  | ⟨1, _⟩ => show win1_4.index t (1 : Fin 2) * 128 + 1 * k.val = k.val; rw [(idx1 t).2.2.2.2.2.2.2.2.2.2.2.1]; omega

/-- Window 5's block at every point is its whole one-row array. -/
theorem iblk1_5_apply (c : Dev nD) (t : Fin cfg1.N) (k : Fin 128) :
    (iblk1 V c 5 t : S1x128.Idx → EReal) (ix2 (0 : Fin 1) k) = ((V c (Pipeline.arrRef spec1 5)) : S1x128.Idx → EReal) (ix2 (0 : Fin 1) k) := by
  unfold iblk1
  rw [View.read_apply]
  refine congrArg ((V c (Pipeline.arrRef spec1 5)) : S1x128.Idx → EReal) ?_
  funext a; apply Fin.ext
  match a with
  | ⟨0, _⟩ => show win1_5.index t (0 : Fin 2) * 1 + 1 * (0 : Fin 1).val = (0 : Fin 1).val; rw [(idx1 t).2.2.2.2.2.2.2.2.2.2.2.2.1]; rfl
  | ⟨1, _⟩ => show win1_5.index t (1 : Fin 2) * 128 + 1 * k.val = k.val; rw [(idx1 t).2.2.2.2.2.2.2.2.2.2.2.2.2]; omega

/-- Where an entry of the output block sits in the output array. -/
theorem emb1_out (t : Fin cfg1.N) (p : Fin 2000) (q : Fin 128) :
    (((cfg1.win 6).blk t).view.emb (ix2 p q : S2000x128.Idx) : S100000x128.Idx) = ix2 (rowOf1 t p) q := by
  funext a; apply Fin.ext
  match a with
  | ⟨0, _⟩ => show win1_6.index t (0 : Fin 2) * 2000 + 1 * p.val = 2000 * t.val + p.val; rw [(idx1 t).2.2.2.2.2.2.1]; omega
  | ⟨1, _⟩ => show win1_6.index t (1 : Fin 2) * 128 + 1 * q.val = q.val; rw [(idx1 t).2.2.2.2.2.2.2.1]; omega

set_option maxHeartbeats 2000000 in
/-- Row p of the layer of point t's blocks is row 2000·t + p of the layer of the whole arrays. -/
theorem blockRows1 (c : Dev nD) (t : Fin cfg1.N) (p : Fin 2000) (q : Fin 128) :
    GcnSpec.core (R := 2000) (P := 128) (iblk1 V c 0 t : S2000x128.Idx → EReal) (iblk1 V c 1 t : S2000x128.Idx → EReal) (iblk1 V c 2 t : S2000x1.Idx → EReal) (iblk1 V c 3 t : S1x128.Idx → EReal) (iblk1 V c 4 t : S1x128.Idx → EReal) (iblk1 V c 5 t : S1x128.Idx → EReal) (ix2 p q)
      = GcnSpec.core (R := 100000) (P := 128) (V c (Pipeline.arrRef spec1 0) : S100000x128.Idx → EReal) (V c (Pipeline.arrRef spec1 1) : S100000x128.Idx → EReal) (V c (Pipeline.arrRef spec1 2) : S100000x1.Idx → EReal) (V c (Pipeline.arrRef spec1 3) : S1x128.Idx → EReal) (V c (Pipeline.arrRef spec1 4) : S1x128.Idx → EReal) (V c (Pipeline.arrRef spec1 5) : S1x128.Idx → EReal) (ix2 (rowOf1 t p) q) :=
  GcnSpec.core_rows (R := 100000) (P := 128) (R' := 2000) (V c (Pipeline.arrRef spec1 0) : S100000x128.Idx → EReal) (V c (Pipeline.arrRef spec1 1) : S100000x128.Idx → EReal) (V c (Pipeline.arrRef spec1 2) : S100000x1.Idx → EReal) (V c (Pipeline.arrRef spec1 3) : S1x128.Idx → EReal) (V c (Pipeline.arrRef spec1 4) : S1x128.Idx → EReal) (V c (Pipeline.arrRef spec1 5) : S1x128.Idx → EReal)
      (iblk1 V c 0 t : S2000x128.Idx → EReal) (iblk1 V c 1 t : S2000x128.Idx → EReal) (iblk1 V c 2 t : S2000x1.Idx → EReal) (iblk1 V c 3 t : S1x128.Idx → EReal) (iblk1 V c 4 t : S1x128.Idx → EReal) (iblk1 V c 5 t : S1x128.Idx → EReal) (rowOf1 t p) p
      (fun k => iblk1_0_apply V c t p k) (fun k => iblk1_1_apply V c t p k) (iblk1_2_apply V c t p)
      (fun k => iblk1_3_apply V c t k) (fun k => iblk1_4_apply V c t k) (fun k => iblk1_5_apply V c t k) q

set_option maxHeartbeats 2000000 in
/-- What point t writes back is block t of the layer of the whole arrays. -/
theorem flushed1_eq (c : Dev nD) (t : Fin cfg1.N) :
    (dat1 V c).flushed 6 t = ((cfg1.win 6).blk t).view.read (Elt Ideal) (GcnSpec.core (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz2_1]
  simp only [View.ld_unit_zero (S := S2000x128) hz2_1, View.ld_unit_zero (S := S2000x1) hz2_1, View.ld_unit_zero (S := S1x128) hz2_1]
  rw [body1_eq]
  funext y
  obtain ⟨p, q, rfl⟩ : ∃ (p : Fin 2000) (q : Fin 128), y = ix2 p q := ⟨y 0, y 1, eq_ix2 y⟩
  rw [View.read_apply, emb1_out]
  refine Eq.trans (b := GcnSpec.core (R := 2000) (P := 128) (iblk1 V c 0 t : S2000x128.Idx → EReal) (iblk1 V c 1 t : S2000x128.Idx → EReal) (iblk1 V c 2 t : S2000x1.Idx → EReal) (iblk1 V c 3 t : S1x128.Idx → EReal) (iblk1 V c 4 t : S1x128.Idx → EReal) (iblk1 V c 5 t : S1x128.Idx → EReal) (ix2 p q)) rfl ?_
  exact blockRows1 V c t p q

/-- An index of the output array is in point t's block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole (Pipeline.arrRef spec1 6)).slice (win1_6.rect t)).set ↔ _
  rw [View.set_slice_whole, Rect.mem_set_unit]
  exact Iff.rfl

/-- Every row lies in the block of point (row / 2000). -/
theorem cover1 (i : S100000x128.Idx) :
    ∃ t : Fin cfg1.N, (cfg1.win 6).flush t = true ∧ i ∈ ((cfg1.win 6).blk t).view.set := by
  have h0 : (i 0).val < 100000 := idx2_lt0 i
  have h1 : (i 1).val < 128 := idx2_lt1 i
  have hN : cfg1.N = 50 := N_1
  refine ⟨⟨(i 0).val / 2000, by rw [hN]; omega⟩, flush1_6 _, ?_⟩
  rw [mem_blk1]
  intro a
  match a with
  | ⟨0, _⟩ =>
    show win1_6.index _ (0 : Fin 2) * 2000 ≤ (i 0).val ∧ (i 0).val < win1_6.index _ (0 : Fin 2) * 2000 + 2000
    rw [(idx1 _).2.2.2.2.2.2.1]
    show (i 0).val / 2000 * 2000 ≤ (i 0).val ∧ (i 0).val < (i 0).val / 2000 * 2000 + 2000
    omega
  | ⟨1, _⟩ =>
    show win1_6.index _ (1 : Fin 2) * 128 ≤ (i 1).val ∧ (i 1).val < win1_6.index _ (1 : Fin 2) * 128 + 128
    rw [(idx1 _).2.2.2.2.2.2.2.1]
    omega

/-- THE REGION'S RESULT: the layer of the arrays it reads. -/
theorem final1 (c : Dev nD) :
    (dat1 V c).arrAt 6 cfg1.N = (GcnSpec.core (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) :=
  (dat1 V c).arrAt_eq_of_cover 6 (GcnSpec.core (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed1_eq V c t) (cover1)

end Cert.KernelIdeal.Hand

end
-- ==== Proof.Region2.lean ====
/-
  Region 2: the second layer's product h · W, as one equation between whole arrays.

  The region walks the 100000 rows in 50 blocks of 2000. At point t it multiplies rows 2000·t … 2000·t + 1999 of the left
  array by the whole 128-by-128 right array, on the matrix unit into a splat of zeros, and writes the 2000-by-128 result
  to the same rows of the result array. On the extended reals the block product is the plain sum over k of
  left(r, k) · right(k, c) (the change of float format before the product is the identity, the zero accumulator adds
  nothing), and a row of a product reads that row of the left operand only. So block t of the result is block t of the
  product of the two whole arrays, the 50 blocks cover every row (row r is in block r / 2000), and the result array ends
  holding the plain product, for whatever contents the region finds.
-/
import proofs.«175674_j31894427140389_1_alg».proof.Proof.Gen.KernelIdeal.Frame
import proofs.«175674_j31894427140389_1_alg».proof.Proof.Spec
import proofs.«175674_j31894427140389_1_alg».proof.Proof.LibPlainProduct
import proofs.«175674_j31894427140389_1_alg».proof.Proof.MmBlocks
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-- The block's product is the plain matrix product of the two blocks. -/
theorem pay2 (x0 : Vec Ideal S2000x128 .f32) (x1 : Vec Ideal S128x128 .f32) :
    Gen.k2_pay1 x0 x1 = GcnSpec.mm x0 x1 := by
  funext i
  obtain ⟨r, q, rfl⟩ : ∃ (r : Fin 2000) (q : Fin 128), i = ix2 r q := ⟨i 0, i 1, eq_ix2 i⟩
  unfold Gen.k2_pay1
  refine (PlainProduct.matmul_zero_apply Gen.dot_S2000x128_S128x128_S2000x128_1_0_0_1_n_n_wf none
    (truncf .bf16 (shapeCast S2000x128 x0 shapeCasts_S2000x128_S2000x128) bitsLt_bf16_f32) (truncf .bf16 x1 bitsLt_bf16_f32) r q).trans ?_
  rw [shapeCast_self x0 shapeCasts_S2000x128_S2000x128]
  rfl

/-- Point t's blocks: rows 2000·t … 2000·t + 1999 of the left operand and of the result, the whole right operand. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 2000000 in
/-- What point t writes back is block t of the product of the two arrays as the region finds them. -/
theorem flushed2_eq (V : (c : Dev nD) → (b : Ref sig .tc) → Buf (Elt Ideal) ((c : Thread nD τ).loc b)) (c : Dev nD) (t : Fin cfg2.N) :
    (Gen.dat2 (F := Ideal) V c).flushed 2 t
      = ((cfg2.win 2).blk t).view.read (Elt Ideal) (GcnSpec.mm (V c (Pipeline.arrRef spec2 0)) (V c (Pipeline.arrRef spec2 1))) := by
  show (cfg2.win 2).cut (grid2.coords t) ((Gen.dat2 (F := Ideal) V c).after 2 t) = _
  rw [Gen.after2_2]
  unfold Gen.out2_2
  rw [View.canon_unit_zero hz2]
  simp only [View.ld_unit_zero (S := S2000x128) hz2, View.ld_unit_zero (S := S128x128) hz2]
  rw [pay2]
  obtain ⟨e0, e1, e2, e3, e4, e5⟩ := idx2 t
  funext j
  refine mm_of_blocks (V c (Pipeline.arrRef spec2 0)) (V c (Pipeline.arrRef spec2 1)) (Gen.iblk2 V c 0 t) (Gen.iblk2 V c 1 t)
    ((cfg2.win 2).xinj (grid2.coords t) j) (((cfg2.win 2).blk t).view.emb j) (fun k => ?_) (fun k => ?_)
  · show V c (Pipeline.arrRef spec2 0) (((cfg2.win 0).blk t).view.emb (ix2 (j 0) k)) = V c (Pipeline.arrRef spec2 0) (ix2 ((((cfg2.win 2).blk t).view.emb j) 0) k)
    refine congrArg (V c (Pipeline.arrRef spec2 0)) ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c (Pipeline.arrRef spec2 1) (((cfg2.win 1).blk t).view.emb (ix2 k (j 1))) = V c (Pipeline.arrRef spec2 1) (ix2 k ((((cfg2.win 2).blk t).view.emb j) 1))
    refine congrArg (V c (Pipeline.arrRef spec2 1)) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point t's block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v51).slice (win2_2.rect t)).set ↔ _
  rw [View.set_slice_whole, Rect.mem_set_unit]
  exact Iff.rfl

/-- Row r of the result lies in the block of point r / 2000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 2000 < cfg2.N := by rw [show cfg2.N = 50 from N_2]; omega
  refine ⟨⟨(i 0).val / 2000, ht⟩, flush2_2 _, ?_⟩
  rw [mem_blk2]
  obtain ⟨e0, e1, e2, e3, e4, e5⟩ := idx2 ⟨(i 0).val / 2000, ht⟩
  have e4' : win2_2.index ⟨(i 0).val / 2000, ht⟩ (0 : Fin 2) = (i 0).val / 2000 := e4
  intro a
  match a with
  | ⟨0, _⟩ => show win2_2.index _ (0 : Fin 2) * 2000 ≤ (i 0).val ∧ (i 0).val < win2_2.index _ (0 : Fin 2) * 2000 + 2000; omega
  | ⟨1, _⟩ => show win2_2.index _ (1 : Fin 2) * 128 ≤ (i 1).val ∧ (i 1).val < win2_2.index _ (1 : Fin 2) * 128 + 128; omega

set_option maxHeartbeats 2000000 in
/-- REGION 2: the result array ends holding the plain product of the two arrays the region finds. -/
theorem final2 (V : (c : Dev nD) → (b : Ref sig .tc) → Buf (Elt Ideal) ((c : Thread nD τ).loc b)) (c : Dev nD) :
    (Gen.dat2 (F := Ideal) V c).arrAt 2 cfg2.N
      = GcnSpec.mm (V c (Pipeline.arrRef spec2 0)) (V c (Pipeline.arrRef spec2 1)) :=
  (Gen.dat2 (F := Ideal) V c).arrAt_eq_of_cover 2 (GcnSpec.mm (V c (Pipeline.arrRef spec2 0)) (V c (Pipeline.arrRef spec2 1)))
    (fun t _ => flushed2_eq V c t) cover2

end Cert.KernelIdeal.Hand

end
-- ==== Proof.Region3.lean ====
/-
  Region 3 (the combine step of one layer) as one whole-array equation: after the region its result array holds the layer
  `GcnSpec.coreRes` of the arrays it reads, entry by entry. Point t reads rows 2000·t … 2000·t + 1999 of the row-blocked arrays and
  the whole of the three one-row arrays, a row of the layer depends on the same row of its operands, and the fifty
  blocks of 2000 rows cover the 100000 rows.
-/
import proofs.«175674_j31894427140389_1_alg».proof.Proof.Gen.KernelIdeal.Frame
import proofs.«175674_j31894427140389_1_alg».proof.Proof.CombineBody
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_3 : (![0, 0] : Fin 2 → Nat) = fun _ => 0 := funext fun a => by fin_cases a <;> rfl

/-- The printed index maps over the grid: the row-blocked windows sit at block row t, the one-row windows at block 0. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_7.index t (0 : Fin 2) = t.val
    ∧ win3_7.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0 :=
  (by decide +kernel : ∀ t : Fin grid3.N, _)

/-- Row p of point t's block is row 2000·t + p of the array. -/
def rowOf3 (t : Fin cfg3.N) (p : Fin 2000) : Fin 100000 :=
  ⟨2000 * t.val + p.val, by have := t.isLt; have hN : cfg3.N = 50 := N_3; have := p.isLt; omega⟩

/-- Window 0's block at point t is rows 2000·t … 2000·t + 1999 of its array. -/
theorem iblk3_0_apply (c : Dev nD) (t : Fin cfg3.N) (p : Fin 2000) (k : Fin 128) :
    (iblk3 V c 0 t : S2000x128.Idx → EReal) (ix2 p k) = ((V c (Pipeline.arrRef spec3 0)) : S100000x128.Idx → EReal) (ix2 (rowOf3 t p) k) := by
  unfold iblk3
  rw [View.read_apply]
  refine congrArg ((V c (Pipeline.arrRef spec3 0)) : S100000x128.Idx → EReal) ?_
  funext a; apply Fin.ext
  match a with
  | ⟨0, _⟩ => show win3_0.index t (0 : Fin 2) * 2000 + 1 * p.val = 2000 * t.val + p.val; rw [(idx3 t).1]; omega
  | ⟨1, _⟩ => show win3_0.index t (1 : Fin 2) * 128 + 1 * k.val = k.val; rw [(idx3 t).2.1]; omega

/-- Window 1's block at point t is rows 2000·t … 2000·t + 1999 of its array. -/
theorem iblk3_1_apply (c : Dev nD) (t : Fin cfg3.N) (p : Fin 2000) (k : Fin 128) :
    (iblk3 V c 1 t : S2000x128.Idx → EReal) (ix2 p k) = ((V c (Pipeline.arrRef spec3 1)) : S100000x128.Idx → EReal) (ix2 (rowOf3 t p) k) := by
  unfold iblk3
  rw [View.read_apply]
  refine congrArg ((V c (Pipeline.arrRef spec3 1)) : S100000x128.Idx → EReal) ?_
  funext a; apply Fin.ext
  match a with
  | ⟨0, _⟩ => show win3_1.index t (0 : Fin 2) * 2000 + 1 * p.val = 2000 * t.val + p.val; rw [(idx3 t).2.2.1]; omega
  | ⟨1, _⟩ => show win3_1.index t (1 : Fin 2) * 128 + 1 * k.val = k.val; rw [(idx3 t).2.2.2.1]; omega

/-- Window 2's block at point t is rows 2000·t … 2000·t + 1999 of its array. -/
theorem iblk3_2_apply (c : Dev nD) (t : Fin cfg3.N) (p : Fin 2000) (k : Fin 128) :
    (iblk3 V c 2 t : S2000x128.Idx → EReal) (ix2 p k) = ((V c (Pipeline.arrRef spec3 2)) : S100000x128.Idx → EReal) (ix2 (rowOf3 t p) k) := by
  unfold iblk3
  rw [View.read_apply]
  refine congrArg ((V c (Pipeline.arrRef spec3 2)) : S100000x128.Idx → EReal) ?_
  funext a; apply Fin.ext
  match a with
  | ⟨0, _⟩ => show win3_2.index t (0 : Fin 2) * 2000 + 1 * p.val = 2000 * t.val + p.val; rw [(idx3 t).2.2.2.2.1]; omega
  | ⟨1, _⟩ => show win3_2.index t (1 : Fin 2) * 128 + 1 * k.val = k.val; rw [(idx3 t).2.2.2.2.2.1]; omega

/-- The degree column's block at point t is entries 2000·t … 2000·t + 1999 of the column. -/
theorem iblk3_3_apply (c : Dev nD) (t : Fin cfg3.N) (p : Fin 2000) :
    (iblk3 V c 3 t : S2000x1.Idx → EReal) (ix2 p (0 : Fin 1)) = ((V c (Pipeline.arrRef spec3 3)) : S100000x1.Idx → EReal) (ix2 (rowOf3 t p) (0 : Fin 1)) := by
  unfold iblk3
  rw [View.read_apply]
  refine congrArg ((V c (Pipeline.arrRef spec3 3)) : S100000x1.Idx → EReal) ?_
  funext a; apply Fin.ext
  match a with
  | ⟨0, _⟩ => show win3_3.index t (0 : Fin 2) * 2000 + 1 * p.val = 2000 * t.val + p.val; rw [(idx3 t).2.2.2.2.2.2.1]; omega
  | ⟨1, _⟩ => show win3_3.index t (1 : Fin 2) * 1 + 1 * (0 : Fin 1).val = (0 : Fin 1).val; rw [(idx3 t).2.2.2.2.2.2.2.1]; rfl

/-- Window 4's block at every point is its whole one-row array. -/
theorem iblk3_4_apply (c : Dev nD) (t : Fin cfg3.N) (k : Fin 128) :
    (iblk3 V c 4 t : S1x128.Idx → EReal) (ix2 (0 : Fin 1) k) = ((V c (Pipeline.arrRef spec3 4)) : S1x128.Idx → EReal) (ix2 (0 : Fin 1) k) := by
  unfold iblk3
  rw [View.read_apply]
  refine congrArg ((V c (Pipeline.arrRef spec3 4)) : S1x128.Idx → EReal) ?_
  funext a; apply Fin.ext
  match a with
  | ⟨0, _⟩ => show win3_4.index t (0 : Fin 2) * 1 + 1 * (0 : Fin 1).val = (0 : Fin 1).val; rw [(idx3 t).2.2.2.2.2.2.2.2.2.2.1]; rfl
  | ⟨1, _⟩ => show win3_4.index t (1 : Fin 2) * 128 + 1 * k.val = k.val; rw [(idx3 t).2.2.2.2.2.2.2.2.2.2.2.1]; omega

/-- Window 5's block at every point is its whole one-row array. -/
theorem iblk3_5_apply (c : Dev nD) (t : Fin cfg3.N) (k : Fin 128) :
    (iblk3 V c 5 t : S1x128.Idx → EReal) (ix2 (0 : Fin 1) k) = ((V c (Pipeline.arrRef spec3 5)) : S1x128.Idx → EReal) (ix2 (0 : Fin 1) k) := by
  unfold iblk3
  rw [View.read_apply]
  refine congrArg ((V c (Pipeline.arrRef spec3 5)) : S1x128.Idx → EReal) ?_
  funext a; apply Fin.ext
  match a with
  | ⟨0, _⟩ => show win3_5.index t (0 : Fin 2) * 1 + 1 * (0 : Fin 1).val = (0 : Fin 1).val; rw [(idx3 t).2.2.2.2.2.2.2.2.2.2.2.2.1]; rfl
  | ⟨1, _⟩ => show win3_5.index t (1 : Fin 2) * 128 + 1 * k.val = k.val; rw [(idx3 t).2.2.2.2.2.2.2.2.2.2.2.2.2.1]; omega

/-- Window 6's block at every point is its whole one-row array. -/
theorem iblk3_6_apply (c : Dev nD) (t : Fin cfg3.N) (k : Fin 128) :
    (iblk3 V c 6 t : S1x128.Idx → EReal) (ix2 (0 : Fin 1) k) = ((V c (Pipeline.arrRef spec3 6)) : S1x128.Idx → EReal) (ix2 (0 : Fin 1) k) := by
  unfold iblk3
  rw [View.read_apply]
  refine congrArg ((V c (Pipeline.arrRef spec3 6)) : S1x128.Idx → EReal) ?_
  funext a; apply Fin.ext
  match a with
  | ⟨0, _⟩ => show win3_6.index t (0 : Fin 2) * 1 + 1 * (0 : Fin 1).val = (0 : Fin 1).val; rw [(idx3 t).2.2.2.2.2.2.2.2.2.2.2.2.2.2.1]; rfl
  | ⟨1, _⟩ => show win3_6.index t (1 : Fin 2) * 128 + 1 * k.val = k.val; rw [(idx3 t).2.2.2.2.2.2.2.2.2.2.2.2.2.2.2]; omega

/-- Where an entry of the output block sits in the output array. -/
theorem emb3_out (t : Fin cfg3.N) (p : Fin 2000) (q : Fin 128) :
    (((cfg3.win 7).blk t).view.emb (ix2 p q : S2000x128.Idx) : S100000x128.Idx) = ix2 (rowOf3 t p) q := by
  funext a; apply Fin.ext
  match a with
  | ⟨0, _⟩ => show win3_7.index t (0 : Fin 2) * 2000 + 1 * p.val = 2000 * t.val + p.val; rw [(idx3 t).2.2.2.2.2.2.2.2.1]; omega
  | ⟨1, _⟩ => show win3_7.index t (1 : Fin 2) * 128 + 1 * q.val = q.val; rw [(idx3 t).2.2.2.2.2.2.2.2.2.1]; omega

set_option maxHeartbeats 2000000 in
/-- Row p of the layer of point t's blocks is row 2000·t + p of the layer of the whole arrays. -/
theorem blockRows3 (c : Dev nD) (t : Fin cfg3.N) (p : Fin 2000) (q : Fin 128) :
    GcnSpec.core (R := 2000) (P := 128) (iblk3 V c 0 t : S2000x128.Idx → EReal) (iblk3 V c 1 t : S2000x128.Idx → EReal) (iblk3 V c 3 t : S2000x1.Idx → EReal) (iblk3 V c 4 t : S1x128.Idx → EReal) (iblk3 V c 5 t : S1x128.Idx → EReal) (iblk3 V c 6 t : S1x128.Idx → EReal) (ix2 p q)
      = GcnSpec.core (R := 100000) (P := 128) (V c (Pipeline.arrRef spec3 0) : S100000x128.Idx → EReal) (V c (Pipeline.arrRef spec3 1) : S100000x128.Idx → EReal) (V c (Pipeline.arrRef spec3 3) : S100000x1.Idx → EReal) (V c (Pipeline.arrRef spec3 4) : S1x128.Idx → EReal) (V c (Pipeline.arrRef spec3 5) : S1x128.Idx → EReal) (V c (Pipeline.arrRef spec3 6) : S1x128.Idx → EReal) (ix2 (rowOf3 t p) q) :=
  GcnSpec.core_rows (R := 100000) (P := 128) (R' := 2000) (V c (Pipeline.arrRef spec3 0) : S100000x128.Idx → EReal) (V c (Pipeline.arrRef spec3 1) : S100000x128.Idx → EReal) (V c (Pipeline.arrRef spec3 3) : S100000x1.Idx → EReal) (V c (Pipeline.arrRef spec3 4) : S1x128.Idx → EReal) (V c (Pipeline.arrRef spec3 5) : S1x128.Idx → EReal) (V c (Pipeline.arrRef spec3 6) : S1x128.Idx → EReal)
      (iblk3 V c 0 t : S2000x128.Idx → EReal) (iblk3 V c 1 t : S2000x128.Idx → EReal) (iblk3 V c 3 t : S2000x1.Idx → EReal) (iblk3 V c 4 t : S1x128.Idx → EReal) (iblk3 V c 5 t : S1x128.Idx → EReal) (iblk3 V c 6 t : S1x128.Idx → EReal) (rowOf3 t p) p
      (fun k => iblk3_0_apply V c t p k) (fun k => iblk3_1_apply V c t p k) (iblk3_3_apply V c t p)
      (fun k => iblk3_4_apply V c t k) (fun k => iblk3_5_apply V c t k) (fun k => iblk3_6_apply V c t k) q

set_option maxHeartbeats 2000000 in
/-- What point t writes back is block t of the layer of the whole arrays. -/
theorem flushed3_eq (c : Dev nD) (t : Fin cfg3.N) :
    (dat3 V c).flushed 7 t = ((cfg3.win 7).blk t).view.read (Elt Ideal) (GcnSpec.coreRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero hz2_3]
  simp only [View.ld_unit_zero (S := S2000x128) hz2_3, View.ld_unit_zero (S := S2000x1) hz2_3, View.ld_unit_zero (S := S1x128) hz2_3]
  rw [body3_eq]
  funext y
  obtain ⟨p, q, rfl⟩ : ∃ (p : Fin 2000) (q : Fin 128), y = ix2 p q := ⟨y 0, y 1, eq_ix2 y⟩
  rw [View.read_apply, emb3_out]
  refine Eq.trans (b := GcnSpec.core (R := 2000) (P := 128) (iblk3 V c 0 t : S2000x128.Idx → EReal) (iblk3 V c 1 t : S2000x128.Idx → EReal) (iblk3 V c 3 t : S2000x1.Idx → EReal) (iblk3 V c 4 t : S1x128.Idx → EReal) (iblk3 V c 5 t : S1x128.Idx → EReal) (iblk3 V c 6 t : S1x128.Idx → EReal) (ix2 p q) + (iblk3 V c 2 t : S2000x128.Idx → EReal) (ix2 p q)) rfl ?_
  rw [iblk3_2_apply V c t p q, blockRows3 V c t p q]
  rfl

/-- An index of the output array is in point t's block iff each coordinate is in the block's range on its axis. -/
theorem mem_blk3 (t : Fin cfg3.N) (i : S100000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole (Pipeline.arrRef spec3 7)).slice (win3_7.rect t)).set ↔ _
  rw [View.set_slice_whole, Rect.mem_set_unit]
  exact Iff.rfl

/-- Every row lies in the block of point (row / 2000). -/
theorem cover3 (i : S100000x128.Idx) :
    ∃ t : Fin cfg3.N, (cfg3.win 7).flush t = true ∧ i ∈ ((cfg3.win 7).blk t).view.set := by
  have h0 : (i 0).val < 100000 := idx2_lt0 i
  have h1 : (i 1).val < 128 := idx2_lt1 i
  have hN : cfg3.N = 50 := N_3
  refine ⟨⟨(i 0).val / 2000, by rw [hN]; omega⟩, flush3_7 _, ?_⟩
  rw [mem_blk3]
  intro a
  match a with
  | ⟨0, _⟩ =>
    show win3_7.index _ (0 : Fin 2) * 2000 ≤ (i 0).val ∧ (i 0).val < win3_7.index _ (0 : Fin 2) * 2000 + 2000
    rw [(idx3 _).2.2.2.2.2.2.2.2.1]
    show (i 0).val / 2000 * 2000 ≤ (i 0).val ∧ (i 0).val < (i 0).val / 2000 * 2000 + 2000
    omega
  | ⟨1, _⟩ =>
    show win3_7.index _ (1 : Fin 2) * 128 ≤ (i 1).val ∧ (i 1).val < win3_7.index _ (1 : Fin 2) * 128 + 128
    rw [(idx3 _).2.2.2.2.2.2.2.2.2.1]
    omega

/-- THE REGION'S RESULT: the layer of the arrays it reads. -/
theorem final3 (c : Dev nD) :
    (dat3 V c).arrAt 7 cfg3.N = (GcnSpec.coreRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) :=
  (dat3 V c).arrAt_eq_of_cover 7 (GcnSpec.coreRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) (fun t _ => flushed3_eq V c t) (cover3)

end Cert.KernelIdeal.Hand

end
-- ==== Proof.Region4.lean ====
/-
  Region 4: the third layer's product h · W, as one equation between whole arrays.

  The region walks the 100000 rows in 50 blocks of 2000. At point t it multiplies rows 2000·t … 2000·t + 1999 of the left
  array by the whole 128-by-128 right array, on the matrix unit into a splat of zeros, and writes the 2000-by-128 result
  to the same rows of the result array. On the extended reals the block product is the plain sum over k of
  left(r, k) · right(k, c) (the change of float format before the product is the identity, the zero accumulator adds
  nothing), and a row of a product reads that row of the left operand only. So block t of the result is block t of the
  product of the two whole arrays, the 50 blocks cover every row (row r is in block r / 2000), and the result array ends
  holding the plain product, for whatever contents the region finds.
-/
import proofs.«175674_j31894427140389_1_alg».proof.Proof.Gen.KernelIdeal.Frame
import proofs.«175674_j31894427140389_1_alg».proof.Proof.Spec
import proofs.«175674_j31894427140389_1_alg».proof.Proof.LibPlainProduct
import proofs.«175674_j31894427140389_1_alg».proof.Proof.MmBlocks
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

theorem hz4 : (![0, 0] : Fin 2 → Nat) = fun _ => 0 := funext fun a => by fin_cases a <;> rfl

/-- The block's product is the plain matrix product of the two blocks. -/
theorem pay4 (x0 : Vec Ideal S2000x128 .f32) (x1 : Vec Ideal S128x128 .f32) :
    Gen.k4_pay1 x0 x1 = GcnSpec.mm x0 x1 := by
  funext i
  obtain ⟨r, q, rfl⟩ : ∃ (r : Fin 2000) (q : Fin 128), i = ix2 r q := ⟨i 0, i 1, eq_ix2 i⟩
  unfold Gen.k4_pay1
  refine (PlainProduct.matmul_zero_apply Gen.dot_S2000x128_S128x128_S2000x128_1_0_0_1_n_n_wf none
    (truncf .bf16 (shapeCast S2000x128 x0 shapeCasts_S2000x128_S2000x128) bitsLt_bf16_f32) (truncf .bf16 x1 bitsLt_bf16_f32) r q).trans ?_
  rw [shapeCast_self x0 shapeCasts_S2000x128_S2000x128]
  rfl

/-- Point t's blocks: rows 2000·t … 2000·t + 1999 of the left operand and of the result, the whole right operand. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 2000000 in
/-- What point t writes back is block t of the product of the two arrays as the region finds them. -/
theorem flushed4_eq (V : (c : Dev nD) → (b : Ref sig .tc) → Buf (Elt Ideal) ((c : Thread nD τ).loc b)) (c : Dev nD) (t : Fin cfg4.N) :
    (Gen.dat4 (F := Ideal) V c).flushed 2 t
      = ((cfg4.win 2).blk t).view.read (Elt Ideal) (GcnSpec.mm (V c (Pipeline.arrRef spec4 0)) (V c (Pipeline.arrRef spec4 1))) := by
  show (cfg4.win 2).cut (grid4.coords t) ((Gen.dat4 (F := Ideal) V c).after 2 t) = _
  rw [Gen.after4_2]
  unfold Gen.out4_2
  rw [View.canon_unit_zero hz4]
  simp only [View.ld_unit_zero (S := S2000x128) hz4, View.ld_unit_zero (S := S128x128) hz4]
  rw [pay4]
  obtain ⟨e0, e1, e2, e3, e4, e5⟩ := idx4 t
  funext j
  refine mm_of_blocks (V c (Pipeline.arrRef spec4 0)) (V c (Pipeline.arrRef spec4 1)) (Gen.iblk4 V c 0 t) (Gen.iblk4 V c 1 t)
    ((cfg4.win 2).xinj (grid4.coords t) j) (((cfg4.win 2).blk t).view.emb j) (fun k => ?_) (fun k => ?_)
  · show V c (Pipeline.arrRef spec4 0) (((cfg4.win 0).blk t).view.emb (ix2 (j 0) k)) = V c (Pipeline.arrRef spec4 0) (ix2 ((((cfg4.win 2).blk t).view.emb j) 0) k)
    refine congrArg (V c (Pipeline.arrRef spec4 0)) ?_
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  · show V c (Pipeline.arrRef spec4 1) (((cfg4.win 1).blk t).view.emb (ix2 k (j 1))) = V c (Pipeline.arrRef spec4 1) (ix2 k ((((cfg4.win 2).blk t).view.emb j) 1))
    refine congrArg (V c (Pipeline.arrRef spec4 1)) ?_
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the result array is in point t's block iff each coordinate is in the block's range on its axis. -/
theorem mem_blk4 (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v69).slice (win4_2.rect t)).set ↔ _
  rw [View.set_slice_whole, Rect.mem_set_unit]
  exact Iff.rfl

/-- Row r of the result lies in the block of point r / 2000. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 2000 < cfg4.N := by rw [show cfg4.N = 50 from N_4]; omega
  refine ⟨⟨(i 0).val / 2000, ht⟩, flush4_2 _, ?_⟩
  rw [mem_blk4]
  obtain ⟨e0, e1, e2, e3, e4, e5⟩ := idx4 ⟨(i 0).val / 2000, ht⟩
  have e4' : win4_2.index ⟨(i 0).val / 2000, ht⟩ (0 : Fin 2) = (i 0).val / 2000 := e4
  intro a
  match a with
  | ⟨0, _⟩ => show win4_2.index _ (0 : Fin 2) * 2000 ≤ (i 0).val ∧ (i 0).val < win4_2.index _ (0 : Fin 2) * 2000 + 2000; omega
  | ⟨1, _⟩ => show win4_2.index _ (1 : Fin 2) * 128 ≤ (i 1).val ∧ (i 1).val < win4_2.index _ (1 : Fin 2) * 128 + 128; omega

set_option maxHeartbeats 2000000 in
/-- REGION 4: the result array ends holding the plain product of the two arrays the region finds. -/
theorem final4 (V : (c : Dev nD) → (b : Ref sig .tc) → Buf (Elt Ideal) ((c : Thread nD τ).loc b)) (c : Dev nD) :
    (Gen.dat4 (F := Ideal) V c).arrAt 2 cfg4.N
      = GcnSpec.mm (V c (Pipeline.arrRef spec4 0)) (V c (Pipeline.arrRef spec4 1)) :=
  (Gen.dat4 (F := Ideal) V c).arrAt_eq_of_cover 2 (GcnSpec.mm (V c (Pipeline.arrRef spec4 0)) (V c (Pipeline.arrRef spec4 1)))
    (fun t _ => flushed4_eq V c t) cover4

end Cert.KernelIdeal.Hand

end
-- ==== Proof.Region5.lean ====
/-
  Region 5 (the combine step of one layer) as one whole-array equation: after the region its result array holds the layer
  `GcnSpec.coreRes` of the arrays it reads, entry by entry. Point t reads rows 2000·t … 2000·t + 1999 of the row-blocked arrays and
  the whole of the three one-row arrays, a row of the layer depends on the same row of its operands, and the fifty
  blocks of 2000 rows cover the 100000 rows.
-/
import proofs.«175674_j31894427140389_1_alg».proof.Proof.Gen.KernelIdeal.Frame
import proofs.«175674_j31894427140389_1_alg».proof.Proof.CombineBody
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_5 : (![0, 0] : Fin 2 → Nat) = fun _ => 0 := funext fun a => by fin_cases a <;> rfl

/-- The printed index maps over the grid: the row-blocked windows sit at block row t, the one-row windows at block 0. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0
    ∧ win5_7.index t (0 : Fin 2) = t.val
    ∧ win5_7.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0 :=
  (by decide +kernel : ∀ t : Fin grid5.N, _)

/-- Row p of point t's block is row 2000·t + p of the array. -/
def rowOf5 (t : Fin cfg5.N) (p : Fin 2000) : Fin 100000 :=
  ⟨2000 * t.val + p.val, by have := t.isLt; have hN : cfg5.N = 50 := N_5; have := p.isLt; omega⟩

/-- Window 0's block at point t is rows 2000·t … 2000·t + 1999 of its array. -/
theorem iblk5_0_apply (c : Dev nD) (t : Fin cfg5.N) (p : Fin 2000) (k : Fin 128) :
    (iblk5 V c 0 t : S2000x128.Idx → EReal) (ix2 p k) = ((V c (Pipeline.arrRef spec5 0)) : S100000x128.Idx → EReal) (ix2 (rowOf5 t p) k) := by
  unfold iblk5
  rw [View.read_apply]
  refine congrArg ((V c (Pipeline.arrRef spec5 0)) : S100000x128.Idx → EReal) ?_
  funext a; apply Fin.ext
  match a with
  | ⟨0, _⟩ => show win5_0.index t (0 : Fin 2) * 2000 + 1 * p.val = 2000 * t.val + p.val; rw [(idx5 t).1]; omega
  | ⟨1, _⟩ => show win5_0.index t (1 : Fin 2) * 128 + 1 * k.val = k.val; rw [(idx5 t).2.1]; omega

/-- Window 1's block at point t is rows 2000·t … 2000·t + 1999 of its array. -/
theorem iblk5_1_apply (c : Dev nD) (t : Fin cfg5.N) (p : Fin 2000) (k : Fin 128) :
    (iblk5 V c 1 t : S2000x128.Idx → EReal) (ix2 p k) = ((V c (Pipeline.arrRef spec5 1)) : S100000x128.Idx → EReal) (ix2 (rowOf5 t p) k) := by
  unfold iblk5
  rw [View.read_apply]
  refine congrArg ((V c (Pipeline.arrRef spec5 1)) : S100000x128.Idx → EReal) ?_
  funext a; apply Fin.ext
  match a with
  | ⟨0, _⟩ => show win5_1.index t (0 : Fin 2) * 2000 + 1 * p.val = 2000 * t.val + p.val; rw [(idx5 t).2.2.1]; omega
  | ⟨1, _⟩ => show win5_1.index t (1 : Fin 2) * 128 + 1 * k.val = k.val; rw [(idx5 t).2.2.2.1]; omega

/-- Window 2's block at point t is rows 2000·t … 2000·t + 1999 of its array. -/
theorem iblk5_2_apply (c : Dev nD) (t : Fin cfg5.N) (p : Fin 2000) (k : Fin 128) :
    (iblk5 V c 2 t : S2000x128.Idx → EReal) (ix2 p k) = ((V c (Pipeline.arrRef spec5 2)) : S100000x128.Idx → EReal) (ix2 (rowOf5 t p) k) := by
  unfold iblk5
  rw [View.read_apply]
  refine congrArg ((V c (Pipeline.arrRef spec5 2)) : S100000x128.Idx → EReal) ?_
  funext a; apply Fin.ext
  match a with
  | ⟨0, _⟩ => show win5_2.index t (0 : Fin 2) * 2000 + 1 * p.val = 2000 * t.val + p.val; rw [(idx5 t).2.2.2.2.1]; omega
  | ⟨1, _⟩ => show win5_2.index t (1 : Fin 2) * 128 + 1 * k.val = k.val; rw [(idx5 t).2.2.2.2.2.1]; omega

/-- The degree column's block at point t is entries 2000·t … 2000·t + 1999 of the column. -/
theorem iblk5_3_apply (c : Dev nD) (t : Fin cfg5.N) (p : Fin 2000) :
    (iblk5 V c 3 t : S2000x1.Idx → EReal) (ix2 p (0 : Fin 1)) = ((V c (Pipeline.arrRef spec5 3)) : S100000x1.Idx → EReal) (ix2 (rowOf5 t p) (0 : Fin 1)) := by
  unfold iblk5
  rw [View.read_apply]
  refine congrArg ((V c (Pipeline.arrRef spec5 3)) : S100000x1.Idx → EReal) ?_
  funext a; apply Fin.ext
  match a with
  | ⟨0, _⟩ => show win5_3.index t (0 : Fin 2) * 2000 + 1 * p.val = 2000 * t.val + p.val; rw [(idx5 t).2.2.2.2.2.2.1]; omega
  | ⟨1, _⟩ => show win5_3.index t (1 : Fin 2) * 1 + 1 * (0 : Fin 1).val = (0 : Fin 1).val; rw [(idx5 t).2.2.2.2.2.2.2.1]; rfl

/-- Window 4's block at every point is its whole one-row array. -/
theorem iblk5_4_apply (c : Dev nD) (t : Fin cfg5.N) (k : Fin 128) :
    (iblk5 V c 4 t : S1x128.Idx → EReal) (ix2 (0 : Fin 1) k) = ((V c (Pipeline.arrRef spec5 4)) : S1x128.Idx → EReal) (ix2 (0 : Fin 1) k) := by
  unfold iblk5
  rw [View.read_apply]
  refine congrArg ((V c (Pipeline.arrRef spec5 4)) : S1x128.Idx → EReal) ?_
  funext a; apply Fin.ext
  match a with
  | ⟨0, _⟩ => show win5_4.index t (0 : Fin 2) * 1 + 1 * (0 : Fin 1).val = (0 : Fin 1).val; rw [(idx5 t).2.2.2.2.2.2.2.2.2.2.1]; rfl
  | ⟨1, _⟩ => show win5_4.index t (1 : Fin 2) * 128 + 1 * k.val = k.val; rw [(idx5 t).2.2.2.2.2.2.2.2.2.2.2.1]; omega

/-- Window 5's block at every point is its whole one-row array. -/
theorem iblk5_5_apply (c : Dev nD) (t : Fin cfg5.N) (k : Fin 128) :
    (iblk5 V c 5 t : S1x128.Idx → EReal) (ix2 (0 : Fin 1) k) = ((V c (Pipeline.arrRef spec5 5)) : S1x128.Idx → EReal) (ix2 (0 : Fin 1) k) := by
  unfold iblk5
  rw [View.read_apply]
  refine congrArg ((V c (Pipeline.arrRef spec5 5)) : S1x128.Idx → EReal) ?_
  funext a; apply Fin.ext
  match a with
  | ⟨0, _⟩ => show win5_5.index t (0 : Fin 2) * 1 + 1 * (0 : Fin 1).val = (0 : Fin 1).val; rw [(idx5 t).2.2.2.2.2.2.2.2.2.2.2.2.1]; rfl
  | ⟨1, _⟩ => show win5_5.index t (1 : Fin 2) * 128 + 1 * k.val = k.val; rw [(idx5 t).2.2.2.2.2.2.2.2.2.2.2.2.2.1]; omega

/-- Window 6's block at every point is its whole one-row array. -/
theorem iblk5_6_apply (c : Dev nD) (t : Fin cfg5.N) (k : Fin 128) :
    (iblk5 V c 6 t : S1x128.Idx → EReal) (ix2 (0 : Fin 1) k) = ((V c (Pipeline.arrRef spec5 6)) : S1x128.Idx → EReal) (ix2 (0 : Fin 1) k) := by
  unfold iblk5
  rw [View.read_apply]
  refine congrArg ((V c (Pipeline.arrRef spec5 6)) : S1x128.Idx → EReal) ?_
  funext a; apply Fin.ext
  match a with
  | ⟨0, _⟩ => show win5_6.index t (0 : Fin 2) * 1 + 1 * (0 : Fin 1).val = (0 : Fin 1).val; rw [(idx5 t).2.2.2.2.2.2.2.2.2.2.2.2.2.2.1]; rfl
  | ⟨1, _⟩ => show win5_6.index t (1 : Fin 2) * 128 + 1 * k.val = k.val; rw [(idx5 t).2.2.2.2.2.2.2.2.2.2.2.2.2.2.2]; omega

/-- Where an entry of the output block sits in the output array. -/
theorem emb5_out (t : Fin cfg5.N) (p : Fin 2000) (q : Fin 128) :
    (((cfg5.win 7).blk t).view.emb (ix2 p q : S2000x128.Idx) : S100000x128.Idx) = ix2 (rowOf5 t p) q := by
  funext a; apply Fin.ext
  match a with
  | ⟨0, _⟩ => show win5_7.index t (0 : Fin 2) * 2000 + 1 * p.val = 2000 * t.val + p.val; rw [(idx5 t).2.2.2.2.2.2.2.2.1]; omega
  | ⟨1, _⟩ => show win5_7.index t (1 : Fin 2) * 128 + 1 * q.val = q.val; rw [(idx5 t).2.2.2.2.2.2.2.2.2.1]; omega

set_option maxHeartbeats 2000000 in
/-- Row p of the layer of point t's blocks is row 2000·t + p of the layer of the whole arrays. -/
theorem blockRows5 (c : Dev nD) (t : Fin cfg5.N) (p : Fin 2000) (q : Fin 128) :
    GcnSpec.core (R := 2000) (P := 128) (iblk5 V c 0 t : S2000x128.Idx → EReal) (iblk5 V c 1 t : S2000x128.Idx → EReal) (iblk5 V c 3 t : S2000x1.Idx → EReal) (iblk5 V c 4 t : S1x128.Idx → EReal) (iblk5 V c 5 t : S1x128.Idx → EReal) (iblk5 V c 6 t : S1x128.Idx → EReal) (ix2 p q)
      = GcnSpec.core (R := 100000) (P := 128) (V c (Pipeline.arrRef spec5 0) : S100000x128.Idx → EReal) (V c (Pipeline.arrRef spec5 1) : S100000x128.Idx → EReal) (V c (Pipeline.arrRef spec5 3) : S100000x1.Idx → EReal) (V c (Pipeline.arrRef spec5 4) : S1x128.Idx → EReal) (V c (Pipeline.arrRef spec5 5) : S1x128.Idx → EReal) (V c (Pipeline.arrRef spec5 6) : S1x128.Idx → EReal) (ix2 (rowOf5 t p) q) :=
  GcnSpec.core_rows (R := 100000) (P := 128) (R' := 2000) (V c (Pipeline.arrRef spec5 0) : S100000x128.Idx → EReal) (V c (Pipeline.arrRef spec5 1) : S100000x128.Idx → EReal) (V c (Pipeline.arrRef spec5 3) : S100000x1.Idx → EReal) (V c (Pipeline.arrRef spec5 4) : S1x128.Idx → EReal) (V c (Pipeline.arrRef spec5 5) : S1x128.Idx → EReal) (V c (Pipeline.arrRef spec5 6) : S1x128.Idx → EReal)
      (iblk5 V c 0 t : S2000x128.Idx → EReal) (iblk5 V c 1 t : S2000x128.Idx → EReal) (iblk5 V c 3 t : S2000x1.Idx → EReal) (iblk5 V c 4 t : S1x128.Idx → EReal) (iblk5 V c 5 t : S1x128.Idx → EReal) (iblk5 V c 6 t : S1x128.Idx → EReal) (rowOf5 t p) p
      (fun k => iblk5_0_apply V c t p k) (fun k => iblk5_1_apply V c t p k) (iblk5_3_apply V c t p)
      (fun k => iblk5_4_apply V c t k) (fun k => iblk5_5_apply V c t k) (fun k => iblk5_6_apply V c t k) q

set_option maxHeartbeats 2000000 in
/-- What point t writes back is block t of the layer of the whole arrays. -/
theorem flushed5_eq (c : Dev nD) (t : Fin cfg5.N) :
    (dat5 V c).flushed 7 t = ((cfg5.win 7).blk t).view.read (Elt Ideal) (GcnSpec.coreRes (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  unfold out5_7
  rw [View.canon_unit_zero hz2_5]
  simp only [View.ld_unit_zero (S := S2000x128) hz2_5, View.ld_unit_zero (S := S2000x1) hz2_5, View.ld_unit_zero (S := S1x128) hz2_5]
  rw [body5_eq]
  funext y
  obtain ⟨p, q, rfl⟩ : ∃ (p : Fin 2000) (q : Fin 128), y = ix2 p q := ⟨y 0, y 1, eq_ix2 y⟩
  rw [View.read_apply, emb5_out]
  refine Eq.trans (b := GcnSpec.core (R := 2000) (P := 128) (iblk5 V c 0 t : S2000x128.Idx → EReal) (iblk5 V c 1 t : S2000x128.Idx → EReal) (iblk5 V c 3 t : S2000x1.Idx → EReal) (iblk5 V c 4 t : S1x128.Idx → EReal) (iblk5 V c 5 t : S1x128.Idx → EReal) (iblk5 V c 6 t : S1x128.Idx → EReal) (ix2 p q) + (iblk5 V c 2 t : S2000x128.Idx → EReal) (ix2 p q)) rfl ?_
  rw [iblk5_2_apply V c t p q, blockRows5 V c t p q]
  rfl

/-- An index of the output array is in point t's block iff each coordinate is in the block's range on its axis. -/
theorem mem_blk5 (t : Fin cfg5.N) (i : S100000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole (Pipeline.arrRef spec5 7)).slice (win5_7.rect t)).set ↔ _
  rw [View.set_slice_whole, Rect.mem_set_unit]
  exact Iff.rfl

/-- Every row lies in the block of point (row / 2000). -/
theorem cover5 (i : S100000x128.Idx) :
    ∃ t : Fin cfg5.N, (cfg5.win 7).flush t = true ∧ i ∈ ((cfg5.win 7).blk t).view.set := by
  have h0 : (i 0).val < 100000 := idx2_lt0 i
  have h1 : (i 1).val < 128 := idx2_lt1 i
  have hN : cfg5.N = 50 := N_5
  refine ⟨⟨(i 0).val / 2000, by rw [hN]; omega⟩, flush5_7 _, ?_⟩
  rw [mem_blk5]
  intro a
  match a with
  | ⟨0, _⟩ =>
    show win5_7.index _ (0 : Fin 2) * 2000 ≤ (i 0).val ∧ (i 0).val < win5_7.index _ (0 : Fin 2) * 2000 + 2000
    rw [(idx5 _).2.2.2.2.2.2.2.2.1]
    show (i 0).val / 2000 * 2000 ≤ (i 0).val ∧ (i 0).val < (i 0).val / 2000 * 2000 + 2000
    omega
  | ⟨1, _⟩ =>
    show win5_7.index _ (1 : Fin 2) * 128 ≤ (i 1).val ∧ (i 1).val < win5_7.index _ (1 : Fin 2) * 128 + 128
    rw [(idx5 _).2.2.2.2.2.2.2.2.2.1]
    omega

/-- THE REGION'S RESULT: the layer of the arrays it reads. -/
theorem final5 (c : Dev nD) :
    (dat5 V c).arrAt 7 cfg5.N = (GcnSpec.coreRes (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) :=
  (dat5 V c).arrAt_eq_of_cover 7 (GcnSpec.coreRes (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) (fun t _ => flushed5_eq V c t) (cover5)

end Cert.KernelIdeal.Hand

end
-- ==== Proof.LibDense.lean ====
/-
  A dense layer on the extended reals, index by index, in its two spellings.

  For a matrix `a` of R rows and K columns, weights `w` (K by P) and a bias row `b` (1 by P), entry (r, c) of the
  layer is  Σ_k a(r, k) · w(k, c)  +  b(0, c).  A kernel computes it on the matrix unit into a splat of zeros and adds the
  bias row broadcast over the rows; a host program computes it as a `dot_general` and adds the bias row broadcast in
  dimensions (0, 1). Both, read at an index, are that sum: no rounding, no order of accumulation, and the zero
  accumulator adds nothing.

  Every entry of the result depends on ONE row of `a`: a block of consecutive rows of the result is the same function of
  the matching block of rows of `a` (`dense_rows`). The rectifier (maximum with the zero word) and the entrywise sum
  are pointwise, so they commute with taking row blocks trivially.

  Also here: four matrices of 64 columns joined along the columns, read at an index — column k of the result is column
  k mod 64 of piece k / 64 —, and two spellings of a vector as a one-row matrix.
-/
import Idealize.ShloMosaic.Lib.ValueIdx
import Idealize.ShloMosaic.Lib.ValueLayout
import Idealize.ShloMosaic.Lib.Pipeline.Value
import Idealize.ShloMosaic.PureOps.Ideal.Laws
import proofs.«175674_j31894427140389_1_alg».proof.Proof.LibPlainProduct

noncomputable section

namespace DenseSpec

open Idealize.ShloMosaic Idealize.ShloMosaic.ValueIdx

/-- An a-by-b matrix of extended reals. -/
abbrev Mat (a b : Nat) := (⟨2, ![a, b]⟩ : Shape).Idx → EReal

variable {R K P : Nat}

/-- Entry (r, c) of `a · w + b`, the bias a one-row matrix. -/
def dense (a : Mat R K) (w : Mat K P) (b : Mat 1 P) : Mat R P := fun i =>
  (∑ k : Fin K, a (ix2 (i 0) k) * w (ix2 k (i 1))) + b (ix2 (0 : Fin 1) (i 1))

theorem dense_apply (a : Mat R K) (w : Mat K P) (b : Mat 1 P) (r : Fin R) (c : Fin P) :
    dense a w b (ix2 r c) = (∑ k : Fin K, a (ix2 r k) * w (ix2 k c)) + b (ix2 (0 : Fin 1) c) := rfl

/-- The rectifier: the maximum with the value of the f32 zero word. -/
def relu (z : Mat R P) : Mat R P := fun i => max (z i) (Ideal.ofBits .f32 0x00000000#32)

/-- The entrywise sum. -/
def add (x y : Mat R P) : Mat R P := fun i => x i + y i

variable {R' : Nat}

/-- A row of `a · w + b` is a function of the same row of `a`. -/
theorem dense_rows (a : Mat R K) (a' : Mat R' K) (w : Mat K P) (b : Mat 1 P) (r : Fin R) (r' : Fin R')
    (h : ∀ k : Fin K, a' (ix2 r' k) = a (ix2 r k)) (c : Fin P) : dense a' w b (ix2 r' c) = dense a w b (ix2 r c) := by
  rw [dense_apply, dense_apply]
  exact congrArg (· + b (ix2 (0 : Fin 1) c)) (Finset.sum_congr rfl fun k _ => by rw [h k])

/-! ## The kernel's spelling and the host's -/

variable (wf : DotDims.WF (⟨2, ![R, K]⟩ : Shape) ⟨2, ![K, P]⟩ ⟨2, ![R, P]⟩ [1] [0] [0] [1] [] [])

/-- The matrix unit's product into a splat of zeros, plus the bias row broadcast over the rows, is the dense layer. -/
theorem matmul_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).Broadcasts ⟨2, ![R, P]⟩) :
    addf (matmul (PlainProduct.plainDims R K P wf) prec a w (constant ⟨2, ![R, P]⟩ .f32 0x00000000#32)) (broadcastTo ⟨2, ![R, P]⟩ b hb)
      = dense a w b := by
  funext i
  obtain ⟨r, c, rfl⟩ : ∃ (r : Fin R) (c : Fin P), i = ix2 r c := ⟨i 0, i 1, eq_ix2 i⟩
  rw [addf_apply, PlainProduct.matmul_zero_apply wf prec a w r c, broadcastTo_1b_ab_apply b hb r c, dense_apply]

/-- The host's `dot_general`, plus the bias row broadcast in dimensions (0, 1), is the dense layer. -/
theorem dotGeneral_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).BroadcastsInDim ⟨2, ![R, P]⟩ ![0, 1]) :
    addf (Host.dotGeneral (PlainProduct.plainDims R K P wf) prec a w) (broadcastInDim ⟨2, ![R, P]⟩ ![0, 1] hb b)
      = dense a w b := by
  funext i
  obtain ⟨r, c, rfl⟩ : ∃ (r : Fin R) (c : Fin P), i = ix2 r c := ⟨i 0, i 1, eq_ix2 i⟩
  rw [addf_apply, PlainProduct.dotGeneral_apply wf prec a w r c, dense_apply]
  refine congrArg (_ + ·) ?_
  refine broadcastInDim_apply _ hb b (ix2 r c) (ix2 (0 : Fin 1) c) fun ax => ?_
  match ax with
  | ⟨0, _⟩ => rfl
  | ⟨1, _⟩ =>
    show c.val = if P = 1 then 0 else c.val
    split
    · have := c.isLt; omega
    · rfl

/-! ## A vector as a one-row matrix, two ways -/

/-- A vector of P entries cast to a 1-by-P matrix reads, at (0, c), the vector at c. -/
theorem shapeCast_row_apply (x : (⟨1, ![P]⟩ : Shape).Idx → EReal) (h : (⟨1, ![P]⟩ : Shape).ShapeCasts ⟨2, ![1, P]⟩) (u : Fin 1) (c : Fin P) :
    shapeCast ⟨2, ![1, P]⟩ x h (ix2 u c) = x (ix1 c) :=
  shapeCast_apply x h _ _ (by
    have hu : u.val = 0 := by omega
    rw [Shape.rowMajor_val_two, Shape.rowMajor_val_one]
    show c.val = u.val * P + c.val
    rw [hu, Nat.zero_mul, Nat.zero_add])

/-- The same vector broadcast in dimension 1 to a 1-by-P matrix is the cast. -/
theorem broadcastInDim_row_eq_shapeCast (x : (⟨1, ![P]⟩ : Shape).Idx → EReal) (h : (⟨1, ![P]⟩ : Shape).ShapeCasts ⟨2, ![1, P]⟩)
    (hb : (⟨1, ![P]⟩ : Shape).BroadcastsInDim ⟨2, ![1, P]⟩ ![1]) :
    broadcastInDim ⟨2, ![1, P]⟩ ![1] hb x = shapeCast ⟨2, ![1, P]⟩ x h := by
  funext i
  obtain ⟨u, c, rfl⟩ : ∃ (u : Fin 1) (c : Fin P), i = ix2 u c := ⟨i 0, i 1, eq_ix2 i⟩
  rw [shapeCast_row_apply x h u c]
  refine broadcastInDim_apply _ hb x (ix2 u c) (ix1 c) fun ax => ?_
  match ax with
  | ⟨0, _⟩ =>
    show c.val = if P = 1 then 0 else c.val
    split
    · have := c.isLt; omega
    · rfl

end DenseSpec

end
-- ==== Proof.Region6.lean ====
/-
  Region 6: the classifier, x · Wc plus the bias row, as one equation between whole arrays.

  The region walks the 100000 rows in 50 blocks of 2000. At point t it multiplies rows 2000·t … 2000·t + 1999 of the left
  array by the whole 128-by-40 weight array, on the matrix unit into a splat of zeros, adds the 1-by-40 bias row
  broadcast over the rows, and writes the 2000-by-40 result to the same rows of the result array. On the extended reals
  entry (r, c) of the block is the plain sum over k of left(r, k) · weight(k, c), plus bias(0, c) (the change of float
  format before the product is the identity, the zero accumulator adds nothing), and it reads row r of the left operand
  only. So block t of the result is block t of the dense layer of the whole arrays, the 50 blocks cover every row (row r
  is in block r / 2000), and the result array ends holding the dense layer, for whatever contents the region finds.
-/
import proofs.«175674_j31894427140389_1_alg».proof.Proof.Gen.KernelIdeal.Frame
import proofs.«175674_j31894427140389_1_alg».proof.Proof.LibDense
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

theorem hz6 : (![0, 0] : Fin 2 → Nat) = fun _ => 0 := funext fun a => by fin_cases a <;> rfl

/-- The block's result is the dense layer of the three blocks. -/
theorem pay6 (x0 : Vec Ideal S2000x128 .f32) (x1 : Vec Ideal S128x40 .f32) (x2 : Vec Ideal S1x40 .f32) :
    Gen.k6_pay1 x0 x1 x2 = DenseSpec.dense x0 x1 x2 := by
  unfold Gen.k6_pay1
  refine (DenseSpec.matmul_bias Gen.dot_S2000x128_S128x40_S2000x40_1_0_0_1_n_n_wf none
    (truncf .bf16 (shapeCast S2000x128 x0 shapeCasts_S2000x128_S2000x128) bitsLt_bf16_f32) (truncf .bf16 x1 bitsLt_bf16_f32)
    (shapeCast S1x40 x2 shapeCasts_S1x40_S1x40) broadcasts_S1x40_S2000x40).trans ?_
  rw [shapeCast_self x0 shapeCasts_S2000x128_S2000x128, shapeCast_self x2 shapeCasts_S1x40_S1x40]
  rfl

/-- An entry of the dense layer of blocks is the entry of the dense layer of the arrays, when the block of the left
    operand holds the entry's row and the blocks of the weights and of the bias hold the entry's column. -/
theorem dense_of_blocks (A : DenseSpec.Mat 100000 128) (W : DenseSpec.Mat 128 40) (B : DenseSpec.Mat 1 40)
    (x0 : DenseSpec.Mat 2000 128) (x1 : DenseSpec.Mat 128 40) (x2 : DenseSpec.Mat 1 40)
    (j : (⟨2, ![2000, 40]⟩ : Shape).Idx) (i : (⟨2, ![100000, 40]⟩ : Shape).Idx)
    (h0 : ∀ k : Fin 128, x0 (ix2 (j 0) k) = A (ix2 (i 0) k)) (h1 : ∀ k : Fin 128, x1 (ix2 k (j 1)) = W (ix2 k (i 1)))
    (h2 : x2 (ix2 (0 : Fin 1) (j 1)) = B (ix2 (0 : Fin 1) (i 1))) :
    DenseSpec.dense x0 x1 x2 j = DenseSpec.dense A W B i := by
  show (∑ k : Fin 128, x0 (ix2 (j 0) k) * x1 (ix2 k (j 1))) + x2 (ix2 (0 : Fin 1) (j 1))
    = (∑ k : Fin 128, A (ix2 (i 0) k) * W (ix2 k (i 1))) + B (ix2 (0 : Fin 1) (i 1))
  rw [h2]
  exact congrArg (· + B (ix2 (0 : Fin 1) (i 1))) (Finset.sum_congr rfl fun k _ => by rw [h0 k, h1 k])

/-- Point t's blocks: rows 2000·t … 2000·t + 1999 of the left operand and of the result, the whole weights and bias. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 2000000 in
/-- What point t writes back is block t of the dense layer of the three arrays as the region finds them. -/
theorem flushed6_eq (V : (c : Dev nD) → (b : Ref sig .tc) → Buf (Elt Ideal) ((c : Thread nD τ).loc b)) (c : Dev nD) (t : Fin cfg6.N) :
    (Gen.dat6 (F := Ideal) V c).flushed 3 t
      = ((cfg6.win 3).blk t).view.read (Elt Ideal)
          (DenseSpec.dense (V c (Pipeline.arrRef spec6 0)) (V c (Pipeline.arrRef spec6 1)) (V c (Pipeline.arrRef spec6 2))) := by
  show (cfg6.win 3).cut (grid6.coords t) ((Gen.dat6 (F := Ideal) V c).after 3 t) = _
  rw [Gen.after6_3]
  unfold Gen.out6_3
  rw [View.canon_unit_zero hz6]
  simp only [View.ld_unit_zero (S := S2000x128) hz6, View.ld_unit_zero (S := S128x40) hz6, View.ld_unit_zero (S := S1x40) hz6]
  rw [pay6]
  obtain ⟨e0, e1, e2, e3, e4, e5, e6, e7⟩ := idx6 t
  funext j
  refine dense_of_blocks (V c (Pipeline.arrRef spec6 0)) (V c (Pipeline.arrRef spec6 1)) (V c (Pipeline.arrRef spec6 2))
    (Gen.iblk6 V c 0 t) (Gen.iblk6 V c 1 t) (Gen.iblk6 V c 2 t)
    ((cfg6.win 3).xinj (grid6.coords t) j) (((cfg6.win 3).blk t).view.emb j) (fun k => ?_) (fun k => ?_) ?_
  · show V c (Pipeline.arrRef spec6 0) (((cfg6.win 0).blk t).view.emb (ix2 (j 0) k)) = V c (Pipeline.arrRef spec6 0) (ix2 ((((cfg6.win 3).blk t).view.emb j) 0) k)
    refine congrArg (V c (Pipeline.arrRef spec6 0)) ?_
    funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 128 + 1 * k.val = k.val; omega
  · show V c (Pipeline.arrRef spec6 1) (((cfg6.win 1).blk t).view.emb (ix2 k (j 1))) = V c (Pipeline.arrRef spec6 1) (ix2 k ((((cfg6.win 3).blk t).view.emb j) 1))
    refine congrArg (V c (Pipeline.arrRef spec6 1)) ?_
    funext a; apply Fin.ext
    match a with
    | ⟨0, _⟩ => show win6_1.index t (0 : Fin 2) * 128 + 1 * k.val = k.val; omega
    | ⟨1, _⟩ => show win6_1.index t (1 : Fin 2) * 40 + 1 * (j 1).val = win6_3.index t (1 : Fin 2) * 40 + 1 * (j 1).val; omega
  · show V c (Pipeline.arrRef spec6 2) (((cfg6.win 2).blk t).view.emb (ix2 (0 : Fin 1) (j 1))) = V c (Pipeline.arrRef spec6 2) (ix2 (0 : Fin 1) ((((cfg6.win 3).blk t).view.emb j) 1))
    refine congrArg (V c (Pipeline.arrRef spec6 2)) ?_
    funext a; apply Fin.ext
    match a with
    | ⟨0, _⟩ => show win6_2.index t (0 : Fin 2) * 1 + 1 * 0 = 0; omega
    | ⟨1, _⟩ => show win6_2.index t (1 : Fin 2) * 40 + 1 * (j 1).val = win6_3.index t (1 : Fin 2) * 40 + 1 * (j 1).val; omega

/-- An index of the result array is in point t's block iff each coordinate is in the block's range on its axis. -/
theorem mem_blk6 (t : Fin cfg6.N) (i : S100000x40.Idx) :
    i ∈ ((cfg6.win 3).blk t).view.set ↔ ∀ a : Fin 2, win6_3.index t a * S2000x40.size a ≤ (i a).val ∧ (i a).val < win6_3.index t a * S2000x40.size a + S2000x40.size a := by
  show i ∈ ((View.whole main_v88).slice (win6_3.rect t)).set ↔ _
  rw [View.set_slice_whole, Rect.mem_set_unit]
  exact Iff.rfl

/-- Row r of the result lies in the block of point r / 2000. -/
theorem cover6 (i : S100000x40.Idx) : ∃ t : Fin cfg6.N, (cfg6.win 3).flush t = true ∧ i ∈ ((cfg6.win 3).blk t).view.set := by
  have hi0 : (i 0).val < 100000 := (i 0).isLt
  have hi1 : (i 1).val < 40 := (i 1).isLt
  have ht : (i 0).val / 2000 < cfg6.N := by rw [show cfg6.N = 50 from N_6]; omega
  refine ⟨⟨(i 0).val / 2000, ht⟩, flush6_3 _, ?_⟩
  rw [mem_blk6]
  obtain ⟨e0, e1, e2, e3, e4, e5, e6, e7⟩ := idx6 ⟨(i 0).val / 2000, ht⟩
  have e6' : win6_3.index ⟨(i 0).val / 2000, ht⟩ (0 : Fin 2) = (i 0).val / 2000 := e6
  intro a
  match a with
  | ⟨0, _⟩ => show win6_3.index _ (0 : Fin 2) * 2000 ≤ (i 0).val ∧ (i 0).val < win6_3.index _ (0 : Fin 2) * 2000 + 2000; omega
  | ⟨1, _⟩ => show win6_3.index _ (1 : Fin 2) * 40 ≤ (i 1).val ∧ (i 1).val < win6_3.index _ (1 : Fin 2) * 40 + 40; omega

set_option maxHeartbeats 2000000 in
/-- REGION 6: the result array ends holding the dense layer of the three arrays the region finds. -/
theorem final6 (V : (c : Dev nD) → (b : Ref sig .tc) → Buf (Elt Ideal) ((c : Thread nD τ).loc b)) (c : Dev nD) :
    (Gen.dat6 (F := Ideal) V c).arrAt 3 cfg6.N
      = DenseSpec.dense (V c (Pipeline.arrRef spec6 0)) (V c (Pipeline.arrRef spec6 1)) (V c (Pipeline.arrRef spec6 2)) :=
  (Gen.dat6 (F := Ideal) V c).arrAt_eq_of_cover 3
    (DenseSpec.dense (V c (Pipeline.arrRef spec6 0)) (V c (Pipeline.arrRef spec6 1)) (V c (Pipeline.arrRef spec6 2)))
    (fun t _ => flushed6_eq V c t) cover6

end Cert.KernelIdeal.Hand

end
-- ==== Proof.RefTerms.lean ====
/-
  The reference program's result as one structured function of its sixteen argument arrays.

  Each definition below spells, over whole arrays, a run of the reference's printed operations (same shape records,
  same literal words, same operand order); `out` composes them: three graph-convolution layers (a dense product, the
  normalized neighbourhood sum, the self term and the bias, then the row-wise layer norm and the exponential-linear
  unit, the last two layers with the layer's input added back) and a final dense product with its bias row.
-/
import proofs.«175674_j31894427140389_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-! ## The edge list -/

/-- Row 0 of the edge table as a vector: the source node of each edge. -/
def srcOf (e : (⟨S2x1600000, .i32⟩ : BufTy).Contents (Elt F)) : (⟨S1600000, .i32⟩ : BufTy).Contents (Elt F) :=
  fun i => shapeCast S1600000 (extractStridedSlice S1x1600000 ![0, 0] e slices_S2x1600000_S1x1600000_0_0) shapeCasts_S1x1600000_S1600000 i

/-- Row 1 of the edge table as a vector: the destination node of each edge. -/
def dstOf (e : (⟨S2x1600000, .i32⟩ : BufTy).Contents (Elt F)) : (⟨S1600000, .i32⟩ : BufTy).Contents (Elt F) :=
  fun i => shapeCast S1600000 (extractStridedSlice S1x1600000 ![1, 0] e slices_S2x1600000_S1x1600000_1_0) shapeCasts_S1x1600000_S1600000 i

/-- A node vector as a gather's index column: a negative entry is counted from the end (100000 is added), then
    the vector becomes a one-column table. -/
def normIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The reciprocal square root of each node's degree plus one: the in-degree is the scatter-add of a one per edge
    at the edge's destination into zeros. -/
def dinvOf (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (normIdx dst)
      (broadcastInDim S1600000 ![] bcast_S_S1600000 (constant S_ .f32 0x3F800000#32)))
    (broadcastInDim S100000 ![] bcast_S_S100000 (constant S_ .f32 0x3F800000#32)))

/-- The weight of each edge: the product of its two ends' reciprocal square-root degrees. -/
def enormOf (src dst : (⟨S1600000, .i32⟩ : BufTy).Contents (Elt F)) : (⟨S1600000, .f32⟩ : BufTy).Contents (Elt F) :=
  mulf (Host.gather gather_S100000_S1600000x1_S1600000_n_0_n_n_0_1_1 (dinvOf dst) (normIdx src))
    (Host.gather gather_S100000_S1600000x1_S1600000_n_0_n_n_0_1_1 (dinvOf dst) (normIdx dst))

/-- The weight of each node's self term: the square of its reciprocal square-root degree. -/
def dinv2Of (dst : (⟨S1600000, .i32⟩ : BufTy).Contents (Elt F)) : (⟨S100000, .f32⟩ : BufTy).Contents (Elt F) :=
  mulf (dinvOf dst) (dinvOf dst)

/-! ## One layer up to the layer norm -/

/-- The dense product of a layer: the 128 input features against the layer's 128-by-128 weights. -/
def hOf (x : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none x W

/-- A per-edge weight spread along the 128 features. -/
def ecolOf (enorm : (⟨S1600000, .f32⟩ : BufTy).Contents (Elt F)) : (⟨S1600000x128, .f32⟩ : BufTy).Contents (Elt F) :=
  broadcastInDim S1600000x128 ![0, 1] bcast_S1600000x1_S1600000x128_0_1
    (broadcastInDim S1600000x1 ![0] bcast_S1600000_S1600000x1_0 enorm)

/-- The neighbourhood sum: each edge's source row, times the edge's weight, scatter-added at the edge's
    destination (the destination column as the edge table spells it) into zeros. -/
def aggOf (src dst : (⟨S1600000, .i32⟩ : BufTy).Contents (Elt F)) (enorm : (⟨S1600000, .f32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 h (normIdx src)) (ecolOf enorm))

/-- A per-node value spread along the 128 features. -/
def dcolOf (d : (⟨S100000, .f32⟩ : BufTy).Contents (Elt F)) : (⟨S100000x128, .f32⟩ : BufTy).Contents (Elt F) :=
  broadcastInDim S100000x128 ![0, 1] bcast_S100000x1_S100000x128_0_1
    (broadcastInDim S100000x1 ![0] bcast_S100000_S100000x1_0 d)

/-- A 128-vector as one row. -/
def rowOf (b : (⟨S128, .f32⟩ : BufTy).Contents (Elt F)) : (⟨S1x128, .f32⟩ : BufTy).Contents (Elt F) :=
  broadcastInDim S1x128 ![1] bcast_S128_S1x128_1 b

/-- A 128-vector repeated on every node's row. -/
def browOf (b : (⟨S128, .f32⟩ : BufTy).Contents (Elt F)) : (⟨S100000x128, .f32⟩ : BufTy).Contents (Elt F) :=
  broadcastInDim S100000x128 ![0, 1] bcast_S1x128_S100000x128_0_1 (rowOf b)

/-- The layer before its norm: the neighbourhood sum, plus the node's own row times its self weight, plus the bias row. -/
def valOf (agg h : (⟨S100000x128, .f32⟩ : BufTy).Contents (Elt F)) (dinv2 : (⟨S100000, .f32⟩ : BufTy).Contents (Elt F)) (b : (⟨S128, .f32⟩ : BufTy).Contents (Elt F)) : (⟨S100000x128, .f32⟩ : BufTy).Contents (Elt F) :=
  addf (addf agg (mulf h (dcolOf dinv2))) (browOf b)

/-! ## The layer norm and the exponential-linear unit -/

/-- Each row's mean as a column: the row's sum over 128. -/
def meanOf (v : (⟨S100000x128, .f32⟩ : BufTy).Contents (Elt F)) : (⟨S100000x1, .f32⟩ : BufTy).Contents (Elt F) :=
  Host.divf
    (broadcastInDim S100000x1 ![0] bcast_S100000_S100000x1_0
      (Host.reduceAdd v (constant S_ .f32 0x00000000#32) reducesTo_S100000x128_S100000_d1 h_S_))
    (broadcastInDim S100000x1 ![] bcast_S_S100000x1 (constant S_ .f32 0x43000000#32))

/-- Each row's variance as a column, as the outlined variance function computes it with zero degrees of freedom
    removed: the sum of the squared deviations from the row mean over 128 − 0, kept where 128 − 0 is positive (the
    not-a-number word elsewhere). -/
def varOf (v : (⟨S100000x128, .f32⟩ : BufTy).Contents (Elt F)) : (⟨S100000x1, .f32⟩ : BufTy).Contents (Elt F) :=
  select
    (broadcastInDim S100000x1 ![] bcast_S_S100000x1
      (cmpf .ogt (subf (constant (F := F) S_ .f32 0x43000000#32) (sitofp .f32 (constantI S_ 32 0#32))) (constant S_ .f32 0x00000000#32)))
    (Host.divf
      (broadcastInDim S100000x1 ![0] bcast_S100000_S100000x1_0
        (Host.reduceAdd
          (mulf (subf v (broadcastInDim S100000x128 ![0, 1] bcast_S100000x1_S100000x128_0_1 (meanOf v)))
            (subf v (broadcastInDim S100000x128 ![0, 1] bcast_S100000x1_S100000x128_0_1 (meanOf v))))
          (constant S_ .f32 0x00000000#32) reducesTo_S100000x128_S100000_d1 h_S_))
      (broadcastInDim S100000x1 ![] bcast_S_S100000x1
        (subf (constant S_ .f32 0x43000000#32) (sitofp .f32 (constantI S_ 32 0#32)))))
    (broadcastInDim S100000x1 ![] bcast_S_S100000x1 (constant S_ .f32 0x7FC00000#32))

/-- The normalized rows times the scale row: the deviation from the given mean column, times the reciprocal square
    root of the given variance column plus ε, times the scale. -/
def scaledOf (v : (⟨S100000x128, .f32⟩ : BufTy).Contents (Elt F)) (mean var : (⟨S100000x1, .f32⟩ : BufTy).Contents (Elt F)) (g : (⟨S128, .f32⟩ : BufTy).Contents (Elt F)) : (⟨S100000x128, .f32⟩ : BufTy).Contents (Elt F) :=
  mulf
    (mulf (subf v (broadcastInDim S100000x128 ![0, 1] bcast_S100000x1_S100000x128_0_1 mean))
      (broadcastInDim S100000x128 ![0, 1] bcast_S100000x1_S100000x128_0_1
        (Host.rsqrt (addf var (broadcastInDim S100000x1 ![] bcast_S_S100000x1 (constant S_ .f32 0x3727C5AC#32))))))
    (browOf g)

/-- The layer norm: the scaled normalized rows plus the shift row. -/
def normOf (v : (⟨S100000x128, .f32⟩ : BufTy).Contents (Elt F)) (mean var : (⟨S100000x1, .f32⟩ : BufTy).Contents (Elt F)) (g be : (⟨S128, .f32⟩ : BufTy).Contents (Elt F)) : (⟨S100000x128, .f32⟩ : BufTy).Contents (Elt F) :=
  addf (scaledOf v mean var g) (browOf be)

/-- The exponential-linear unit: z where z is positive, else 1 · expm1 of (0 where z is positive, else z). -/
def eluOf (z : (⟨S100000x128, .f32⟩ : BufTy).Contents (Elt F)) : (⟨S100000x128, .f32⟩ : BufTy).Contents (Elt F) :=
  select (cmpf .ogt z (broadcastInDim S100000x128 ![] bcast_S_S100000x128 (constant S_ .f32 0x00000000#32))) z
    (mulf (broadcastInDim S100000x128 ![] bcast_S_S100000x128 (constant S_ .f32 0x3F800000#32))
      (Host.expm1
        (select (cmpf .ogt z (broadcastInDim S100000x128 ![] bcast_S_S100000x128 (constant S_ .f32 0x00000000#32)))
          (broadcastInDim S100000x128 ![] bcast_S_S100000x128 (constant S_ .f32 0x00000000#32)) z)))

/-- The layer norm of the rows of `v` with scale `g` and shift `be`, then the exponential-linear unit. -/
def lnElu (v : (⟨S100000x128, .f32⟩ : BufTy).Contents (Elt F)) (g be : (⟨S128, .f32⟩ : BufTy).Contents (Elt F)) : (⟨S100000x128, .f32⟩ : BufTy).Contents (Elt F) :=
  eluOf (normOf v (meanOf v) (varOf v) g be)

/-! ## The layers composed -/

/-- One whole layer on input `x`: product, neighbourhood sum, self term, bias, layer norm, unit. -/
def layerOf (src dst : (⟨S1600000, .i32⟩ : BufTy).Contents (Elt F)) (enorm : (⟨S1600000, .f32⟩ : BufTy).Contents (Elt F)) (dinv2 : (⟨S100000, .f32⟩ : BufTy).Contents (Elt F))
    (x : (⟨S100000x128, .f32⟩ : BufTy).Contents (Elt F)) (W : (⟨S128x128, .f32⟩ : BufTy).Contents (Elt F)) (b g be : (⟨S128, .f32⟩ : BufTy).Contents (Elt F)) : (⟨S100000x128, .f32⟩ : BufTy).Contents (Elt F) :=
  lnElu (valOf (aggOf src dst enorm (hOf x W)) (hOf x W) dinv2 b) g be

/-- The same on the edge table itself. -/
def layerE (e : (⟨S2x1600000, .i32⟩ : BufTy).Contents (Elt F)) (x : (⟨S100000x128, .f32⟩ : BufTy).Contents (Elt F)) (W : (⟨S128x128, .f32⟩ : BufTy).Contents (Elt F)) (b g be : (⟨S128, .f32⟩ : BufTy).Contents (Elt F)) :
    (⟨S100000x128, .f32⟩ : BufTy).Contents (Elt F) :=
  layerOf (srcOf e) (dstOf e) (enormOf (srcOf e) (dstOf e)) (dinv2Of (dstOf e)) x W b g be

/-- The final dense product with its bias row. -/
def headOf (x : (⟨S100000x128, .f32⟩ : BufTy).Contents (Elt F)) (Wc : (⟨S128x40, .f32⟩ : BufTy).Contents (Elt F)) (bc : (⟨S40, .f32⟩ : BufTy).Contents (Elt F)) : (⟨S100000x40, .f32⟩ : BufTy).Contents (Elt F) :=
  addf (Host.dotGeneral dot_S100000x128_S128x40_S100000x40_1_0_0_1_n_n none x Wc)
    (broadcastInDim S100000x40 ![0, 1] bcast_S1x40_S100000x40_0_1 (broadcastInDim S1x40 ![1] bcast_S40_S1x40_1 bc))

/-- The first layer's output. -/
def x1Of (x : (⟨S100000x128, .f32⟩ : BufTy).Contents (Elt F)) (e : (⟨S2x1600000, .i32⟩ : BufTy).Contents (Elt F)) (W0 : (⟨S128x128, .f32⟩ : BufTy).Contents (Elt F)) (b0 g0 be0 : (⟨S128, .f32⟩ : BufTy).Contents (Elt F)) :
    (⟨S100000x128, .f32⟩ : BufTy).Contents (Elt F) :=
  layerE e x W0 b0 g0 be0

/-- The second layer's output: the layer on the first's output, plus that output. -/
def x2Of (x : (⟨S100000x128, .f32⟩ : BufTy).Contents (Elt F)) (e : (⟨S2x1600000, .i32⟩ : BufTy).Contents (Elt F)) (W0 : (⟨S128x128, .f32⟩ : BufTy).Contents (Elt F)) (b0 g0 be0 : (⟨S128, .f32⟩ : BufTy).Contents (Elt F))
    (W1 : (⟨S128x128, .f32⟩ : BufTy).Contents (Elt F)) (b1 g1 be1 : (⟨S128, .f32⟩ : BufTy).Contents (Elt F)) : (⟨S100000x128, .f32⟩ : BufTy).Contents (Elt F) :=
  addf (layerE e (x1Of x e W0 b0 g0 be0) W1 b1 g1 be1) (x1Of x e W0 b0 g0 be0)

/-- The third layer's output: the layer on the second's output, plus that output. -/
def x3Of (x : (⟨S100000x128, .f32⟩ : BufTy).Contents (Elt F)) (e : (⟨S2x1600000, .i32⟩ : BufTy).Contents (Elt F)) (W0 : (⟨S128x128, .f32⟩ : BufTy).Contents (Elt F)) (b0 g0 be0 : (⟨S128, .f32⟩ : BufTy).Contents (Elt F))
    (W1 : (⟨S128x128, .f32⟩ : BufTy).Contents (Elt F)) (b1 g1 be1 : (⟨S128, .f32⟩ : BufTy).Contents (Elt F)) (W2 : (⟨S128x128, .f32⟩ : BufTy).Contents (Elt F)) (b2 g2 be2 : (⟨S128, .f32⟩ : BufTy).Contents (Elt F)) :
    (⟨S100000x128, .f32⟩ : BufTy).Contents (Elt F) :=
  addf (layerE e (x2Of x e W0 b0 g0 be0 W1 b1 g1 be1) W2 b2 g2 be2) (x2Of x e W0 b0 g0 be0 W1 b1 g1 be1)

/-- The reference's result as a function of its sixteen arguments, in the order @main takes them. -/
def out (x : (⟨S100000x128, .f32⟩ : BufTy).Contents (Elt F)) (e : (⟨S2x1600000, .i32⟩ : BufTy).Contents (Elt F))
    (W0 : (⟨S128x128, .f32⟩ : BufTy).Contents (Elt F)) (b0 g0 be0 : (⟨S128, .f32⟩ : BufTy).Contents (Elt F))
    (W1 : (⟨S128x128, .f32⟩ : BufTy).Contents (Elt F)) (b1 g1 be1 : (⟨S128, .f32⟩ : BufTy).Contents (Elt F))
    (W2 : (⟨S128x128, .f32⟩ : BufTy).Contents (Elt F)) (b2 g2 be2 : (⟨S128, .f32⟩ : BufTy).Contents (Elt F))
    (Wc : (⟨S128x40, .f32⟩ : BufTy).Contents (Elt F)) (bc : (⟨S40, .f32⟩ : BufTy).Contents (Elt F)) : (⟨S100000x40, .f32⟩ : BufTy).Contents (Elt F) :=
  headOf (x3Of x e W0 b0 g0 be0 W1 b1 g1 be1 W2 b2 g2 be2) Wc bc

end Cert.ReferenceIdeal.Hand

end
-- ==== Proof.KernelHost.lean ====
/-
  What each stretch of host operations of the kernel program's @main leaves, over an arbitrary valuation `W` of the
  buffers before it, in the reference's own terms: the kernel program's host operations between its regions are the
  reference's (same operations, same literal words, shape records of the same content), so each result buffer reads
  back as the reference's structured term of the buffers the stretch reads; a reshape of a vector to one row or one
  column reads back as the shape cast of the vector.
-/
import proofs.«175674_j31894427140389_1_alg».proof.Proof.Gen.KernelIdeal.Launch
import proofs.«175674_j31894427140389_1_alg».proof.Proof.RefTerms
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (srcOf dstOf enormOf dinv2Of aggOf)

variable {F : FTy → Type} [FloatOps F]

/-! ## Before region 0: the edge table's rows and weights -/

set_option maxRecDepth 8192 in
set_option maxHeartbeats 4200000 in
/-- The source node of each edge. -/
theorem k0_v1 (W : Valuation τ sig (Elt F)) :
    after hostOps0 W (Proc.devRef .tc main_v1) = srcOf (W (Proc.devRef .tc main_arg1)) := by
  simp only [hostOps0]
  after_results_simp
  rfl

set_option maxRecDepth 8192 in
set_option maxHeartbeats 4200000 in
/-- The destination node of each edge. -/
theorem k0_v3 (W : Valuation τ sig (Elt F)) :
    after hostOps0 W (Proc.devRef .tc main_v3) = dstOf (W (Proc.devRef .tc main_arg1)) := by
  simp only [hostOps0]
  after_results_simp
  rfl

set_option maxRecDepth 8192 in
set_option maxHeartbeats 4200000 in
/-- The weight of each edge. -/
theorem k0_v30 (W : Valuation τ sig (Elt F)) :
    after hostOps0 W (Proc.devRef .tc main_v30) = enormOf (srcOf (W (Proc.devRef .tc main_arg1))) (dstOf (W (Proc.devRef .tc main_arg1))) := by
  simp only [hostOps0]
  after_results_simp
  rfl

set_option maxRecDepth 8192 in
set_option maxHeartbeats 4200000 in
/-- The self weight of each node, as one column. -/
theorem k0_v32 (W : Valuation τ sig (Elt F)) :
    after hostOps0 W (Proc.devRef .tc main_v32) = shapeCast S100000x1 (dinv2Of (dstOf (W (Proc.devRef .tc main_arg1)))) shapeCasts_S100000_S100000x1 := by
  simp only [hostOps0]
  after_results_simp
  rfl

/-! ## Between regions 0 and 1: the neighbourhood sum of region 0's product, and the layer's three rows -/

set_option maxRecDepth 8192 in
set_option maxHeartbeats 1900000 in
/-- The weighted neighbourhood sum of the product the region before left. -/
theorem k1_v46 (W : Valuation τ sig (Elt F)) :
    after hostOps1 W (Proc.devRef .tc main_v46) = aggOf (W (Proc.devRef .tc main_v1)) (W (Proc.devRef .tc main_v3)) (W (Proc.devRef .tc main_v30)) (W (Proc.devRef .tc main_v33)) := by
  simp only [hostOps1]
  after_results_simp
  rfl

set_option maxRecDepth 8192 in
set_option maxHeartbeats 1900000 in
/-- A 128-vector argument as one row. -/
theorem k1_v47 (W : Valuation τ sig (Elt F)) :
    after hostOps1 W (Proc.devRef .tc main_v47) = shapeCast S1x128 (W (Proc.devRef .tc main_arg3)) shapeCasts_S128_S1x128 := by
  simp only [hostOps1]
  after_results_simp
  rfl

set_option maxRecDepth 8192 in
set_option maxHeartbeats 1900000 in
/-- A 128-vector argument as one row. -/
theorem k1_v48 (W : Valuation τ sig (Elt F)) :
    after hostOps1 W (Proc.devRef .tc main_v48) = shapeCast S1x128 (W (Proc.devRef .tc main_arg4)) shapeCasts_S128_S1x128 := by
  simp only [hostOps1]
  after_results_simp
  rfl

set_option maxRecDepth 8192 in
set_option maxHeartbeats 1900000 in
/-- A 128-vector argument as one row. -/
theorem k1_v49 (W : Valuation τ sig (Elt F)) :
    after hostOps1 W (Proc.devRef .tc main_v49) = shapeCast S1x128 (W (Proc.devRef .tc main_arg5)) shapeCasts_S128_S1x128 := by
  simp only [hostOps1]
  after_results_simp
  rfl

/-! ## Between regions 2 and 3: the neighbourhood sum of region 2's product, and the layer's three rows -/

set_option maxRecDepth 8192 in
set_option maxHeartbeats 1900000 in
/-- The weighted neighbourhood sum of the product the region before left. -/
theorem k3_v64 (W : Valuation τ sig (Elt F)) :
    after hostOps3 W (Proc.devRef .tc main_v64) = aggOf (W (Proc.devRef .tc main_v1)) (W (Proc.devRef .tc main_v3)) (W (Proc.devRef .tc main_v30)) (W (Proc.devRef .tc main_v51)) := by
  simp only [hostOps3]
  after_results_simp
  rfl

set_option maxRecDepth 8192 in
set_option maxHeartbeats 1900000 in
/-- A 128-vector argument as one row. -/
theorem k3_v65 (W : Valuation τ sig (Elt F)) :
    after hostOps3 W (Proc.devRef .tc main_v65) = shapeCast S1x128 (W (Proc.devRef .tc main_arg7)) shapeCasts_S128_S1x128 := by
  simp only [hostOps3]
  after_results_simp
  rfl

set_option maxRecDepth 8192 in
set_option maxHeartbeats 1900000 in
/-- A 128-vector argument as one row. -/
theorem k3_v66 (W : Valuation τ sig (Elt F)) :
    after hostOps3 W (Proc.devRef .tc main_v66) = shapeCast S1x128 (W (Proc.devRef .tc main_arg8)) shapeCasts_S128_S1x128 := by
  simp only [hostOps3]
  after_results_simp
  rfl

set_option maxRecDepth 8192 in
set_option maxHeartbeats 1900000 in
/-- A 128-vector argument as one row. -/
theorem k3_v67 (W : Valuation τ sig (Elt F)) :
    after hostOps3 W (Proc.devRef .tc main_v67) = shapeCast S1x128 (W (Proc.devRef .tc main_arg9)) shapeCasts_S128_S1x128 := by
  simp only [hostOps3]
  after_results_simp
  rfl

/-! ## Between regions 4 and 5: the neighbourhood sum of region 4's product, and the layer's three rows -/

set_option maxRecDepth 8192 in
set_option maxHeartbeats 1900000 in
/-- The weighted neighbourhood sum of the product the region before left. -/
theorem k5_v82 (W : Valuation τ sig (Elt F)) :
    after hostOps5 W (Proc.devRef .tc main_v82) = aggOf (W (Proc.devRef .tc main_v1)) (W (Proc.devRef .tc main_v3)) (W (Proc.devRef .tc main_v30)) (W (Proc.devRef .tc main_v69)) := by
  simp only [hostOps5]
  after_results_simp
  rfl

set_option maxRecDepth 8192 in
set_option maxHeartbeats 1900000 in
/-- A 128-vector argument as one row. -/
theorem k5_v83 (W : Valuation τ sig (Elt F)) :
    after hostOps5 W (Proc.devRef .tc main_v83) = shapeCast S1x128 (W (Proc.devRef .tc main_arg11)) shapeCasts_S128_S1x128 := by
  simp only [hostOps5]
  after_results_simp
  rfl

set_option maxRecDepth 8192 in
set_option maxHeartbeats 1900000 in
/-- A 128-vector argument as one row. -/
theorem k5_v84 (W : Valuation τ sig (Elt F)) :
    after hostOps5 W (Proc.devRef .tc main_v84) = shapeCast S1x128 (W (Proc.devRef .tc main_arg12)) shapeCasts_S128_S1x128 := by
  simp only [hostOps5]
  after_results_simp
  rfl

set_option maxRecDepth 8192 in
set_option maxHeartbeats 1900000 in
/-- A 128-vector argument as one row. -/
theorem k5_v85 (W : Valuation τ sig (Elt F)) :
    after hostOps5 W (Proc.devRef .tc main_v85) = shapeCast S1x128 (W (Proc.devRef .tc main_arg13)) shapeCasts_S128_S1x128 := by
  simp only [hostOps5]
  after_results_simp
  rfl

/-! ## Before region 6: the final bias as one row -/

set_option maxRecDepth 8192 in
set_option maxHeartbeats 400000 in
/-- The 40-vector argument as one row. -/
theorem k6_v87 (W : Valuation τ sig (Elt F)) :
    after hostOps6 W (Proc.devRef .tc main_v87) = shapeCast S1x40 (W (Proc.devRef .tc main_arg15)) shapeCasts_S40_S1x40 := by
  simp only [hostOps6]
  after_results_simp
  rfl

end Cert.KernelIdeal.Hand

end
-- ==== Proof.Transport.lean ====
/-
  The argument arrays are carried unchanged to the regions that read them.

  The program is a chain of stretches of host operations and of pipelined regions; the buffer contents at each boundary are
  a fold from the launch memory. A host operation writes its one result buffer and nothing else, and a region writes its
  output array and nothing else. No argument array is a result of a host operation or the output of a region. So at every
  boundary an argument array holds what the launch memory held: walk the fold back one boundary at a time.
-/
import proofs.«175674_j31894427140389_1_alg».proof.Proof.Gen.KernelIdeal.Frame

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

/-- The buffers the host operations of stretch 0 write: one result each. -/
abbrev stretch0Results : List (Ref sig .tc) :=
  [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]

/-- A buffer that is none of stretch 0's results holds after the stretch what it held before. -/
theorem keep0 (W : Valuation τ sig (Elt F)) (b : Ref sig .tc) (hb : ∀ y ∈ stretch0Results, b ≠ y) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The buffers the host operations of stretch 1 write: one result each. -/
abbrev stretch1Results : List (Ref sig .tc) :=
  [main_c_7, main_v34, main_v35, main_c_8, main_v36, main_v37, main_v38, main_v39, main_v40, main_v41, main_v42, main_v43, main_cst_9, main_v44, main_v45, main_v46, main_v47, main_v48, main_v49]

/-- A buffer that is none of stretch 1's results holds after the stretch what it held before. -/
theorem keep1 (W : Valuation τ sig (Elt F)) (b : Ref sig .tc) (hb : ∀ y ∈ stretch1Results, b ≠ y) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The buffers the host operations of stretch 3 write: one result each. -/
abbrev stretch3Results : List (Ref sig .tc) :=
  [main_c_10, main_v52, main_v53, main_c_11, main_v54, main_v55, main_v56, main_v57, main_v58, main_v59, main_v60, main_v61, main_cst_12, main_v62, main_v63, main_v64, main_v65, main_v66, main_v67]

/-- A buffer that is none of stretch 3's results holds after the stretch what it held before. -/
theorem keep3 (W : Valuation τ sig (Elt F)) (b : Ref sig .tc) (hb : ∀ y ∈ stretch3Results, b ≠ y) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The buffers the host operations of stretch 5 write: one result each. -/
abbrev stretch5Results : List (Ref sig .tc) :=
  [main_c_13, main_v70, main_v71, main_c_14, main_v72, main_v73, main_v74, main_v75, main_v76, main_v77, main_v78, main_v79, main_cst_15, main_v80, main_v81, main_v82, main_v83, main_v84, main_v85]

/-- A buffer that is none of stretch 5's results holds after the stretch what it held before. -/
theorem keep5 (W : Valuation τ sig (Elt F)) (b : Ref sig .tc) (hb : ∀ y ∈ stretch5Results, b ≠ y) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The buffers the host operations of stretch 6 write: one result each. -/
abbrev stretch6Results : List (Ref sig .tc) :=
  [main_v87]

/-- A buffer that is none of stretch 6's results holds after the stretch what it held before. -/
theorem keep6 (W : Valuation τ sig (Elt F)) (b : Ref sig .tc) (hb : ∀ y ∈ stretch6Results, b ≠ y) :
    StableHlo.after (hostOps6 (F := F)) W (Proc.devRef .tc b) = W (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

variable (m : (ℓ : Loc nD τ sig) → Buf (Elt F) ℓ) (ρ : Dev nD → PrngReg)

/-- Argument 0 at boundary 1 is as launched: no host operation and no region before it writes it. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := keep0 (W0 m ρ c) main_arg0 (by decide)
    _ = m ((c : Thread nD τ).loc main_arg0) := rfl

/-- Argument 2 at boundary 1 is as launched: no host operation and no region before it writes it. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := keep0 (W0 m ρ c) main_arg2 (by decide)
    _ = m ((c : Thread nD τ).loc main_arg2) := rfl

/-- Argument 3 at boundary 2 is as launched: no host operation and no region before it writes it. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := keep0 (W0 m ρ c) main_arg3 (by decide)
    _ = m ((c : Thread nD τ).loc main_arg3) := rfl

/-- Argument 4 at boundary 2 is as launched: no host operation and no region before it writes it. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := keep0 (W0 m ρ c) main_arg4 (by decide)
    _ = m ((c : Thread nD τ).loc main_arg4) := rfl

/-- Argument 5 at boundary 2 is as launched: no host operation and no region before it writes it. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := keep0 (W0 m ρ c) main_arg5 (by decide)
    _ = m ((c : Thread nD τ).loc main_arg5) := rfl

/-- Argument 6 at boundary 4 is as launched: no host operation and no region before it writes it. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1 (W2 m ρ c) main_arg6 (by decide)
    _ = W1 m ρ c (Proc.devRef .tc main_arg6) := W2_of_ne m ρ c main_arg6 (by decide)
    _ = W0 m ρ c (Proc.devRef .tc main_arg6) := keep0 (W0 m ρ c) main_arg6 (by decide)
    _ = m ((c : Thread nD τ).loc main_arg6) := rfl

/-- Argument 7 at boundary 5 is as launched: no host operation and no region before it writes it. -/
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := keep1 (W2 m ρ c) main_arg7 (by decide)
    _ = W1 m ρ c (Proc.devRef .tc main_arg7) := W2_of_ne m ρ c main_arg7 (by decide)
    _ = W0 m ρ c (Proc.devRef .tc main_arg7) := keep0 (W0 m ρ c) main_arg7 (by decide)
    _ = m ((c : Thread nD τ).loc main_arg7) := rfl

/-- Argument 8 at boundary 5 is as launched: no host operation and no region before it writes it. -/
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := keep1 (W2 m ρ c) main_arg8 (by decide)
    _ = W1 m ρ c (Proc.devRef .tc main_arg8) := W2_of_ne m ρ c main_arg8 (by decide)
    _ = W0 m ρ c (Proc.devRef .tc main_arg8) := keep0 (W0 m ρ c) main_arg8 (by decide)
    _ = m ((c : Thread nD τ).loc main_arg8) := rfl

/-- Argument 9 at boundary 5 is as launched: no host operation and no region before it writes it. -/
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := keep1 (W2 m ρ c) main_arg9 (by decide)
    _ = W1 m ρ c (Proc.devRef .tc main_arg9) := W2_of_ne m ρ c main_arg9 (by decide)
    _ = W0 m ρ c (Proc.devRef .tc main_arg9) := keep0 (W0 m ρ c) main_arg9 (by decide)
    _ = m ((c : Thread nD τ).loc main_arg9) := rfl

/-- Argument 10 at boundary 7 is as launched: no host operation and no region before it writes it. -/
theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := keep3 (W5 m ρ c) main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := keep1 (W2 m ρ c) main_arg10 (by decide)
    _ = W1 m ρ c (Proc.devRef .tc main_arg10) := W2_of_ne m ρ c main_arg10 (by decide)
    _ = W0 m ρ c (Proc.devRef .tc main_arg10) := keep0 (W0 m ρ c) main_arg10 (by decide)
    _ = m ((c : Thread nD τ).loc main_arg10) := rfl

/-- Argument 11 at boundary 8 is as launched: no host operation and no region before it writes it. -/
theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := keep3 (W5 m ρ c) main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := keep1 (W2 m ρ c) main_arg11 (by decide)
    _ = W1 m ρ c (Proc.devRef .tc main_arg11) := W2_of_ne m ρ c main_arg11 (by decide)
    _ = W0 m ρ c (Proc.devRef .tc main_arg11) := keep0 (W0 m ρ c) main_arg11 (by decide)
    _ = m ((c : Thread nD τ).loc main_arg11) := rfl

/-- Argument 12 at boundary 8 is as launched: no host operation and no region before it writes it. -/
theorem W8_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := keep3 (W5 m ρ c) main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := keep1 (W2 m ρ c) main_arg12 (by decide)
    _ = W1 m ρ c (Proc.devRef .tc main_arg12) := W2_of_ne m ρ c main_arg12 (by decide)
    _ = W0 m ρ c (Proc.devRef .tc main_arg12) := keep0 (W0 m ρ c) main_arg12 (by decide)
    _ = m ((c : Thread nD τ).loc main_arg12) := rfl

/-- Argument 13 at boundary 8 is as launched: no host operation and no region before it writes it. -/
theorem W8_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := keep3 (W5 m ρ c) main_arg13 (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := keep1 (W2 m ρ c) main_arg13 (by decide)
    _ = W1 m ρ c (Proc.devRef .tc main_arg13) := W2_of_ne m ρ c main_arg13 (by decide)
    _ = W0 m ρ c (Proc.devRef .tc main_arg13) := keep0 (W0 m ρ c) main_arg13 (by decide)
    _ = m ((c : Thread nD τ).loc main_arg13) := rfl

/-- Argument 14 at boundary 11 is as launched: no host operation and no region before it writes it. -/
theorem W11_arg14 (c : Dev nD) : W11 m ρ c (Proc.devRef .tc main_arg14) = m ((c : Thread nD τ).loc main_arg14) :=
  calc W11 m ρ c (Proc.devRef .tc main_arg14)
    _ = W10 m ρ c (Proc.devRef .tc main_arg14) := keep6 (W10 m ρ c) main_arg14 (by decide)
    _ = W9 m ρ c (Proc.devRef .tc main_arg14) := W10_of_ne m ρ c main_arg14 (by decide)
    _ = W8 m ρ c (Proc.devRef .tc main_arg14) := keep5 (W8 m ρ c) main_arg14 (by decide)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := keep3 (W5 m ρ c) main_arg14 (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := keep1 (W2 m ρ c) main_arg14 (by decide)
    _ = W1 m ρ c (Proc.devRef .tc main_arg14) := W2_of_ne m ρ c main_arg14 (by decide)
    _ = W0 m ρ c (Proc.devRef .tc main_arg14) := keep0 (W0 m ρ c) main_arg14 (by decide)
    _ = m ((c : Thread nD τ).loc main_arg14) := rfl

/-- Argument 15 at boundary 10 is as launched: no host operation and no region before it writes it. -/
theorem W10_arg15 (c : Dev nD) : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := keep5 (W8 m ρ c) main_arg15 (by decide)
    _ = W7 m ρ c (Proc.devRef .tc main_arg15) := W8_of_ne m ρ c main_arg15 (by decide)
    _ = W6 m ρ c (Proc.devRef .tc main_arg15) := W7_of_ne m ρ c main_arg15 (by decide)
    _ = W5 m ρ c (Proc.devRef .tc main_arg15) := keep3 (W5 m ρ c) main_arg15 (by decide)
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := keep1 (W2 m ρ c) main_arg15 (by decide)
    _ = W1 m ρ c (Proc.devRef .tc main_arg15) := W2_of_ne m ρ c main_arg15 (by decide)
    _ = W0 m ρ c (Proc.devRef .tc main_arg15) := keep0 (W0 m ρ c) main_arg15 (by decide)
    _ = m ((c : Thread nD τ).loc main_arg15) := rfl

end Cert.KernelIdeal.Hand

end
-- ==== Proof.TransportV.lean ====
/-
  Buffers carried unchanged along the kernel program's fold of its buffers' contents (the host stretches and the
  seven regions, in order): a host stretch leaves every buffer it does not write as it was; a region leaves every
  buffer that is none of its arrays as it was, and each of its input arrays as it entered. So the edge rows and
  weights computed before region 0 reach every later stretch as computed, the self-weight column reaches regions 1,
  3 and 5 as computed, and each region's result reaches the stretch and the region that read it.
-/
import proofs.«175674_j31894427140389_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## A host stretch keeps what it does not write -/

/-- The buffers stretch 0's operations write, in order. -/
abbrev hostW0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]

set_option maxRecDepth 8192 in
/-- Each operation of stretch 0 writes a buffer of that list. -/
theorem hostOps0_writes : (hostOps0 : List (HloOp τ sig (Elt F))).Forall fun op => op.writes ⊆ (hostW0.map (Proc.devRef (τ := τ) .tc)).toFinset := by
  simp only [hostOps0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stretch 0 does not write keeps its contents through it. -/
theorem keepV0 (W : Valuation τ sig (Elt F)) (b : Ref sig .tc) (hb : ∀ y ∈ hostW0, b ≠ y) :
    after hostOps0 W (Proc.devRef .tc b) = W (Proc.devRef .tc b) :=
  after_of_writes_sub hostOps0 W hostOps0_writes fun h => hb b h rfl

/-- The buffers stretch 1's operations write, in order. -/
abbrev hostW1 : List (Ref sig .tc) := [main_c_7, main_v34, main_v35, main_c_8, main_v36, main_v37, main_v38, main_v39, main_v40, main_v41, main_v42, main_v43, main_cst_9, main_v44, main_v45, main_v46, main_v47, main_v48, main_v49]

set_option maxRecDepth 8192 in
/-- Each operation of stretch 1 writes a buffer of that list. -/
theorem hostOps1_writes : (hostOps1 : List (HloOp τ sig (Elt F))).Forall fun op => op.writes ⊆ (hostW1.map (Proc.devRef (τ := τ) .tc)).toFinset := by
  simp only [hostOps1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stretch 1 does not write keeps its contents through it. -/
theorem keepV1 (W : Valuation τ sig (Elt F)) (b : Ref sig .tc) (hb : ∀ y ∈ hostW1, b ≠ y) :
    after hostOps1 W (Proc.devRef .tc b) = W (Proc.devRef .tc b) :=
  after_of_writes_sub hostOps1 W hostOps1_writes fun h => hb b h rfl

/-- The buffers stretch 3's operations write, in order. -/
abbrev hostW3 : List (Ref sig .tc) := [main_c_10, main_v52, main_v53, main_c_11, main_v54, main_v55, main_v56, main_v57, main_v58, main_v59, main_v60, main_v61, main_cst_12, main_v62, main_v63, main_v64, main_v65, main_v66, main_v67]

set_option maxRecDepth 8192 in
/-- Each operation of stretch 3 writes a buffer of that list. -/
theorem hostOps3_writes : (hostOps3 : List (HloOp τ sig (Elt F))).Forall fun op => op.writes ⊆ (hostW3.map (Proc.devRef (τ := τ) .tc)).toFinset := by
  simp only [hostOps3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stretch 3 does not write keeps its contents through it. -/
theorem keepV3 (W : Valuation τ sig (Elt F)) (b : Ref sig .tc) (hb : ∀ y ∈ hostW3, b ≠ y) :
    after hostOps3 W (Proc.devRef .tc b) = W (Proc.devRef .tc b) :=
  after_of_writes_sub hostOps3 W hostOps3_writes fun h => hb b h rfl

/-- The buffers stretch 5's operations write, in order. -/
abbrev hostW5 : List (Ref sig .tc) := [main_c_13, main_v70, main_v71, main_c_14, main_v72, main_v73, main_v74, main_v75, main_v76, main_v77, main_v78, main_v79, main_cst_15, main_v80, main_v81, main_v82, main_v83, main_v84, main_v85]

set_option maxRecDepth 8192 in
/-- Each operation of stretch 5 writes a buffer of that list. -/
theorem hostOps5_writes : (hostOps5 : List (HloOp τ sig (Elt F))).Forall fun op => op.writes ⊆ (hostW5.map (Proc.devRef (τ := τ) .tc)).toFinset := by
  simp only [hostOps5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer stretch 5 does not write keeps its contents through it. -/
theorem keepV5 (W : Valuation τ sig (Elt F)) (b : Ref sig .tc) (hb : ∀ y ∈ hostW5, b ≠ y) :
    after hostOps5 W (Proc.devRef .tc b) = W (Proc.devRef .tc b) :=
  after_of_writes_sub hostOps5 W hostOps5_writes fun h => hb b h rfl

/-- The buffers stretch 6's operations write, in order. -/
abbrev hostW6 : List (Ref sig .tc) := [main_v87]

set_option maxRecDepth 8192 in
/-- Each operation of stretch 6 writes a buffer of that list. -/
theorem hostOps6_writes : (hostOps6 : List (HloOp τ sig (Elt F))).Forall fun op => op.writes ⊆ (hostW6.map (Proc.devRef (τ := τ) .tc)).toFinset := by
  simp only [hostOps6, List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 6 does not write keeps its contents through it. -/
theorem keepV6 (W : Valuation τ sig (Elt F)) (b : Ref sig .tc) (hb : ∀ y ∈ hostW6, b ≠ y) :
    after hostOps6 W (Proc.devRef .tc b) = W (Proc.devRef .tc b) :=
  after_of_writes_sub hostOps6 W hostOps6_writes fun h => hb b h rfl

variable (m : (ℓ : Loc nD τ sig) → Buf (Elt F) ℓ) (ρ : Dev nD → PrngReg)

/-! ## The edge rows and the edge weights, from their stretch to regions' exits 0, 2 and 4 -/

theorem W2_v1 (c : Dev nD) : W2 m ρ c (Proc.devRef .tc main_v1) = W1 m ρ c (Proc.devRef .tc main_v1) :=
  W2_of_ne m ρ c main_v1 (by decide)
theorem W3_v1 (c : Dev nD) : W3 m ρ c (Proc.devRef .tc main_v1) = W1 m ρ c (Proc.devRef .tc main_v1) :=
  (keepV1 _ main_v1 (by decide)).trans (W2_v1 m ρ c)
theorem W4_v1 (c : Dev nD) : W4 m ρ c (Proc.devRef .tc main_v1) = W1 m ρ c (Proc.devRef .tc main_v1) :=
  (W4_of_ne m ρ c main_v1 (by decide)).trans (W3_v1 m ρ c)
theorem W5_v1 (c : Dev nD) : W5 m ρ c (Proc.devRef .tc main_v1) = W1 m ρ c (Proc.devRef .tc main_v1) :=
  (W5_of_ne m ρ c main_v1 (by decide)).trans (W4_v1 m ρ c)
theorem W6_v1 (c : Dev nD) : W6 m ρ c (Proc.devRef .tc main_v1) = W1 m ρ c (Proc.devRef .tc main_v1) :=
  (keepV3 _ main_v1 (by decide)).trans (W5_v1 m ρ c)
theorem W7_v1 (c : Dev nD) : W7 m ρ c (Proc.devRef .tc main_v1) = W1 m ρ c (Proc.devRef .tc main_v1) :=
  (W7_of_ne m ρ c main_v1 (by decide)).trans (W6_v1 m ρ c)
theorem W8_v1 (c : Dev nD) : W8 m ρ c (Proc.devRef .tc main_v1) = W1 m ρ c (Proc.devRef .tc main_v1) :=
  (W8_of_ne m ρ c main_v1 (by decide)).trans (W7_v1 m ρ c)

theorem W2_v3 (c : Dev nD) : W2 m ρ c (Proc.devRef .tc main_v3) = W1 m ρ c (Proc.devRef .tc main_v3) :=
  W2_of_ne m ρ c main_v3 (by decide)
theorem W3_v3 (c : Dev nD) : W3 m ρ c (Proc.devRef .tc main_v3) = W1 m ρ c (Proc.devRef .tc main_v3) :=
  (keepV1 _ main_v3 (by decide)).trans (W2_v3 m ρ c)
theorem W4_v3 (c : Dev nD) : W4 m ρ c (Proc.devRef .tc main_v3) = W1 m ρ c (Proc.devRef .tc main_v3) :=
  (W4_of_ne m ρ c main_v3 (by decide)).trans (W3_v3 m ρ c)
theorem W5_v3 (c : Dev nD) : W5 m ρ c (Proc.devRef .tc main_v3) = W1 m ρ c (Proc.devRef .tc main_v3) :=
  (W5_of_ne m ρ c main_v3 (by decide)).trans (W4_v3 m ρ c)
theorem W6_v3 (c : Dev nD) : W6 m ρ c (Proc.devRef .tc main_v3) = W1 m ρ c (Proc.devRef .tc main_v3) :=
  (keepV3 _ main_v3 (by decide)).trans (W5_v3 m ρ c)
theorem W7_v3 (c : Dev nD) : W7 m ρ c (Proc.devRef .tc main_v3) = W1 m ρ c (Proc.devRef .tc main_v3) :=
  (W7_of_ne m ρ c main_v3 (by decide)).trans (W6_v3 m ρ c)
theorem W8_v3 (c : Dev nD) : W8 m ρ c (Proc.devRef .tc main_v3) = W1 m ρ c (Proc.devRef .tc main_v3) :=
  (W8_of_ne m ρ c main_v3 (by decide)).trans (W7_v3 m ρ c)

theorem W2_v30 (c : Dev nD) : W2 m ρ c (Proc.devRef .tc main_v30) = W1 m ρ c (Proc.devRef .tc main_v30) :=
  W2_of_ne m ρ c main_v30 (by decide)
theorem W3_v30 (c : Dev nD) : W3 m ρ c (Proc.devRef .tc main_v30) = W1 m ρ c (Proc.devRef .tc main_v30) :=
  (keepV1 _ main_v30 (by decide)).trans (W2_v30 m ρ c)
theorem W4_v30 (c : Dev nD) : W4 m ρ c (Proc.devRef .tc main_v30) = W1 m ρ c (Proc.devRef .tc main_v30) :=
  (W4_of_ne m ρ c main_v30 (by decide)).trans (W3_v30 m ρ c)
theorem W5_v30 (c : Dev nD) : W5 m ρ c (Proc.devRef .tc main_v30) = W1 m ρ c (Proc.devRef .tc main_v30) :=
  (W5_of_ne m ρ c main_v30 (by decide)).trans (W4_v30 m ρ c)
theorem W6_v30 (c : Dev nD) : W6 m ρ c (Proc.devRef .tc main_v30) = W1 m ρ c (Proc.devRef .tc main_v30) :=
  (keepV3 _ main_v30 (by decide)).trans (W5_v30 m ρ c)
theorem W7_v30 (c : Dev nD) : W7 m ρ c (Proc.devRef .tc main_v30) = W1 m ρ c (Proc.devRef .tc main_v30) :=
  (W7_of_ne m ρ c main_v30 (by decide)).trans (W6_v30 m ρ c)
theorem W8_v30 (c : Dev nD) : W8 m ρ c (Proc.devRef .tc main_v30) = W1 m ρ c (Proc.devRef .tc main_v30) :=
  (W8_of_ne m ρ c main_v30 (by decide)).trans (W7_v30 m ρ c)

/-! ## The self-weight column: input window 2 of region 1, window 3 of regions 3 and 5 -/

theorem W2_v32 (c : Dev nD) : W2 m ρ c (Proc.devRef .tc main_v32) = W1 m ρ c (Proc.devRef .tc main_v32) :=
  W2_of_ne m ρ c main_v32 (by decide)
theorem W3_v32 (c : Dev nD) : W3 m ρ c (Proc.devRef .tc main_v32) = W1 m ρ c (Proc.devRef .tc main_v32) :=
  (keepV1 _ main_v32 (by decide)).trans (W2_v32 m ρ c)
theorem W4_v32 (c : Dev nD) : W4 m ρ c (Proc.devRef .tc main_v32) = W1 m ρ c (Proc.devRef .tc main_v32) :=
  ((W4_arr m ρ c 2).trans (((dat1 (V3 m ρ) c).arrAt_in 2 rfl _).trans (A_eq1 (V3 m ρ) c 2))).trans (W3_v32 m ρ c)
theorem W5_v32 (c : Dev nD) : W5 m ρ c (Proc.devRef .tc main_v32) = W1 m ρ c (Proc.devRef .tc main_v32) :=
  (W5_of_ne m ρ c main_v32 (by decide)).trans (W4_v32 m ρ c)
theorem W6_v32 (c : Dev nD) : W6 m ρ c (Proc.devRef .tc main_v32) = W1 m ρ c (Proc.devRef .tc main_v32) :=
  (keepV3 _ main_v32 (by decide)).trans (W5_v32 m ρ c)
theorem W7_v32 (c : Dev nD) : W7 m ρ c (Proc.devRef .tc main_v32) = W1 m ρ c (Proc.devRef .tc main_v32) :=
  ((W7_arr m ρ c 3).trans (((dat3 (V6 m ρ) c).arrAt_in 3 rfl _).trans (A_eq3 (V6 m ρ) c 3))).trans (W6_v32 m ρ c)
theorem W8_v32 (c : Dev nD) : W8 m ρ c (Proc.devRef .tc main_v32) = W1 m ρ c (Proc.devRef .tc main_v32) :=
  (W8_of_ne m ρ c main_v32 (by decide)).trans (W7_v32 m ρ c)
theorem W9_v32 (c : Dev nD) : W9 m ρ c (Proc.devRef .tc main_v32) = W1 m ρ c (Proc.devRef .tc main_v32) :=
  (keepV5 _ main_v32 (by decide)).trans (W8_v32 m ρ c)

/-! ## Each region's result, to the stretch and the region that read it -/

theorem W3_v33 (c : Dev nD) : W3 m ρ c (Proc.devRef .tc main_v33) = W2 m ρ c (Proc.devRef .tc main_v33) :=
  keepV1 _ main_v33 (by decide)
theorem W6_v51 (c : Dev nD) : W6 m ρ c (Proc.devRef .tc main_v51) = W5 m ρ c (Proc.devRef .tc main_v51) :=
  keepV3 _ main_v51 (by decide)
theorem W5_v50 (c : Dev nD) : W5 m ρ c (Proc.devRef .tc main_v50) = W4 m ρ c (Proc.devRef .tc main_v50) :=
  (W5_arr m ρ c 0).trans (((dat2 (V4 m ρ) c).arrAt_in 0 rfl _).trans (A_eq2 (V4 m ρ) c 0))
theorem W6_v50 (c : Dev nD) : W6 m ρ c (Proc.devRef .tc main_v50) = W4 m ρ c (Proc.devRef .tc main_v50) :=
  (keepV3 _ main_v50 (by decide)).trans (W5_v50 m ρ c)
theorem W9_v69 (c : Dev nD) : W9 m ρ c (Proc.devRef .tc main_v69) = W8 m ρ c (Proc.devRef .tc main_v69) :=
  keepV5 _ main_v69 (by decide)
theorem W8_v68 (c : Dev nD) : W8 m ρ c (Proc.devRef .tc main_v68) = W7 m ρ c (Proc.devRef .tc main_v68) :=
  (W8_arr m ρ c 0).trans (((dat4 (V7 m ρ) c).arrAt_in 0 rfl _).trans (A_eq4 (V7 m ρ) c 0))
theorem W9_v68 (c : Dev nD) : W9 m ρ c (Proc.devRef .tc main_v68) = W7 m ρ c (Proc.devRef .tc main_v68) :=
  (keepV5 _ main_v68 (by decide)).trans (W8_v68 m ρ c)
theorem W11_v86 (c : Dev nD) : W11 m ρ c (Proc.devRef .tc main_v86) = W10 m ρ c (Proc.devRef .tc main_v86) :=
  keepV6 _ main_v86 (by decide)

end Cert.KernelIdeal.Hand

end
-- ==== Proof.Consts.lean ====
/-
  The float words this kernel and its reference spell, as the extended reals they denote: the zero word is 0, the word
  of 1.0 is 1, the word of 128.0 is 128 (the row length both sides divide by).
-/
import Idealize.ShloMosaic.PureOps.Ideal

noncomputable section

namespace GcnConsts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

end GcnConsts

end
-- ==== Proof.RefCore.lean ====
/-
  The reference's layer after the neighbourhood sum, entry by entry: the layer norm and the exponential-linear unit of
  agg + h · (self weight) + bias, as the reference's whole-array operations spell them, is `GcnSpec.core` — the
  row sums read as the initial zero plus the sum over the 128 columns of the row, the variance function's divisor
  128 − 0 = 128 being positive (so its guard keeps the quotient), and in the unit 1 · expm1(z) = exp z − 1 where
  z is not positive.
-/
import proofs.«175674_j31894427140389_1_alg».proof.Proof.RefTerms
import proofs.«175674_j31894427140389_1_alg».proof.Proof.Spec
import proofs.«175674_j31894427140389_1_alg».proof.Proof.Consts
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace GcnLayout

open Idealize.ShloMosaic Idealize.ShloMosaic.ValueIdx

variable {α : Type}

/-- A column broadcast over b lanes, read at (r, c), is the column at (r, 0). -/
theorem bcast_col_mat_apply {a b : Nat} (hbc : (⟨2, ![a, 1]⟩ : Shape).BroadcastsInDim ⟨2, ![a, b]⟩ ![0, 1])
    (y : (⟨2, ![a, 1]⟩ : Shape).Idx → α) (r : Fin a) (c : Fin b) :
    broadcastInDim ⟨2, ![a, b]⟩ ![0, 1] hbc y (ix2 r c) = y (ix2 r (0 : Fin 1)) := by
  refine broadcastInDim_apply ![0, 1] hbc y (ix2 r c) (ix2 r (0 : Fin 1)) ?_
  intro ax
  match ax with
  | ⟨0, _⟩ =>
    show r.val = if a = 1 then 0 else r.val
    split
    · have := r.isLt; omega
    · rfl
  | ⟨1, _⟩ =>
    show (0 : ℕ) = if (1 : ℕ) = 1 then 0 else _
    simp

/-- A vector as a column, read at (r, u), is the vector at r. -/
theorem bcast_vec_col_apply {a : Nat} (hbc : (⟨1, ![a]⟩ : Shape).BroadcastsInDim ⟨2, ![a, 1]⟩ ![0])
    (y : (⟨1, ![a]⟩ : Shape).Idx → α) (r : Fin a) (u : Fin 1) :
    broadcastInDim ⟨2, ![a, 1]⟩ ![0] hbc y (ix2 r u) = y (ix1 r) := by
  refine broadcastInDim_apply ![0] hbc y (ix2 r u) (ix1 r) ?_
  intro ax
  match ax with
  | ⟨0, _⟩ =>
    show r.val = if a = 1 then 0 else r.val
    split
    · have := r.isLt; omega
    · rfl

/-- A vector as a row, read at (u, c), is the vector at c. -/
theorem bcast_vec_row_apply {b : Nat} (hbc : (⟨1, ![b]⟩ : Shape).BroadcastsInDim ⟨2, ![1, b]⟩ ![1])
    (y : (⟨1, ![b]⟩ : Shape).Idx → α) (u : Fin 1) (c : Fin b) :
    broadcastInDim ⟨2, ![1, b]⟩ ![1] hbc y (ix2 u c) = y (ix1 c) := by
  refine broadcastInDim_apply ![1] hbc y (ix2 u c) (ix1 c) ?_
  intro ax
  match ax with
  | ⟨0, _⟩ =>
    show c.val = if b = 1 then 0 else c.val
    split
    · have := c.isLt; omega
    · rfl

end GcnLayout

namespace Cert.ReferenceIdeal.Hand

open Cert.ReferenceIdeal Cert.ReferenceIdeal.Gen Idealize.ShloMosaic Idealize.ShloMosaic.ValueIdx GcnLayout

/-- A vector of per-node values as a column matrix. -/
def colM (d : S100000.Idx → EReal) : GcnSpec.Mat 100000 1 := fun i => d (ix1 (i 0))
/-- A vector of 128 values as a one-row matrix. -/
def rowM (b : S128.Idx → EReal) : GcnSpec.Mat 1 128 := fun i => b (ix1 (i 1))

/-- The source index of a row sum over the columns of a [100000,128] array: row r, column k. -/
theorem lift_rowR (h : S100000x128.Reduces [1] S100000) (r : Fin 100000) (k : Fin 128) :
    h.lift (ix1 r) k = ix2 r k := by
  funext c; apply Fin.ext
  match c with
  | ⟨0, _⟩ => rfl
  | ⟨1, _⟩ => rfl

/-- The host's row sum from the zero word, read at row r: the sum over the 128 columns of row r. -/
theorem rowSum_apply (v : FVec Ideal S100000x128 .f32) (r : Fin 100000) :
    Host.reduceAdd v (constant (F := Ideal) S_ .f32 0x00000000#32) reducesTo_S100000x128_S100000_d1 h_S_ (ix1 r)
      = ∑ k : Fin 128, v (ix2 r k) := by
  have h : S100000x128.Reduces [1] S100000 := by decide
  rw [hostReduceAdd_apply, Ideal.hostReduceAdd_single reducesTo_S100000x128_S100000_d1 h, constant_apply, GcnConsts.ofBits_zero, zero_add]
  exact Finset.sum_congr rfl fun k _ => congrArg v (lift_rowR h r k)

/-! ## The reference's broadcasts at their literal shapes -/

theorem colB (v : FVec Ideal S100000x1 .f32) (r : Fin 100000) (c : Fin 128) :
    broadcastInDim S100000x128 ![0, 1] bcast_S100000x1_S100000x128_0_1 v (ix2 r c) = v (ix2 r (0 : Fin 1)) :=
  bcast_col_mat_apply _ v r c
theorem vecCol (d : FVec Ideal S100000 .f32) (r : Fin 100000) :
    broadcastInDim S100000x1 ![0] bcast_S100000_S100000x1_0 d (ix2 r (0 : Fin 1)) = d (ix1 r) :=
  bcast_vec_col_apply _ d r 0
theorem rowB (y : FVec Ideal S1x128 .f32) (r : Fin 100000) (c : Fin 128) :
    broadcastInDim S100000x128 ![0, 1] bcast_S1x128_S100000x128_0_1 y (ix2 r c) = y (ix2 (0 : Fin 1) c) :=
  broadcastInDim_oneRow_apply _ y r c
theorem vecRow (b : FVec Ideal S128 .f32) (c : Fin 128) :
    broadcastInDim S1x128 ![1] bcast_S128_S1x128_1 b (ix2 (0 : Fin 1) c) = b (ix1 c) :=
  bcast_vec_row_apply _ b 0 c
theorem scalCol (w : BitVec 32) (i : S100000x1.Idx) :
    broadcastInDim S100000x1 ![] bcast_S_S100000x1 (constant (F := Ideal) S_ .f32 w) i = Ideal.ofBits .f32 w :=
  broadcastInDim_scalar_apply _ _ i
theorem scalMat (w : BitVec 32) (i : S100000x128.Idx) :
    broadcastInDim S100000x128 ![] bcast_S_S100000x128 (constant (F := Ideal) S_ .f32 w) i = Ideal.ofBits .f32 w :=
  broadcastInDim_scalar_apply _ _ i

variable (agg h : FVec Ideal S100000x128 .f32) (d2 : FVec Ideal S100000 .f32) (b g be : FVec Ideal S128 .f32)

theorem valOf_apply (r : Fin 100000) (c : Fin 128) :
    valOf (F := Ideal) agg h d2 b (ix2 r c) = GcnSpec.val agg h (colM d2) (rowM b) r c := by
  unfold valOf dcolOf browOf rowOf
  simp only [addf_apply, mulf_apply]
  rw [colB, vecCol, rowB, vecRow]
  rfl

/-- The mean column at row r: the row's sum over the word of 128. -/
theorem meanOf_apply (v : FVec Ideal S100000x128 .f32) (r : Fin 100000) :
    meanOf (F := Ideal) v (ix2 r (0 : Fin 1)) = Ideal.div (∑ k : Fin 128, v (ix2 r k)) (Ideal.ofBits .f32 0x43000000#32) := by
  unfold meanOf
  rw [hostDivf_apply, vecCol, rowSum_apply, scalCol]

/-- The variance column at row r: the sum of the squared deviations from the row mean over the word of 128. -/
theorem varOf_apply (v : FVec Ideal S100000x128 .f32) (r : Fin 100000) :
    varOf (F := Ideal) v (ix2 r (0 : Fin 1))
      = Ideal.div (∑ k : Fin 128, (v (ix2 r k) - meanOf (F := Ideal) v (ix2 r (0 : Fin 1))) * (v (ix2 r k) - meanOf (F := Ideal) v (ix2 r (0 : Fin 1))))
          (Ideal.ofBits .f32 0x43000000#32) := by
  unfold varOf
  rw [select_apply, hostDivf_apply, vecCol, rowSum_apply]
  have hpred : broadcastInDim S100000x1 ![] bcast_S_S100000x1
      (cmpf .ogt (subf (constant (F := Ideal) S_ .f32 0x43000000#32) (sitofp .f32 (constantI S_ 32 0#32))) (constant S_ .f32 0x00000000#32))
      (ix2 r (0 : Fin 1)) = 1#1 := by
    rw [broadcastInDim_scalar_apply]
    show Ideal.cmp .ogt (Ideal.ofBits .f32 0x43000000#32 - (Scalar.sitofp .f32 (0#32 : BitVec 32) : Ideal .f32)) (Ideal.ofBits .f32 0x00000000#32) = 1#1
    rw [sitofp_zero, GcnConsts.ofBits_128, GcnConsts.ofBits_zero, sub_zero]
    show BitVec.ofBool (decide ((0 : EReal) < ((128 : ℝ) : EReal))) = 1#1
    rw [decide_eq_true (by exact_mod_cast (by norm_num : (0 : ℝ) < 128))]
    rfl
  have hden : broadcastInDim S100000x1 ![] bcast_S_S100000x1
      (subf (constant (F := Ideal) S_ .f32 0x43000000#32) (sitofp .f32 (constantI S_ 32 0#32))) (ix2 r (0 : Fin 1))
      = Ideal.ofBits .f32 0x43000000#32 := by
    rw [broadcastInDim_scalar_apply]
    show Ideal.ofBits .f32 0x43000000#32 - (Scalar.sitofp .f32 (0#32 : BitVec 32) : Ideal .f32) = _
    rw [sitofp_zero, sub_zero]
  rw [hpred, hden]
  show Ideal.div (∑ k : Fin 128, _) _ = _
  refine congrArg (Ideal.div · _) (Finset.sum_congr rfl fun k _ => ?_)
  rw [mulf_apply, subf_apply, colB]

/-- The layer norm at (r, c), from a mean column and a variance column. -/
theorem normOf_apply (v : FVec Ideal S100000x128 .f32) (mean var : FVec Ideal S100000x1 .f32) (r : Fin 100000) (c : Fin 128) :
    normOf (F := Ideal) v mean var g be (ix2 r c)
      = (v (ix2 r c) - mean (ix2 r (0 : Fin 1))) * Ideal.rsqrt (var (ix2 r (0 : Fin 1)) + Ideal.ofBits .f32 0x3727C5AC#32) * g (ix1 c) + be (ix1 c) := by
  unfold normOf scaledOf browOf rowOf
  simp only [addf_apply, mulf_apply, subf_apply]
  rw [colB, colB, rowB, vecRow, rowB, vecRow]
  show _ * Ideal.rsqrt (var (ix2 r (0 : Fin 1)) + broadcastInDim S100000x1 ![] bcast_S_S100000x1 (constant (F := Ideal) S_ .f32 0x3727C5AC#32) (ix2 r (0 : Fin 1))) * _ + _ = _
  rw [scalCol]

/-- The unit on one value, as the reference spells it, is the unit as the kernel spells it. -/
theorem elu_point (x : EReal) :
    Scalar.select (Ideal.cmp .ogt x (Ideal.ofBits .f32 0x00000000#32)) x
        (Ideal.ofBits .f32 0x3F800000#32 * (Ideal.exp (Scalar.select (Ideal.cmp .ogt x (Ideal.ofBits .f32 0x00000000#32)) (Ideal.ofBits .f32 0x00000000#32) x) - 1))
      = GcnSpec.elu1 x := by
  unfold GcnSpec.elu1 Scalar.select
  by_cases hc : Ideal.cmp .ogt x (Ideal.ofBits .f32 0x00000000#32) = 1
  · rw [if_pos hc, if_pos hc]
  · rw [if_neg hc, if_neg hc, if_neg hc, GcnConsts.ofBits_one, one_mul]

theorem eluOf_apply (z : FVec Ideal S100000x128 .f32) (i : S100000x128.Idx) :
    eluOf (F := Ideal) z i = GcnSpec.elu1 (z i) := by
  unfold eluOf
  rw [select_apply, cmpf_apply, mulf_apply, scalMat, scalMat]
  show Scalar.select (Ideal.cmp .ogt (z i) (Ideal.ofBits .f32 0x00000000#32)) (z i)
      (Ideal.ofBits .f32 0x3F800000#32 * (Ideal.exp (Scalar.select (Ideal.cmp .ogt (z i) (broadcastInDim S100000x128 ![] bcast_S_S100000x128 (constant (F := Ideal) S_ .f32 0x00000000#32) i)) (broadcastInDim S100000x128 ![] bcast_S_S100000x128 (constant (F := Ideal) S_ .f32 0x00000000#32) i) (z i)) - 1)) = _
  rw [scalMat]
  exact elu_point (z i)

theorem mean_val (r : Fin 100000) :
    meanOf (F := Ideal) (valOf (F := Ideal) agg h d2 b) (ix2 r (0 : Fin 1)) = GcnSpec.mu agg h (colM d2) (rowM b) r := by
  rw [meanOf_apply]
  unfold GcnSpec.mu
  exact congrArg (Ideal.div · _) (Finset.sum_congr rfl fun k _ => valOf_apply agg h d2 b r k)

theorem var_val (r : Fin 100000) :
    varOf (F := Ideal) (valOf (F := Ideal) agg h d2 b) (ix2 r (0 : Fin 1)) = GcnSpec.var agg h (colM d2) (rowM b) r := by
  rw [varOf_apply, mean_val]
  unfold GcnSpec.var GcnSpec.dev
  refine congrArg (Ideal.div · _) (Finset.sum_congr rfl fun k _ => ?_)
  rw [valOf_apply]

/-- THE REFERENCE'S LAYER after the neighbourhood sum is `GcnSpec.core`. -/
theorem lnElu_val :
    lnElu (F := Ideal) (valOf (F := Ideal) agg h d2 b) g be = GcnSpec.core agg h (colM d2) (rowM b) (rowM g) (rowM be) := by
  funext i
  obtain ⟨r, c, rfl⟩ : ∃ (r : Fin 100000) (c : Fin 128), i = ix2 r c := ⟨i 0, i 1, eq_ix2 i⟩
  unfold lnElu
  rw [eluOf_apply, normOf_apply, mean_val, var_val, valOf_apply]
  rfl

end Cert.ReferenceIdeal.Hand

end
-- ==== Proof.Glue.lean ====
/-
  The kernel's whole-array layer functions meet the reference's terms: the plain product is the reference's dense
  product, the layer `GcnSpec.core` over a degree column and three rows given as reshapes of vectors is the
  reference's layer norm and unit of its pre-norm value, and the dense layer with a reshaped bias row is the reference's
  final product plus its broadcast bias.
-/
import proofs.«175674_j31894427140389_1_alg».proof.Proof.RefCore
import proofs.«175674_j31894427140389_1_alg».proof.Proof.LibDense
import proofs.«175674_j31894427140389_1_alg».proof.Proof.LibColumns

noncomputable section

namespace Cert.ReferenceIdeal.Hand

open Cert.ReferenceIdeal Cert.ReferenceIdeal.Gen Idealize.ShloMosaic Idealize.ShloMosaic.ValueIdx

/-- A vector of per-node values reshaped to a column is the column matrix of the vector. -/
theorem col_eq (d : FVec Ideal S100000 .f32) (hc : S100000.ShapeCasts S100000x1) :
    shapeCast S100000x1 d hc = colM d := by
  funext i
  obtain ⟨r, u, rfl⟩ : ∃ (r : Fin 100000) (u : Fin 1), i = ix2 r u := ⟨i 0, i 1, eq_ix2 i⟩
  exact Idealize.ShloMosaic.LibColumns.shapeCast_a_a1_apply d hc r u

/-- A vector of 128 values reshaped to one row is the row matrix of the vector. -/
theorem row_eq (b : FVec Ideal S128 .f32) (hc : S128.ShapeCasts S1x128) :
    shapeCast S1x128 b hc = rowM b := by
  funext i
  obtain ⟨u, c, rfl⟩ : ∃ (u : Fin 1) (c : Fin 128), i = ix2 u c := ⟨i 0, i 1, eq_ix2 i⟩
  exact DenseSpec.shapeCast_row_apply b hc u c

variable (agg h xin : FVec Ideal S100000x128 .f32) (d2 : FVec Ideal S100000 .f32) (b g be : FVec Ideal S128 .f32)

/-- The layer over reshaped operands is the reference's layer norm and unit of its pre-norm value. -/
theorem core_ref (hc : S100000.ShapeCasts S100000x1) (h1 h2 h3 : S128.ShapeCasts S1x128) :
    GcnSpec.core agg h (shapeCast S100000x1 d2 hc) (shapeCast S1x128 b h1) (shapeCast S1x128 g h2) (shapeCast S1x128 be h3)
      = lnElu (F := Ideal) (valOf (F := Ideal) agg h d2 b) g be := by
  rw [col_eq, row_eq, row_eq, row_eq]
  exact (lnElu_val agg h d2 b g be).symm

/-- The same with the layer's input added back. -/
theorem coreRes_ref (hc : S100000.ShapeCasts S100000x1) (h1 h2 h3 : S128.ShapeCasts S1x128) :
    GcnSpec.coreRes agg h xin (shapeCast S100000x1 d2 hc) (shapeCast S1x128 b h1) (shapeCast S1x128 g h2) (shapeCast S1x128 be h3)
      = addf (lnElu (F := Ideal) (valOf (F := Ideal) agg h d2 b) g be) xin := by
  funext i
  show GcnSpec.core agg h (shapeCast S100000x1 d2 hc) (shapeCast S1x128 b h1) (shapeCast S1x128 g h2) (shapeCast S1x128 be h3) i + xin i = _
  rw [core_ref agg h d2 b g be hc h1 h2 h3]
  rfl

/-- The plain product is the reference's dense product of a layer. -/
theorem mm_eq_hOf (x : FVec Ideal S100000x128 .f32) (W : FVec Ideal S128x128 .f32) :
    GcnSpec.mm x W = hOf (F := Ideal) x W := by
  funext i
  obtain ⟨r, c, rfl⟩ : ∃ (r : Fin 100000) (c : Fin 128), i = ix2 r c := ⟨i 0, i 1, eq_ix2 i⟩
  rw [GcnSpec.mm_apply]
  exact (PlainProduct.dotGeneral_apply (M := 100000) (K := 128) (P := 128) dot_S100000x128_S128x128_S100000x128_1_0_0_1_n_n.wf none x W r c).symm

/-- The dense layer with a reshaped bias row is the reference's final product plus its broadcast bias. -/
theorem dense_eq_headOf (x : FVec Ideal S100000x128 .f32) (Wc : FVec Ideal S128x40 .f32) (bc : FVec Ideal S40 .f32) (hc : S40.ShapeCasts S1x40) :
    DenseSpec.dense x Wc (shapeCast S1x40 bc hc) = headOf (F := Ideal) x Wc bc := by
  unfold headOf
  rw [DenseSpec.broadcastInDim_row_eq_shapeCast bc hc bcast_S40_S1x40_1]
  exact (DenseSpec.dotGeneral_bias (R := 100000) (K := 128) (P := 40) dot_S100000x128_S128x40_S100000x40_1_0_0_1_n_n.wf none x Wc (shapeCast S1x40 bc hc) bcast_S1x40_S100000x40_0_1).symm

end Cert.ReferenceIdeal.Hand

end
-- ==== Proof.Chain.lean ====
/-
  The kernel program's result, read along its segments: each matrix-product region leaves the reference's dense product
  of what it reads, each stretch of host operations the reference's neighbourhood sum and reshaped rows, each combine
  region the reference's layer norm and unit (plus the layer's input from the second layer on), and the last region the
  reference's final product plus bias — so the result buffer ends holding the reference's result function of the
  sixteen argument arrays.
-/
import proofs.«175674_j31894427140389_1_alg».proof.Proof.KernelRun
import proofs.«175674_j31894427140389_1_alg».proof.Proof.Region0
import proofs.«175674_j31894427140389_1_alg».proof.Proof.Region1
import proofs.«175674_j31894427140389_1_alg».proof.Proof.Region2
import proofs.«175674_j31894427140389_1_alg».proof.Proof.Region3
import proofs.«175674_j31894427140389_1_alg».proof.Proof.Region4
import proofs.«175674_j31894427140389_1_alg».proof.Proof.Region5
import proofs.«175674_j31894427140389_1_alg».proof.Proof.Region6
import proofs.«175674_j31894427140389_1_alg».proof.Proof.KernelHost
import proofs.«175674_j31894427140389_1_alg».proof.Proof.Transport
import proofs.«175674_j31894427140389_1_alg».proof.Proof.TransportV
import proofs.«175674_j31894427140389_1_alg».proof.Proof.Glue

set_option maxHeartbeats 4000000

noncomputable section

namespace Cert.KernelIdeal.Hand

open Cert.KernelIdeal Cert.KernelIdeal.Gen Idealize.ShloMosaic Idealize.ShloMosaic.TcCoe Idealize.SL.Sem
open Cert.ReferenceIdeal.Hand (srcOf dstOf enormOf dinv2Of hOf aggOf valOf lnElu x1Of x2Of x3Of out headOf layerE layerOf
  core_ref coreRes_ref mm_eq_hOf dense_eq_headOf)

variable (m : (ℓ : Loc nD τ sig) → Buf (Elt Ideal) ℓ) (ρ : Dev nD → PrngReg) (c : Dev nD)

/-! ## What the first stretch of host operations leaves: the edge list's two rows, the edge weights, the self weights -/

theorem W1_src : W1 m ρ c (Proc.devRef .tc main_v1) = (srcOf (F := Ideal) (m ((c : Thread nD τ).loc main_arg1))) := k0_v1 (W0 m ρ c)
theorem W1_dst : W1 m ρ c (Proc.devRef .tc main_v3) = (dstOf (F := Ideal) (m ((c : Thread nD τ).loc main_arg1))) := k0_v3 (W0 m ρ c)
theorem W1_en : W1 m ρ c (Proc.devRef .tc main_v30) = (enormOf (F := Ideal) (srcOf (F := Ideal) (m ((c : Thread nD τ).loc main_arg1))) (dstOf (F := Ideal) (m ((c : Thread nD τ).loc main_arg1)))) := k0_v30 (W0 m ρ c)
theorem W1_d2 : W1 m ρ c (Proc.devRef .tc main_v32) = shapeCast S100000x1 (dinv2Of (F := Ideal) (dstOf (F := Ideal) (m ((c : Thread nD τ).loc main_arg1)))) shapeCasts_S100000_S100000x1 := k0_v32 (W0 m ρ c)

/-! ## Layer 1 -/

theorem h1_eq : W2 m ρ c (Proc.devRef .tc main_v33) = hOf (F := Ideal) (m ((c : Thread nD τ).loc main_arg0)) (m ((c : Thread nD τ).loc main_arg2)) := by
  refine (W2_arr m ρ c 2).trans ?_
  rw [final0 (V1 m ρ) c]
  show GcnSpec.mm (W1 m ρ c (Proc.devRef .tc main_arg0)) (W1 m ρ c (Proc.devRef .tc main_arg2)) = _
  rw [W1_arg0 m ρ c, W1_arg2 m ρ c]
  exact mm_eq_hOf _ _

theorem agg1_eq : W3 m ρ c (Proc.devRef .tc main_v46) = aggOf (F := Ideal) (srcOf (F := Ideal) (m ((c : Thread nD τ).loc main_arg1))) (dstOf (F := Ideal) (m ((c : Thread nD τ).loc main_arg1))) (enormOf (F := Ideal) (srcOf (F := Ideal) (m ((c : Thread nD τ).loc main_arg1))) (dstOf (F := Ideal) (m ((c : Thread nD τ).loc main_arg1)))) (hOf (F := Ideal) (m ((c : Thread nD τ).loc main_arg0)) (m ((c : Thread nD τ).loc main_arg2))) := by
  show StableHlo.after hostOps1 (W2 m ρ c) (Proc.devRef .tc main_v46) = _
  rw [k1_v46 (W2 m ρ c), W2_v1 m ρ c, W2_v3 m ρ c, W2_v30 m ρ c, W1_src m ρ c, W1_dst m ρ c, W1_en m ρ c, h1_eq m ρ c]

theorem b1_eq : W3 m ρ c (Proc.devRef .tc main_v47) = shapeCast S1x128 (m ((c : Thread nD τ).loc main_arg3)) shapeCasts_S128_S1x128 := by
  show StableHlo.after hostOps1 (W2 m ρ c) (Proc.devRef .tc main_v47) = _
  rw [k1_v47 (W2 m ρ c), W2_arg3 m ρ c]

theorem g1_eq : W3 m ρ c (Proc.devRef .tc main_v48) = shapeCast S1x128 (m ((c : Thread nD τ).loc main_arg4)) shapeCasts_S128_S1x128 := by
  show StableHlo.after hostOps1 (W2 m ρ c) (Proc.devRef .tc main_v48) = _
  rw [k1_v48 (W2 m ρ c), W2_arg4 m ρ c]

theorem be1_eq : W3 m ρ c (Proc.devRef .tc main_v49) = shapeCast S1x128 (m ((c : Thread nD τ).loc main_arg5)) shapeCasts_S128_S1x128 := by
  show StableHlo.after hostOps1 (W2 m ρ c) (Proc.devRef .tc main_v49) = _
  rw [k1_v49 (W2 m ρ c), W2_arg5 m ρ c]

theorem x1_eq : W4 m ρ c (Proc.devRef .tc main_v50) = (x1Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 6).trans ?_
  rw [final1 (V3 m ρ) c]
  show GcnSpec.core (W3 m ρ c (Proc.devRef .tc main_v46)) (W3 m ρ c (Proc.devRef .tc main_v33)) (W3 m ρ c (Proc.devRef .tc main_v32)) (W3 m ρ c (Proc.devRef .tc main_v47)) (W3 m ρ c (Proc.devRef .tc main_v48)) (W3 m ρ c (Proc.devRef .tc main_v49)) = _
  rw [agg1_eq m ρ c, W3_v33 m ρ c, h1_eq m ρ c, W3_v32 m ρ c, W1_d2 m ρ c, b1_eq m ρ c, g1_eq m ρ c, be1_eq m ρ c]
  exact (core_ref _ _ _ _ _ _ _ _ _ _).trans rfl

/-! ## Layer 2 -/

theorem h2_eq : W5 m ρ c (Proc.devRef .tc main_v51) = hOf (F := Ideal) (x1Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W5_arr m ρ c 2).trans ?_
  rw [final2 (V4 m ρ) c]
  show GcnSpec.mm (W4 m ρ c (Proc.devRef .tc main_v50)) (W4 m ρ c (Proc.devRef .tc main_arg6)) = _
  rw [x1_eq m ρ c, W4_arg6 m ρ c]
  exact mm_eq_hOf _ _

theorem agg2_eq : W6 m ρ c (Proc.devRef .tc main_v64) = aggOf (F := Ideal) (srcOf (F := Ideal) (m ((c : Thread nD τ).loc main_arg1))) (dstOf (F := Ideal) (m ((c : Thread nD τ).loc main_arg1))) (enormOf (F := Ideal) (srcOf (F := Ideal) (m ((c : Thread nD τ).loc main_arg1))) (dstOf (F := Ideal) (m ((c : Thread nD τ).loc main_arg1)))) (hOf (F := Ideal) (x1Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  show StableHlo.after hostOps3 (W5 m ρ c) (Proc.devRef .tc main_v64) = _
  rw [k3_v64 (W5 m ρ c), W5_v1 m ρ c, W5_v3 m ρ c, W5_v30 m ρ c, W1_src m ρ c, W1_dst m ρ c, W1_en m ρ c, h2_eq m ρ c]

theorem b2_eq : W6 m ρ c (Proc.devRef .tc main_v65) = shapeCast S1x128 (m ((c : Thread nD τ).loc main_arg7)) shapeCasts_S128_S1x128 := by
  show StableHlo.after hostOps3 (W5 m ρ c) (Proc.devRef .tc main_v65) = _
  rw [k3_v65 (W5 m ρ c), W5_arg7 m ρ c]

theorem g2_eq : W6 m ρ c (Proc.devRef .tc main_v66) = shapeCast S1x128 (m ((c : Thread nD τ).loc main_arg8)) shapeCasts_S128_S1x128 := by
  show StableHlo.after hostOps3 (W5 m ρ c) (Proc.devRef .tc main_v66) = _
  rw [k3_v66 (W5 m ρ c), W5_arg8 m ρ c]

theorem be2_eq : W6 m ρ c (Proc.devRef .tc main_v67) = shapeCast S1x128 (m ((c : Thread nD τ).loc main_arg9)) shapeCasts_S128_S1x128 := by
  show StableHlo.after hostOps3 (W5 m ρ c) (Proc.devRef .tc main_v67) = _
  rw [k3_v67 (W5 m ρ c), W5_arg9 m ρ c]

theorem x2_eq : W7 m ρ c (Proc.devRef .tc main_v68) = (x2Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W7_arr m ρ c 7).trans ?_
  rw [final3 (V6 m ρ) c]
  show GcnSpec.coreRes (W6 m ρ c (Proc.devRef .tc main_v64)) (W6 m ρ c (Proc.devRef .tc main_v51)) (W6 m ρ c (Proc.devRef .tc main_v50)) (W6 m ρ c (Proc.devRef .tc main_v32)) (W6 m ρ c (Proc.devRef .tc main_v65)) (W6 m ρ c (Proc.devRef .tc main_v66)) (W6 m ρ c (Proc.devRef .tc main_v67)) = _
  rw [agg2_eq m ρ c, W6_v51 m ρ c, h2_eq m ρ c, W6_v50 m ρ c, x1_eq m ρ c, W6_v32 m ρ c, W1_d2 m ρ c, b2_eq m ρ c, g2_eq m ρ c, be2_eq m ρ c]
  exact (coreRes_ref _ _ _ _ _ _ _ _ _ _ _).trans rfl

/-! ## Layer 3 -/

theorem h3_eq : W8 m ρ c (Proc.devRef .tc main_v69) = hOf (F := Ideal) (x2Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := by
  refine (W8_arr m ρ c 2).trans ?_
  rw [final4 (V7 m ρ) c]
  show GcnSpec.mm (W7 m ρ c (Proc.devRef .tc main_v68)) (W7 m ρ c (Proc.devRef .tc main_arg10)) = _
  rw [x2_eq m ρ c, W7_arg10 m ρ c]
  exact mm_eq_hOf _ _

theorem agg3_eq : W9 m ρ c (Proc.devRef .tc main_v82) = aggOf (F := Ideal) (srcOf (F := Ideal) (m ((c : Thread nD τ).loc main_arg1))) (dstOf (F := Ideal) (m ((c : Thread nD τ).loc main_arg1))) (enormOf (F := Ideal) (srcOf (F := Ideal) (m ((c : Thread nD τ).loc main_arg1))) (dstOf (F := Ideal) (m ((c : Thread nD τ).loc main_arg1)))) (hOf (F := Ideal) (x2Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))) := by
  show StableHlo.after hostOps5 (W8 m ρ c) (Proc.devRef .tc main_v82) = _
  rw [k5_v82 (W8 m ρ c), W8_v1 m ρ c, W8_v3 m ρ c, W8_v30 m ρ c, W1_src m ρ c, W1_dst m ρ c, W1_en m ρ c, h3_eq m ρ c]

theorem b3_eq : W9 m ρ c (Proc.devRef .tc main_v83) = shapeCast S1x128 (m ((c : Thread nD τ).loc main_arg11)) shapeCasts_S128_S1x128 := by
  show StableHlo.after hostOps5 (W8 m ρ c) (Proc.devRef .tc main_v83) = _
  rw [k5_v83 (W8 m ρ c), W8_arg11 m ρ c]

theorem g3_eq : W9 m ρ c (Proc.devRef .tc main_v84) = shapeCast S1x128 (m ((c : Thread nD τ).loc main_arg12)) shapeCasts_S128_S1x128 := by
  show StableHlo.after hostOps5 (W8 m ρ c) (Proc.devRef .tc main_v84) = _
  rw [k5_v84 (W8 m ρ c), W8_arg12 m ρ c]

theorem be3_eq : W9 m ρ c (Proc.devRef .tc main_v85) = shapeCast S1x128 (m ((c : Thread nD τ).loc main_arg13)) shapeCasts_S128_S1x128 := by
  show StableHlo.after hostOps5 (W8 m ρ c) (Proc.devRef .tc main_v85) = _
  rw [k5_v85 (W8 m ρ c), W8_arg13 m ρ c]

theorem x3_eq : W10 m ρ c (Proc.devRef .tc main_v86) = (x3Of (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W10_arr m ρ c 7).trans ?_
  rw [final5 (V9 m ρ) c]
  show GcnSpec.coreRes (W9 m ρ c (Proc.devRef .tc main_v82)) (W9 m ρ c (Proc.devRef .tc main_v69)) (W9 m ρ c (Proc.devRef .tc main_v68)) (W9 m ρ c (Proc.devRef .tc main_v32)) (W9 m ρ c (Proc.devRef .tc main_v83)) (W9 m ρ c (Proc.devRef .tc main_v84)) (W9 m ρ c (Proc.devRef .tc main_v85)) = _
  rw [agg3_eq m ρ c, W9_v69 m ρ c, h3_eq m ρ c, W9_v68 m ρ c, x2_eq m ρ c, W9_v32 m ρ c, W1_d2 m ρ c, b3_eq m ρ c, g3_eq m ρ c, be3_eq m ρ c]
  exact (coreRes_ref _ _ _ _ _ _ _ _ _ _ _).trans rfl

/-! ## The classifier -/

theorem bc_eq : W11 m ρ c (Proc.devRef .tc main_v87) = shapeCast S1x40 (m ((c : Thread nD τ).loc main_arg15)) shapeCasts_S40_S1x40 := by
  show StableHlo.after hostOps6 (W10 m ρ c) (Proc.devRef .tc main_v87) = _
  rw [k6_v87 (W10 m ρ c), W10_arg15 m ρ c]

/-- THE KERNEL PROGRAM'S RESULT is the reference's result function of the argument arrays. -/
theorem out_eq : W12 m ρ c (Proc.devRef .tc main_v88) = (out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W12_arr m ρ c 3).trans ?_
  rw [final6 (V11 m ρ) c]
  show DenseSpec.dense (W11 m ρ c (Proc.devRef .tc main_v86)) (W11 m ρ c (Proc.devRef .tc main_arg14)) (W11 m ρ c (Proc.devRef .tc main_v87)) = _
  rw [W11_v86 m ρ c, x3_eq m ρ c, W11_arg14 m ρ c, bc_eq m ρ c]
  exact (dense_eq_headOf _ _ _ _).trans rfl

end Cert.KernelIdeal.Hand

end
-- ==== Proof.RefOps.lean ====
/-
  The reference program's @main as a list of its 296 host operations, the six calls of its outlined functions
  expanded in place over the calls' own buffer records (each callee operation at the buffers its call names), cut
  into ten consecutive pieces that refine the four windows @main is printed in.
-/
import proofs.«175674_j31894427140389_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 41: the edge table's two rows, the degrees' reciprocal square roots, the edge weights and the self weights. -/
abbrev pA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v3 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v3 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v11 (broadcastInDim S1600000 ![] bcast_S_S1600000 : (⟨S_, .f32⟩ : BufTy).Contents (Elt F) → (⟨S1600000, .f32⟩ : BufTy).Contents (Elt F)),
    ternary main_v4 main_v10 main_v11 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v12 main_v13 main_v14 (addf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_c_3 (constantI S_ 32 0#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v15 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)),
    binary main_v15 main_v15 main_v31 (mulf : (⟨S100000, .f32⟩ : BufTy).Contents (Elt F) → (⟨S100000, .f32⟩ : BufTy).Contents (Elt F) → (⟨S100000, .f32⟩ : BufTy).Contents (Elt F)) ]

/-- The buffers these operations write, in order. -/
abbrev pA_W : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31]

/-- Operations 42 … 60: layer 1's dense product, its weighted neighbourhood sum and the self weights spread along the features. -/
abbrev pB : List (HloOp τ sig (Elt F)) :=
  [ binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v32 main_v38 main_v39 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v30 main_v40 (broadcastInDim S1600000x1 ![0] bcast_S1600000_S1600000x1_0 : (⟨S1600000, .f32⟩ : BufTy).Contents (Elt F) → (⟨S1600000x1, .f32⟩ : BufTy).Contents (Elt F)),
    unary main_v40 main_v41 (broadcastInDim S1600000x128 ![0, 1] bcast_S1600000x1_S1600000x128_0_1 : (⟨S1600000x1, .f32⟩ : BufTy).Contents (Elt F) → (⟨S1600000x128, .f32⟩ : BufTy).Contents (Elt F)),
    binary main_v39 main_v41 main_v42 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v31 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)) ]

/-- The buffers these operations write, in order. -/
abbrev pB_W : List (Ref sig .tc) := [main_v32, main_c_7, main_v33, main_v34, main_c_8, main_v35, main_v36, main_v37, main_v38, main_v39, main_v40, main_v41, main_v42, main_cst_9, main_v43, main_v44, main_v45, main_v46, main_v47]

/-- Operations 61 … 65: layer 1's value before the layer norm. -/
abbrev pC : List (HloOp τ sig (Elt F)) :=
  [ binary main_v32 main_v47 main_v48 (mulf : (⟨S100000x128, .f32⟩ : BufTy).Contents (Elt F) → (⟨S100000x128, .f32⟩ : BufTy).Contents (Elt F) → (⟨S100000x128, .f32⟩ : BufTy).Contents (Elt F)),
    binary main_v45 main_v48 main_v49 (addf : (⟨S100000x128, .f32⟩ : BufTy).Contents (Elt F) → (⟨S100000x128, .f32⟩ : BufTy).Contents (Elt F) → (⟨S100000x128, .f32⟩ : BufTy).Contents (Elt F)),
    unary main_arg3 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)) ]

/-- The buffers these operations write, in order. -/
abbrev pC_W : List (Ref sig .tc) := [main_v48, main_v49, main_v50, main_v51, main_v52]

/-- Operations 66 … 124: layer 1's layer norm and exponential-linear unit (the variance function and the unit inlined). -/
abbrev pD : List (HloOp τ sig (Elt F)) :=
  [ nullary main_cst_10 (constant S_ .f32 0x00000000#32),
    binary main_v52 main_cst_10 main_v53 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v55 (broadcastInDim S100000x1 ![] bcast_S_S100000x1 : (⟨S_, .f32⟩ : BufTy).Contents (Elt F) → (⟨S100000x1, .f32⟩ : BufTy).Contents (Elt F)),
    binary main_v54 main_v55 main_v56 (Host.divf : (⟨S100000x1, .f32⟩ : BufTy).Contents (Elt F) → (⟨S100000x1, .f32⟩ : BufTy).Contents (Elt F) → (⟨S100000x1, .f32⟩ : BufTy).Contents (Elt F)),
    nullary main_c_12 (constantI S_ 32 0#32),
    TRef.nullary main_call0.cst (constant S_ .f32 0x00000000#32),
    TRef.binary (.of main_v52) main_call0.cst main_call0.v0 (fun x v => Host.reduceAdd x v reducesTo_S100000x128_S100000_d1 h_S_),
    TRef.unary main_call0.v0 main_call0.v1 (broadcastInDim S100000x1 ![0] bcast_S100000_S100000x1_0),
    TRef.nullary main_call0.cst_0 (constant S_ .f32 0x43000000#32),
    TRef.unary main_call0.cst_0 main_call0.v2 (broadcastInDim S100000x1 ![] bcast_S_S100000x1),
    TRef.binary main_call0.v1 main_call0.v2 main_call0.v3 Host.divf,
    TRef.unary main_call0.v3 main_call0.v4 (broadcastInDim S100000x128 ![0, 1] bcast_S100000x1_S100000x128_0_1),
    TRef.binary (.of main_v52) main_call0.v4 main_call0.v5 subf,
    TRef.binary main_call0.v5 main_call0.v5 main_call0.v6 mulf,
    TRef.unary (.of main_c_12) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S100000_d1 h_S_),
    TRef.unary main_call0.v9 main_call0.v10 (broadcastInDim S100000x1 ![0] bcast_S100000_S100000x1_0),
    TRef.unary main_call0.v8 main_call0.v11 (broadcastInDim S100000x1 ![] bcast_S_S100000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S100000x1 ![] bcast_S_S100000x1),
    TRef.ternary main_call0.v13 main_call0.v12 main_call0.call0.v1 main_call0.call0.v2 (fun p a b => select (broadcastInDim S100000x1 ![] bcast_S_S100000x1 p) a b),
    unary main_v56 main_v58 (broadcastInDim S100000x128 ![0, 1] bcast_S100000x1_S100000x128_0_1 : (⟨S100000x1, .f32⟩ : BufTy).Contents (Elt F) → (⟨S100000x128, .f32⟩ : BufTy).Contents (Elt F)),
    binary main_v52 main_v58 main_v59 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v60 (broadcastInDim S100000x1 ![] bcast_S_S100000x1 : (⟨S_, .f32⟩ : BufTy).Contents (Elt F) → (⟨S100000x1, .f32⟩ : BufTy).Contents (Elt F)),
    binary main_v57 main_v60 main_v61 (addf : (⟨S100000x1, .f32⟩ : BufTy).Contents (Elt F) → (⟨S100000x1, .f32⟩ : BufTy).Contents (Elt F) → (⟨S100000x1, .f32⟩ : BufTy).Contents (Elt F)),
    unary main_v61 main_v62 (Host.rsqrt : (⟨S100000x1, .f32⟩ : BufTy).Contents (Elt F) → (⟨S100000x1, .f32⟩ : BufTy).Contents (Elt F)),
    unary main_v62 main_v63 (broadcastInDim S100000x128 ![0, 1] bcast_S100000x1_S100000x128_0_1 : (⟨S100000x1, .f32⟩ : BufTy).Contents (Elt F) → (⟨S100000x128, .f32⟩ : BufTy).Contents (Elt F)),
    binary main_v59 main_v63 main_v64 (mulf : (⟨S100000x128, .f32⟩ : BufTy).Contents (Elt F) → (⟨S100000x128, .f32⟩ : BufTy).Contents (Elt F) → (⟨S100000x128, .f32⟩ : BufTy).Contents (Elt F)),
    unary main_arg4 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (mulf : (⟨S100000x128, .f32⟩ : BufTy).Contents (Elt F) → (⟨S100000x128, .f32⟩ : BufTy).Contents (Elt F) → (⟨S100000x128, .f32⟩ : BufTy).Contents (Elt F)),
    unary main_arg5 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v70) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v70) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v70) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v70) main_call1.v7 main_call1.call1.v0 select ]

/-- The buffers these operations write, in order. -/
abbrev pD_W : List (Ref sig .tc) := [main_cst_10, main_v53, main_v54, main_cst_11, main_v55, main_v56, main_c_12, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v57, main_v58, main_v59, main_cst_13, main_v60, main_v61, main_v62, main_v63, main_v64, main_v65, main_v66, main_v67, main_v68, main_v69, main_v70, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v71]

/-- Operations 125 … 148: layer 2's dense product, neighbourhood sum, self term and bias. -/
abbrev pE : List (HloOp τ sig (Elt F)) :=
  [ binary main_v71 main_arg6 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v73 (broadcastInDim S1600000 ![] bcast_S_S1600000 : (⟨S_, .i32⟩ : BufTy).Contents (Elt F) → (⟨S1600000, .i32⟩ : BufTy).Contents (Elt F)),
    binary main_v1 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v75 (broadcastInDim S1600000 ![] bcast_S_S1600000 : (⟨S_, .i32⟩ : BufTy).Contents (Elt F) → (⟨S1600000, .i32⟩ : BufTy).Contents (Elt F)),
    binary main_v1 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_v1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_v72 main_v78 main_v79 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v30 main_v80 (broadcastInDim S1600000x1 ![0] bcast_S1600000_S1600000x1_0 : (⟨S1600000, .f32⟩ : BufTy).Contents (Elt F) → (⟨S1600000x1, .f32⟩ : BufTy).Contents (Elt F)),
    unary main_v80 main_v81 (broadcastInDim S1600000x128 ![0, 1] bcast_S1600000x1_S1600000x128_0_1 : (⟨S1600000x1, .f32⟩ : BufTy).Contents (Elt F) → (⟨S1600000x128, .f32⟩ : BufTy).Contents (Elt F)),
    binary main_v79 main_v81 main_v82 (mulf : (⟨S1600000x128, .f32⟩ : BufTy).Contents (Elt F) → (⟨S1600000x128, .f32⟩ : BufTy).Contents (Elt F) → (⟨S1600000x128, .f32⟩ : BufTy).Contents (Elt F)),
    nullary main_cst_16 (constant S_ .f32 0x00000000#32),
    unary main_cst_16 main_v83 (broadcastInDim S100000x128 ![] bcast_S_S100000x128 : (⟨S_, .f32⟩ : BufTy).Contents (Elt F) → (⟨S100000x128, .f32⟩ : BufTy).Contents (Elt F)),
    unary main_v3 main_v84 (broadcastInDim S1600000x1 ![0] bcast_S1600000_S1600000x1_0 : (⟨S1600000, .i32⟩ : BufTy).Contents (Elt F) → (⟨S1600000x1, .i32⟩ : BufTy).Contents (Elt F)),
    ternary main_v83 main_v84 main_v82 main_v85 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v31 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x128 ![0, 1] bcast_S100000x1_S100000x128_0_1 : (⟨S100000x1, .f32⟩ : BufTy).Contents (Elt F) → (⟨S100000x128, .f32⟩ : BufTy).Contents (Elt F)),
    binary main_v72 main_v87 main_v88 (mulf : (⟨S100000x128, .f32⟩ : BufTy).Contents (Elt F) → (⟨S100000x128, .f32⟩ : BufTy).Contents (Elt F) → (⟨S100000x128, .f32⟩ : BufTy).Contents (Elt F)),
    binary main_v85 main_v88 main_v89 (addf : (⟨S100000x128, .f32⟩ : BufTy).Contents (Elt F) → (⟨S100000x128, .f32⟩ : BufTy).Contents (Elt F) → (⟨S100000x128, .f32⟩ : BufTy).Contents (Elt F)),
    unary main_arg7 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v89 main_v91 main_v92 (addf : (⟨S100000x128, .f32⟩ : BufTy).Contents (Elt F) → (⟨S100000x128, .f32⟩ : BufTy).Contents (Elt F) → (⟨S100000x128, .f32⟩ : BufTy).Contents (Elt F)) ]

/-- The buffers these operations write, in order. -/
abbrev pE_W : List (Ref sig .tc) := [main_v72, main_c_14, main_v73, main_v74, main_c_15, main_v75, main_v76, main_v77, main_v78, main_v79, main_v80, main_v81, main_v82, main_cst_16, main_v83, main_v84, main_v85, main_v86, main_v87, main_v88, main_v89, main_v90, main_v91, main_v92]

/-- Operations 149 … 178: layer 2's row means and row variances (the variance function inlined). -/
abbrev pF : List (HloOp τ sig (Elt F)) :=
  [ nullary main_cst_17 (constant S_ .f32 0x00000000#32),
    binary main_v92 main_cst_17 main_v93 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v93 main_v94 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v95 (broadcastInDim S100000x1 ![] bcast_S_S100000x1 : (⟨S_, .f32⟩ : BufTy).Contents (Elt F) → (⟨S100000x1, .f32⟩ : BufTy).Contents (Elt F)),
    binary main_v94 main_v95 main_v96 (Host.divf : (⟨S100000x1, .f32⟩ : BufTy).Contents (Elt F) → (⟨S100000x1, .f32⟩ : BufTy).Contents (Elt F) → (⟨S100000x1, .f32⟩ : BufTy).Contents (Elt F)),
    nullary main_c_19 (constantI S_ 32 0#32),
    TRef.nullary main_call2.cst (constant S_ .f32 0x00000000#32),
    TRef.binary (.of main_v92) main_call2.cst main_call2.v0 (fun x v => Host.reduceAdd x v reducesTo_S100000x128_S100000_d1 h_S_),
    TRef.unary main_call2.v0 main_call2.v1 (broadcastInDim S100000x1 ![0] bcast_S100000_S100000x1_0),
    TRef.nullary main_call2.cst_0 (constant S_ .f32 0x43000000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x128 ![0, 1] bcast_S100000x1_S100000x128_0_1),
    TRef.binary (.of main_v92) main_call2.v4 main_call2.v5 subf,
    TRef.binary main_call2.v5 main_call2.v5 main_call2.v6 mulf,
    TRef.unary (.of main_c_19) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S100000x1 ![] bcast_S_S100000x1),
    TRef.ternary main_call2.v13 main_call2.v12 main_call2.call0.v1 main_call2.call0.v2 (fun p a b => select (broadcastInDim S100000x1 ![] bcast_S_S100000x1 p) a b) ]

/-- The buffers these operations write, in order. -/
abbrev pF_W : List (Ref sig .tc) := [main_cst_17, main_v93, main_v94, main_cst_18, main_v95, main_v96, main_c_19, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v97]

/-- Operations 179 … 208: layer 2's normalization, unit (inlined) and the residual sum. -/
abbrev pG : List (HloOp τ sig (Elt F)) :=
  [ unary main_v96 main_v98 (broadcastInDim S100000x128 ![0, 1] bcast_S100000x1_S100000x128_0_1 : (⟨S100000x1, .f32⟩ : BufTy).Contents (Elt F) → (⟨S100000x128, .f32⟩ : BufTy).Contents (Elt F)),
    binary main_v92 main_v98 main_v99 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v100 (broadcastInDim S100000x1 ![] bcast_S_S100000x1 : (⟨S_, .f32⟩ : BufTy).Contents (Elt F) → (⟨S100000x1, .f32⟩ : BufTy).Contents (Elt F)),
    binary main_v97 main_v100 main_v101 (addf : (⟨S100000x1, .f32⟩ : BufTy).Contents (Elt F) → (⟨S100000x1, .f32⟩ : BufTy).Contents (Elt F) → (⟨S100000x1, .f32⟩ : BufTy).Contents (Elt F)),
    unary main_v101 main_v102 (Host.rsqrt : (⟨S100000x1, .f32⟩ : BufTy).Contents (Elt F) → (⟨S100000x1, .f32⟩ : BufTy).Contents (Elt F)),
    unary main_v102 main_v103 (broadcastInDim S100000x128 ![0, 1] bcast_S100000x1_S100000x128_0_1 : (⟨S100000x1, .f32⟩ : BufTy).Contents (Elt F) → (⟨S100000x128, .f32⟩ : BufTy).Contents (Elt F)),
    binary main_v99 main_v103 main_v104 (mulf : (⟨S100000x128, .f32⟩ : BufTy).Contents (Elt F) → (⟨S100000x128, .f32⟩ : BufTy).Contents (Elt F) → (⟨S100000x128, .f32⟩ : BufTy).Contents (Elt F)),
    unary main_arg8 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (mulf : (⟨S100000x128, .f32⟩ : BufTy).Contents (Elt F) → (⟨S100000x128, .f32⟩ : BufTy).Contents (Elt F) → (⟨S100000x128, .f32⟩ : BufTy).Contents (Elt F)),
    unary main_arg9 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v110) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v110) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v110) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v110) main_call3.v7 main_call3.call1.v0 select,
    binary main_v111 main_v71 main_v112 (addf : (⟨S100000x128, .f32⟩ : BufTy).Contents (Elt F) → (⟨S100000x128, .f32⟩ : BufTy).Contents (Elt F) → (⟨S100000x128, .f32⟩ : BufTy).Contents (Elt F)) ]

/-- The buffers these operations write, in order. -/
abbrev pG_W : List (Ref sig .tc) := [main_v98, main_v99, main_cst_20, main_v100, main_v101, main_v102, main_v103, main_v104, main_v105, main_v106, main_v107, main_v108, main_v109, main_v110, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v111, main_v112]

/-- Operations 209 … 232: layer 3's dense product, neighbourhood sum, self term and bias. -/
abbrev pH : List (HloOp τ sig (Elt F)) :=
  [ binary main_v112 main_arg10 main_v113 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_21 (constantI S_ 32 0#32),
    unary main_c_21 main_v114 (broadcastInDim S1600000 ![] bcast_S_S1600000 : (⟨S_, .i32⟩ : BufTy).Contents (Elt F) → (⟨S1600000, .i32⟩ : BufTy).Contents (Elt F)),
    binary main_v1 main_v114 main_v115 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v116 (broadcastInDim S1600000 ![] bcast_S_S1600000 : (⟨S_, .i32⟩ : BufTy).Contents (Elt F) → (⟨S1600000, .i32⟩ : BufTy).Contents (Elt F)),
    binary main_v1 main_v116 main_v117 (addi : (⟨S1600000, .i32⟩ : BufTy).Contents (Elt F) → (⟨S1600000, .i32⟩ : BufTy).Contents (Elt F) → (⟨S1600000, .i32⟩ : BufTy).Contents (Elt F)),
    ternary main_v115 main_v117 main_v1 main_v118 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v118 main_v119 (broadcastInDim S1600000x1 ![0] bcast_S1600000_S1600000x1_0 : (⟨S1600000, .i32⟩ : BufTy).Contents (Elt F) → (⟨S1600000x1, .i32⟩ : BufTy).Contents (Elt F)),
    binary main_v113 main_v119 main_v120 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v30 main_v121 (broadcastInDim S1600000x1 ![0] bcast_S1600000_S1600000x1_0 : (⟨S1600000, .f32⟩ : BufTy).Contents (Elt F) → (⟨S1600000x1, .f32⟩ : BufTy).Contents (Elt F)),
    unary main_v121 main_v122 (broadcastInDim S1600000x128 ![0, 1] bcast_S1600000x1_S1600000x128_0_1 : (⟨S1600000x1, .f32⟩ : BufTy).Contents (Elt F) → (⟨S1600000x128, .f32⟩ : BufTy).Contents (Elt F)),
    binary main_v120 main_v122 main_v123 (mulf : (⟨S1600000x128, .f32⟩ : BufTy).Contents (Elt F) → (⟨S1600000x128, .f32⟩ : BufTy).Contents (Elt F) → (⟨S1600000x128, .f32⟩ : BufTy).Contents (Elt F)),
    nullary main_cst_23 (constant S_ .f32 0x00000000#32),
    unary main_cst_23 main_v124 (broadcastInDim S100000x128 ![] bcast_S_S100000x128 : (⟨S_, .f32⟩ : BufTy).Contents (Elt F) → (⟨S100000x128, .f32⟩ : BufTy).Contents (Elt F)),
    unary main_v3 main_v125 (broadcastInDim S1600000x1 ![0] bcast_S1600000_S1600000x1_0 : (⟨S1600000, .i32⟩ : BufTy).Contents (Elt F) → (⟨S1600000x1, .i32⟩ : BufTy).Contents (Elt F)),
    ternary main_v124 main_v125 main_v123 main_v126 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v31 main_v127 (broadcastInDim S100000x1 ![0] bcast_S100000_S100000x1_0 : (⟨S100000, .f32⟩ : BufTy).Contents (Elt F) → (⟨S100000x1, .f32⟩ : BufTy).Contents (Elt F)),
    unary main_v127 main_v128 (broadcastInDim S100000x128 ![0, 1] bcast_S100000x1_S100000x128_0_1 : (⟨S100000x1, .f32⟩ : BufTy).Contents (Elt F) → (⟨S100000x128, .f32⟩ : BufTy).Contents (Elt F)),
    binary main_v113 main_v128 main_v129 (mulf : (⟨S100000x128, .f32⟩ : BufTy).Contents (Elt F) → (⟨S100000x128, .f32⟩ : BufTy).Contents (Elt F) → (⟨S100000x128, .f32⟩ : BufTy).Contents (Elt F)),
    binary main_v126 main_v129 main_v130 (addf : (⟨S100000x128, .f32⟩ : BufTy).Contents (Elt F) → (⟨S100000x128, .f32⟩ : BufTy).Contents (Elt F) → (⟨S100000x128, .f32⟩ : BufTy).Contents (Elt F)),
    unary main_arg11 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v130 main_v132 main_v133 (addf : (⟨S100000x128, .f32⟩ : BufTy).Contents (Elt F) → (⟨S100000x128, .f32⟩ : BufTy).Contents (Elt F) → (⟨S100000x128, .f32⟩ : BufTy).Contents (Elt F)) ]

/-- The buffers these operations write, in order. -/
abbrev pH_W : List (Ref sig .tc) := [main_v113, main_c_21, main_v114, main_v115, main_c_22, main_v116, main_v117, main_v118, main_v119, main_v120, main_v121, main_v122, main_v123, main_cst_23, main_v124, main_v125, main_v126, main_v127, main_v128, main_v129, main_v130, main_v131, main_v132, main_v133]

/-- Operations 233 … 274: layer 3's row means, row variances (the variance function inlined) and the scaled normalized rows. -/
abbrev pI : List (HloOp τ sig (Elt F)) :=
  [ nullary main_cst_24 (constant S_ .f32 0x00000000#32),
    binary main_v133 main_cst_24 main_v134 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v134 main_v135 (broadcastInDim S100000x1 ![0] bcast_S100000_S100000x1_0 : (⟨S100000, .f32⟩ : BufTy).Contents (Elt F) → (⟨S100000x1, .f32⟩ : BufTy).Contents (Elt F)),
    nullary main_cst_25 (constant S_ .f32 0x43000000#32),
    unary main_cst_25 main_v136 (broadcastInDim S100000x1 ![] bcast_S_S100000x1 : (⟨S_, .f32⟩ : BufTy).Contents (Elt F) → (⟨S100000x1, .f32⟩ : BufTy).Contents (Elt F)),
    binary main_v135 main_v136 main_v137 (Host.divf : (⟨S100000x1, .f32⟩ : BufTy).Contents (Elt F) → (⟨S100000x1, .f32⟩ : BufTy).Contents (Elt F) → (⟨S100000x1, .f32⟩ : BufTy).Contents (Elt F)),
    nullary main_c_26 (constantI S_ 32 0#32),
    TRef.nullary main_call4.cst (constant S_ .f32 0x00000000#32),
    TRef.binary (.of main_v133) main_call4.cst main_call4.v0 (fun x v => Host.reduceAdd x v reducesTo_S100000x128_S100000_d1 h_S_),
    TRef.unary main_call4.v0 main_call4.v1 (broadcastInDim S100000x1 ![0] bcast_S100000_S100000x1_0),
    TRef.nullary main_call4.cst_0 (constant S_ .f32 0x43000000#32),
    TRef.unary main_call4.cst_0 main_call4.v2 (broadcastInDim S100000x1 ![] bcast_S_S100000x1),
    TRef.binary main_call4.v1 main_call4.v2 main_call4.v3 Host.divf,
    TRef.unary main_call4.v3 main_call4.v4 (broadcastInDim S100000x128 ![0, 1] bcast_S100000x1_S100000x128_0_1),
    TRef.binary (.of main_v133) main_call4.v4 main_call4.v5 subf,
    TRef.binary main_call4.v5 main_call4.v5 main_call4.v6 mulf,
    TRef.unary (.of main_c_26) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S100000_d1 h_S_),
    TRef.unary main_call4.v9 main_call4.v10 (broadcastInDim S100000x1 ![0] bcast_S100000_S100000x1_0),
    TRef.unary main_call4.v8 main_call4.v11 (broadcastInDim S100000x1 ![] bcast_S_S100000x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S100000x1 ![] bcast_S_S100000x1),
    TRef.ternary main_call4.v13 main_call4.v12 main_call4.call0.v1 main_call4.call0.v2 (fun p a b => select (broadcastInDim S100000x1 ![] bcast_S_S100000x1 p) a b),
    unary main_v137 main_v139 (broadcastInDim S100000x128 ![0, 1] bcast_S100000x1_S100000x128_0_1 : (⟨S100000x1, .f32⟩ : BufTy).Contents (Elt F) → (⟨S100000x128, .f32⟩ : BufTy).Contents (Elt F)),
    binary main_v133 main_v139 main_v140 (subf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x3727C5AC#32),
    unary main_cst_27 main_v141 (broadcastInDim S100000x1 ![] bcast_S_S100000x1 : (⟨S_, .f32⟩ : BufTy).Contents (Elt F) → (⟨S100000x1, .f32⟩ : BufTy).Contents (Elt F)),
    binary main_v138 main_v141 main_v142 (addf : (⟨S100000x1, .f32⟩ : BufTy).Contents (Elt F) → (⟨S100000x1, .f32⟩ : BufTy).Contents (Elt F) → (⟨S100000x1, .f32⟩ : BufTy).Contents (Elt F)),
    unary main_v142 main_v143 (Host.rsqrt : (⟨S100000x1, .f32⟩ : BufTy).Contents (Elt F) → (⟨S100000x1, .f32⟩ : BufTy).Contents (Elt F)),
    unary main_v143 main_v144 (broadcastInDim S100000x128 ![0, 1] bcast_S100000x1_S100000x128_0_1 : (⟨S100000x1, .f32⟩ : BufTy).Contents (Elt F) → (⟨S100000x128, .f32⟩ : BufTy).Contents (Elt F)),
    binary main_v140 main_v144 main_v145 (mulf : (⟨S100000x128, .f32⟩ : BufTy).Contents (Elt F) → (⟨S100000x128, .f32⟩ : BufTy).Contents (Elt F) → (⟨S100000x128, .f32⟩ : BufTy).Contents (Elt F)),
    unary main_arg12 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v145 main_v147 main_v148 (mulf : (⟨S100000x128, .f32⟩ : BufTy).Contents (Elt F) → (⟨S100000x128, .f32⟩ : BufTy).Contents (Elt F) → (⟨S100000x128, .f32⟩ : BufTy).Contents (Elt F)),
    unary main_arg13 main_v149 (broadcastInDim S1x128 ![1] bcast_S128_S1x128_1 : (⟨S128, .f32⟩ : BufTy).Contents (Elt F) → (⟨S1x128, .f32⟩ : BufTy).Contents (Elt F)) ]

/-- The buffers these operations write, in order. -/
abbrev pI_W : List (Ref sig .tc) := [main_cst_24, main_v134, main_v135, main_cst_25, main_v136, main_v137, main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v138, main_v139, main_v140, main_cst_27, main_v141, main_v142, main_v143, main_v144, main_v145, main_v146, main_v147, main_v148, main_v149]

/-- Operations 275 … 296: layer 3's shift, unit (inlined), residual sum, and the final dense product with its bias row. -/
abbrev pJ : List (HloOp τ sig (Elt F)) :=
  [ unary main_v149 main_v150 (broadcastInDim S100000x128 ![0, 1] bcast_S1x128_S100000x128_0_1 : (⟨S1x128, .f32⟩ : BufTy).Contents (Elt F) → (⟨S100000x128, .f32⟩ : BufTy).Contents (Elt F)),
    binary main_v148 main_v150 main_v151 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v151) main_call5.v0 main_call5.v1 (cmpf .ogt),
    TRef.nullary main_call5.cst_0 (constant S_ .f32 0x00000000#32),
    TRef.unary main_call5.cst_0 main_call5.v2 (broadcastInDim S100000x128 ![] bcast_S_S100000x128),
    TRef.binary (.of main_v151) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x128 ![] bcast_S_S100000x128),
    TRef.ternary main_call5.v3 main_call5.call0.v1 (.of main_v151) main_call5.call0.v2 select,
    TRef.unary main_call5.call0.v2 main_call5.v5 Host.expm1,
    TRef.nullary main_call5.cst_2 (constant S_ .f32 0x3F800000#32),
    TRef.unary main_call5.cst_2 main_call5.v6 (broadcastInDim S100000x128 ![] bcast_S_S100000x128),
    TRef.binary main_call5.v6 main_call5.v5 main_call5.v7 mulf,
    TRef.ternary main_call5.v1 (.of main_v151) main_call5.v7 main_call5.call1.v0 select,
    binary main_v152 main_v112 main_v153 (addf : (⟨S100000x128, .f32⟩ : BufTy).Contents (Elt F) → (⟨S100000x128, .f32⟩ : BufTy).Contents (Elt F) → (⟨S100000x128, .f32⟩ : BufTy).Contents (Elt F)),
    binary main_v153 main_arg14 main_v154 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg15 main_v155 (broadcastInDim S1x40 ![1] bcast_S40_S1x40_1 : (⟨S40, .f32⟩ : BufTy).Contents (Elt F) → (⟨S1x40, .f32⟩ : BufTy).Contents (Elt F)),
    unary main_v155 main_v156 (broadcastInDim S100000x40 ![0, 1] bcast_S1x40_S100000x40_0_1 : (⟨S1x40, .f32⟩ : BufTy).Contents (Elt F) → (⟨S100000x40, .f32⟩ : BufTy).Contents (Elt F)),
    binary main_v154 main_v156 main_v157 (addf : (⟨S100000x40, .f32⟩ : BufTy).Contents (Elt F) → (⟨S100000x40, .f32⟩ : BufTy).Contents (Elt F) → (⟨S100000x40, .f32⟩ : BufTy).Contents (Elt F)) ]

/-- The buffers these operations write, in order. -/
abbrev pJ_W : List (Ref sig .tc) := [main_v150, main_v151, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v152, main_v153, main_v154, main_v155, main_v156, main_v157]

/-- The four printed windows of @main, each the pieces it holds. -/
def w0 : List (HloOp τ sig (Elt F)) := pA ++ pB
def w1 : List (HloOp τ sig (Elt F)) := pC ++ (pD ++ (pE ++ pF))
def w2 : List (HloOp τ sig (Elt F)) := pG ++ (pH ++ pI)
def w3 : List (HloOp τ sig (Elt F)) := pJ

/-- @main's operations, in order. -/
def ops : List (HloOp τ sig (Elt F)) := w0 ++ (w1 ++ (w2 ++ w3))

end Cert.ReferenceIdeal.Hand

end
-- ==== Proof.RefMainEq.lean ====
/-
  @main is the straight line of its operations: window by window, the outlined functions' definitions unfolded at
  their calls and the calls' records at their fields, both sides are one chain of host steps once sequencing is
  re-associated; the four windows in order are the whole list.
-/
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 0 (no call in it) is its operations in order. -/
theorem main_part0_eq (c : Dev nD) : main_part0 (F := F) c = seq w0 := rfl

set_option maxRecDepth 16384 in
set_option maxHeartbeats 4000000 in
/-- Window 1: the calls' bodies unfolded in place, the binds re-associated. -/
theorem main_part1_eq (c : Dev nD) : main_part1 (F := F) c = seq w1 := by
  simp only [main_part1, fn_var.body, fn_elu.body, fn_where.body, fn_where_0.body, fn_where_1.body, bind_assoc, pure_bind]
  rfl

set_option maxRecDepth 16384 in
set_option maxHeartbeats 4000000 in
/-- Window 2: the calls' bodies unfolded in place, the binds re-associated. -/
theorem main_part2_eq (c : Dev nD) : main_part2 (F := F) c = seq w2 := by
  simp only [main_part2, fn_var.body, fn_elu.body, fn_where.body, fn_where_0.body, fn_where_1.body, bind_assoc, pure_bind]
  rfl

set_option maxRecDepth 16384 in
set_option maxHeartbeats 4000000 in
/-- Window 3: the calls' bodies unfolded in place, the binds re-associated. -/
theorem main_part3_eq (c : Dev nD) : main_part3 (F := F) c = seq w3 := by
  simp only [main_part3, fn_var.body, fn_elu.body, fn_where.body, fn_where_0.body, fn_where_1.body, bind_assoc, pure_bind]
  rfl

/-- @main runs its four windows in order: the whole list. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefPieceA.lean ====
/-
  Piece A of the reference's run (operations 1 … 41: the edge table's two rows, the degrees' reciprocal square roots, the edge weights and the self weights),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pA_writes : (pA : List (HloOp τ sig (Elt F))).Forall fun op => op.writes ⊆ (pA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pA_keep (W : Valuation τ sig (Elt F)) (r : Ref sig .tc) (h : r ∉ pA_W) :
    after pA W (Proc.devRef .tc r) = W (Proc.devRef .tc r) :=
  after_of_writes_sub pA _ pA_writes h

set_option maxRecDepth 8192 in
set_option maxHeartbeats 4100000 in
/-- What the piece leaves at `main_v1`: each operation's result read at its own buffer, the operations composed. -/
theorem pA_main_v1 (W : Valuation τ sig (Elt F)) :
    after pA W (no_index (Proc.devRef .tc main_v1)) = srcOf (W (Proc.devRef .tc main_arg1)) := by
  simp only [pA]
  after_results_simp
  rfl

set_option maxRecDepth 8192 in
set_option maxHeartbeats 4100000 in
/-- What the piece leaves at `main_v3`: each operation's result read at its own buffer, the operations composed. -/
theorem pA_main_v3 (W : Valuation τ sig (Elt F)) :
    after pA W (no_index (Proc.devRef .tc main_v3)) = dstOf (W (Proc.devRef .tc main_arg1)) := by
  simp only [pA]
  after_results_simp
  rfl

set_option maxRecDepth 8192 in
set_option maxHeartbeats 4100000 in
/-- What the piece leaves at `main_v30`: each operation's result read at its own buffer, the operations composed. -/
theorem pA_main_v30 (W : Valuation τ sig (Elt F)) :
    after pA W (no_index (Proc.devRef .tc main_v30)) = enormOf (srcOf (W (Proc.devRef .tc main_arg1))) (dstOf (W (Proc.devRef .tc main_arg1))) := by
  simp only [pA]
  after_results_simp
  rfl

set_option maxRecDepth 8192 in
set_option maxHeartbeats 4100000 in
/-- What the piece leaves at `main_v31`: each operation's result read at its own buffer, the operations composed. -/
theorem pA_main_v31 (W : Valuation τ sig (Elt F)) :
    after pA W (no_index (Proc.devRef .tc main_v31)) = dinv2Of (dstOf (W (Proc.devRef .tc main_arg1))) := by
  simp only [pA]
  after_results_simp
  rfl

set_option maxRecDepth 8192 in
/-- Every buffer the piece's operations touch is a TensorCore reference. -/
theorem pA_sub : (pA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

set_option maxRecDepth 8192 in
/-- Every operation of the piece determines its results. -/
theorem pA_fresh : ∀ op ∈ (pA : List (HloOp τ sig (Elt F))), op.fresh = ∅ := by
  intro _ h; (repeat (cases h with | head => rfl | tail _ h => ?_)); exact nomatch h

end Cert.ReferenceIdeal.Hand

end
-- ==== Proof.RefPieceB.lean ====
/-
  Piece B of the reference's run (operations 42 … 60: layer 1's dense product, its weighted neighbourhood sum and the self weights spread along the features),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pB_writes : (pB : List (HloOp τ sig (Elt F))).Forall fun op => op.writes ⊆ (pB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pB_keep (W : Valuation τ sig (Elt F)) (r : Ref sig .tc) (h : r ∉ pB_W) :
    after pB W (Proc.devRef .tc r) = W (Proc.devRef .tc r) :=
  after_of_writes_sub pB _ pB_writes h

set_option maxRecDepth 8192 in
set_option maxHeartbeats 1900000 in
/-- What the piece leaves at `main_v32`: each operation's result read at its own buffer, the operations composed. -/
theorem pB_main_v32 (W : Valuation τ sig (Elt F)) :
    after pB W (no_index (Proc.devRef .tc main_v32)) = hOf (W (Proc.devRef .tc main_arg0)) (W (Proc.devRef .tc main_arg2)) := by
  simp only [pB]
  after_results_simp
  rfl

set_option maxRecDepth 8192 in
set_option maxHeartbeats 1900000 in
/-- What the piece leaves at `main_v45`: each operation's result read at its own buffer, the operations composed. -/
theorem pB_main_v45 (W : Valuation τ sig (Elt F)) :
    after pB W (no_index (Proc.devRef .tc main_v45)) = aggOf (W (Proc.devRef .tc main_v1)) (W (Proc.devRef .tc main_v3)) (W (Proc.devRef .tc main_v30)) (hOf (W (Proc.devRef .tc main_arg0)) (W (Proc.devRef .tc main_arg2))) := by
  simp only [pB]
  after_results_simp
  rfl

set_option maxRecDepth 8192 in
set_option maxHeartbeats 1900000 in
/-- What the piece leaves at `main_v47`: each operation's result read at its own buffer, the operations composed. -/
theorem pB_main_v47 (W : Valuation τ sig (Elt F)) :
    after pB W (no_index (Proc.devRef .tc main_v47)) = dcolOf (W (Proc.devRef .tc main_v31)) := by
  simp only [pB]
  after_results_simp
  rfl

set_option maxRecDepth 8192 in
/-- Every buffer the piece's operations touch is a TensorCore reference. -/
theorem pB_sub : (pB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩

set_option maxRecDepth 8192 in
/-- Every operation of the piece determines its results. -/
theorem pB_fresh : ∀ op ∈ (pB : List (HloOp τ sig (Elt F))), op.fresh = ∅ := by
  intro _ h; (repeat (cases h with | head => rfl | tail _ h => ?_)); exact nomatch h

end Cert.ReferenceIdeal.Hand

end
-- ==== Proof.RefPieceC.lean ====
/-
  Piece C of the reference's run (operations 61 … 65: layer 1's value before the layer norm),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pC_writes : (pC : List (HloOp τ sig (Elt F))).Forall fun op => op.writes ⊆ (pC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pC_keep (W : Valuation τ sig (Elt F)) (r : Ref sig .tc) (h : r ∉ pC_W) :
    after pC W (Proc.devRef .tc r) = W (Proc.devRef .tc r) :=
  after_of_writes_sub pC _ pC_writes h

set_option maxRecDepth 8192 in
set_option maxHeartbeats 500000 in
/-- What the piece leaves at `main_v52`: each operation's result read at its own buffer, the operations composed. -/
theorem pC_main_v52 (W : Valuation τ sig (Elt F)) :
    after pC W (no_index (Proc.devRef .tc main_v52)) = addf (addf (W (Proc.devRef .tc main_v45)) (mulf (W (Proc.devRef .tc main_v32)) (W (Proc.devRef .tc main_v47)))) (browOf (W (Proc.devRef .tc main_arg3))) := by
  simp only [pC]
  after_results_simp
  rfl

set_option maxRecDepth 8192 in
/-- Every buffer the piece's operations touch is a TensorCore reference. -/
theorem pC_sub : (pC : List (HloOp τ sig (Elt F))).Forall fun op => op.bufs ⊆ tcRefs τ sig :=
  ⟨binary_bufs_sub .., binary_bufs_sub .., unary_bufs_sub .., unary_bufs_sub .., binary_bufs_sub ..⟩

set_option maxRecDepth 8192 in
/-- Every operation of the piece determines its results. -/
theorem pC_fresh : ∀ op ∈ (pC : List (HloOp τ sig (Elt F))), op.fresh = ∅ := by
  intro _ h; (repeat (cases h with | head => rfl | tail _ h => ?_)); exact nomatch h

end Cert.ReferenceIdeal.Hand

end
-- ==== Proof.RefPieceD.lean ====
/-
  Piece D of the reference's run (operations 66 … 124: layer 1's layer norm and exponential-linear unit (the variance function and the unit inlined)),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pD_writes : (pD : List (HloOp τ sig (Elt F))).Forall fun op => op.writes ⊆ (pD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pD_keep (W : Valuation τ sig (Elt F)) (r : Ref sig .tc) (h : r ∉ pD_W) :
    after pD W (Proc.devRef .tc r) = W (Proc.devRef .tc r) :=
  after_of_writes_sub pD _ pD_writes h

set_option maxRecDepth 8192 in
set_option maxHeartbeats 5900000 in
/-- What the piece leaves at `main_v71`: each operation's result read at its own buffer, the operations composed. -/
theorem pD_main_v71 (W : Valuation τ sig (Elt F)) :
    after pD W (no_index (Proc.devRef .tc main_v71)) = lnElu (W (Proc.devRef .tc main_v52)) (W (Proc.devRef .tc main_arg4)) (W (Proc.devRef .tc main_arg5)) := by
  simp only [pD]
  after_results_simp
  rfl

set_option maxRecDepth 8192 in
/-- Every buffer the piece's operations touch is a TensorCore reference. -/
theorem pD_sub : (pD : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
/-- Every operation of the piece determines its results. -/
theorem pD_fresh : ∀ op ∈ (pD : List (HloOp τ sig (Elt F))), op.fresh = ∅ := by
  intro _ h; (repeat (cases h with | head => rfl | tail _ h => ?_)); exact nomatch h

end Cert.ReferenceIdeal.Hand

end
-- ==== Proof.RefPieceE.lean ====
/-
  Piece E of the reference's run (operations 125 … 148: layer 2's dense product, neighbourhood sum, self term and bias),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pE_writes : (pE : List (HloOp τ sig (Elt F))).Forall fun op => op.writes ⊆ (pE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pE_keep (W : Valuation τ sig (Elt F)) (r : Ref sig .tc) (h : r ∉ pE_W) :
    after pE W (Proc.devRef .tc r) = W (Proc.devRef .tc r) :=
  after_of_writes_sub pE _ pE_writes h

set_option maxRecDepth 8192 in
set_option maxHeartbeats 2400000 in
/-- What the piece leaves at `main_v92`: each operation's result read at its own buffer, the operations composed. -/
theorem pE_main_v92 (W : Valuation τ sig (Elt F)) :
    after pE W (no_index (Proc.devRef .tc main_v92)) = valOf (aggOf (W (Proc.devRef .tc main_v1)) (W (Proc.devRef .tc main_v3)) (W (Proc.devRef .tc main_v30)) (hOf (W (Proc.devRef .tc main_v71)) (W (Proc.devRef .tc main_arg6)))) (hOf (W (Proc.devRef .tc main_v71)) (W (Proc.devRef .tc main_arg6))) (W (Proc.devRef .tc main_v31)) (W (Proc.devRef .tc main_arg7)) := by
  simp only [pE]
  after_results_simp
  rfl

set_option maxRecDepth 8192 in
/-- Every buffer the piece's operations touch is a TensorCore reference. -/
theorem pE_sub : (pE : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

set_option maxRecDepth 8192 in
/-- Every operation of the piece determines its results. -/
theorem pE_fresh : ∀ op ∈ (pE : List (HloOp τ sig (Elt F))), op.fresh = ∅ := by
  intro _ h; (repeat (cases h with | head => rfl | tail _ h => ?_)); exact nomatch h

end Cert.ReferenceIdeal.Hand

end
-- ==== Proof.RefPieceF.lean ====
/-
  Piece F of the reference's run (operations 149 … 178: layer 2's row means and row variances (the variance function inlined)),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pF_writes : (pF : List (HloOp τ sig (Elt F))).Forall fun op => op.writes ⊆ (pF_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pF_keep (W : Valuation τ sig (Elt F)) (r : Ref sig .tc) (h : r ∉ pF_W) :
    after pF W (Proc.devRef .tc r) = W (Proc.devRef .tc r) :=
  after_of_writes_sub pF _ pF_writes h

set_option maxRecDepth 8192 in
set_option maxHeartbeats 3000000 in
/-- What the piece leaves at `main_v96`: each operation's result read at its own buffer, the operations composed. -/
theorem pF_main_v96 (W : Valuation τ sig (Elt F)) :
    after pF W (no_index (Proc.devRef .tc main_v96)) = meanOf (W (Proc.devRef .tc main_v92)) := by
  simp only [pF]
  after_results_simp
  rfl

set_option maxRecDepth 8192 in
set_option maxHeartbeats 3000000 in
/-- What the piece leaves at `main_v97`: each operation's result read at its own buffer, the operations composed. -/
theorem pF_main_v97 (W : Valuation τ sig (Elt F)) :
    after pF W (no_index (Proc.devRef .tc main_v97)) = varOf (W (Proc.devRef .tc main_v92)) := by
  simp only [pF]
  after_results_simp
  rfl

set_option maxRecDepth 8192 in
/-- Every buffer the piece's operations touch is a TensorCore reference. -/
theorem pF_sub : (pF : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

set_option maxRecDepth 8192 in
/-- Every operation of the piece determines its results. -/
theorem pF_fresh : ∀ op ∈ (pF : List (HloOp τ sig (Elt F))), op.fresh = ∅ := by
  intro _ h; (repeat (cases h with | head => rfl | tail _ h => ?_)); exact nomatch h

end Cert.ReferenceIdeal.Hand

end
-- ==== Proof.RefPieceG.lean ====
/-
  Piece G of the reference's run (operations 179 … 208: layer 2's normalization, unit (inlined) and the residual sum),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pG_writes : (pG : List (HloOp τ sig (Elt F))).Forall fun op => op.writes ⊆ (pG_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pG_keep (W : Valuation τ sig (Elt F)) (r : Ref sig .tc) (h : r ∉ pG_W) :
    after pG W (Proc.devRef .tc r) = W (Proc.devRef .tc r) :=
  after_of_writes_sub pG _ pG_writes h

set_option maxRecDepth 8192 in
set_option maxHeartbeats 3000000 in
/-- What the piece leaves at `main_v112`: each operation's result read at its own buffer, the operations composed. -/
theorem pG_main_v112 (W : Valuation τ sig (Elt F)) :
    after pG W (no_index (Proc.devRef .tc main_v112)) = addf (eluOf (normOf (W (Proc.devRef .tc main_v92)) (W (Proc.devRef .tc main_v96)) (W (Proc.devRef .tc main_v97)) (W (Proc.devRef .tc main_arg8)) (W (Proc.devRef .tc main_arg9)))) (W (Proc.devRef .tc main_v71)) := by
  simp only [pG]
  after_results_simp
  rfl

set_option maxRecDepth 8192 in
/-- Every buffer the piece's operations touch is a TensorCore reference. -/
theorem pG_sub : (pG : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

set_option maxRecDepth 8192 in
/-- Every operation of the piece determines its results. -/
theorem pG_fresh : ∀ op ∈ (pG : List (HloOp τ sig (Elt F))), op.fresh = ∅ := by
  intro _ h; (repeat (cases h with | head => rfl | tail _ h => ?_)); exact nomatch h

end Cert.ReferenceIdeal.Hand

end
-- ==== Proof.RefPieceH.lean ====
/-
  Piece H of the reference's run (operations 209 … 232: layer 3's dense product, neighbourhood sum, self term and bias),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pH_writes : (pH : List (HloOp τ sig (Elt F))).Forall fun op => op.writes ⊆ (pH_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pH_keep (W : Valuation τ sig (Elt F)) (r : Ref sig .tc) (h : r ∉ pH_W) :
    after pH W (Proc.devRef .tc r) = W (Proc.devRef .tc r) :=
  after_of_writes_sub pH _ pH_writes h

set_option maxRecDepth 8192 in
set_option maxHeartbeats 2400000 in
/-- What the piece leaves at `main_v133`: each operation's result read at its own buffer, the operations composed. -/
theorem pH_main_v133 (W : Valuation τ sig (Elt F)) :
    after pH W (no_index (Proc.devRef .tc main_v133)) = valOf (aggOf (W (Proc.devRef .tc main_v1)) (W (Proc.devRef .tc main_v3)) (W (Proc.devRef .tc main_v30)) (hOf (W (Proc.devRef .tc main_v112)) (W (Proc.devRef .tc main_arg10)))) (hOf (W (Proc.devRef .tc main_v112)) (W (Proc.devRef .tc main_arg10))) (W (Proc.devRef .tc main_v31)) (W (Proc.devRef .tc main_arg11)) := by
  simp only [pH]
  after_results_simp
  rfl

set_option maxRecDepth 8192 in
/-- Every buffer the piece's operations touch is a TensorCore reference. -/
theorem pH_sub : (pH : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

set_option maxRecDepth 8192 in
/-- Every operation of the piece determines its results. -/
theorem pH_fresh : ∀ op ∈ (pH : List (HloOp τ sig (Elt F))), op.fresh = ∅ := by
  intro _ h; (repeat (cases h with | head => rfl | tail _ h => ?_)); exact nomatch h

end Cert.ReferenceIdeal.Hand

end
-- ==== Proof.RefPieceI.lean ====
/-
  Piece I of the reference's run (operations 233 … 274: layer 3's row means, row variances (the variance function inlined) and the scaled normalized rows),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pI_writes : (pI : List (HloOp τ sig (Elt F))).Forall fun op => op.writes ⊆ (pI_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pI_keep (W : Valuation τ sig (Elt F)) (r : Ref sig .tc) (h : r ∉ pI_W) :
    after pI W (Proc.devRef .tc r) = W (Proc.devRef .tc r) :=
  after_of_writes_sub pI _ pI_writes h

set_option maxRecDepth 8192 in
set_option maxHeartbeats 4200000 in
/-- What the piece leaves at `main_v148`: each operation's result read at its own buffer, the operations composed. -/
theorem pI_main_v148 (W : Valuation τ sig (Elt F)) :
    after pI W (no_index (Proc.devRef .tc main_v148)) = scaledOf (W (Proc.devRef .tc main_v133)) (meanOf (W (Proc.devRef .tc main_v133))) (varOf (W (Proc.devRef .tc main_v133))) (W (Proc.devRef .tc main_arg12)) := by
  simp only [pI]
  after_results_simp
  rfl

set_option maxRecDepth 8192 in
set_option maxHeartbeats 4200000 in
/-- What the piece leaves at `main_v149`: each operation's result read at its own buffer, the operations composed. -/
theorem pI_main_v149 (W : Valuation τ sig (Elt F)) :
    after pI W (no_index (Proc.devRef .tc main_v149)) = rowOf (W (Proc.devRef .tc main_arg13)) := by
  simp only [pI]
  after_results_simp
  rfl

set_option maxRecDepth 8192 in
/-- Every buffer the piece's operations touch is a TensorCore reference. -/
theorem pI_sub : (pI : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

set_option maxRecDepth 8192 in
/-- Every operation of the piece determines its results. -/
theorem pI_fresh : ∀ op ∈ (pI : List (HloOp τ sig (Elt F))), op.fresh = ∅ := by
  intro _ h; (repeat (cases h with | head => rfl | tail _ h => ?_)); exact nomatch h

end Cert.ReferenceIdeal.Hand

end
-- ==== Proof.RefPieceJ.lean ====
/-
  Piece J of the reference's run (operations 275 … 296: layer 3's shift, unit (inlined), residual sum, and the final dense product with its bias row),
  read over an arbitrary valuation `W` of the buffers before it: what it leaves at each buffer a later piece reads,
  as the structured function of the buffers it reads; every buffer it does not write keeps its contents.
-/
import proofs.«175674_j31894427140389_1_alg».proof.Proof.RefTerms
import proofs.«175674_j31894427140389_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the piece writes a buffer of the piece's list. -/
theorem pJ_writes : (pJ : List (HloOp τ sig (Elt F))).Forall fun op => op.writes ⊆ (pJ_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the piece does not write keeps its contents through it. -/
theorem pJ_keep (W : Valuation τ sig (Elt F)) (r : Ref sig .tc) (h : r ∉ pJ_W) :
    after pJ W (Proc.devRef .tc r) = W (Proc.devRef .tc r) :=
  after_of_writes_sub pJ _ pJ_writes h

set_option maxRecDepth 8192 in
set_option maxHeartbeats 2200000 in
/-- What the piece leaves at `main_v157`: each operation's result read at its own buffer, the operations composed. -/
theorem pJ_main_v157 (W : Valuation τ sig (Elt F)) :
    after pJ W (no_index (Proc.devRef .tc main_v157)) = headOf (addf (eluOf (addf (W (Proc.devRef .tc main_v148)) (broadcastInDim S100000x128 ![0, 1] bcast_S1x128_S100000x128_0_1 (W (Proc.devRef .tc main_v149))))) (W (Proc.devRef .tc main_v112))) (W (Proc.devRef .tc main_arg14)) (W (Proc.devRef .tc main_arg15)) := by
  simp only [pJ]
  after_results_simp
  rfl

set_option maxRecDepth 8192 in
/-- Every buffer the piece's operations touch is a TensorCore reference. -/
theorem pJ_sub : (pJ : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., binary_bufs_sub .., unary_bufs_sub .., unary_bufs_sub .., binary_bufs_sub ..⟩

set_option maxRecDepth 8192 in
/-- Every operation of the piece determines its results. -/
theorem pJ_fresh : ∀ op ∈ (pJ : List (HloOp τ sig (Elt F))), op.fresh = ∅ := by
  intro _ h; (repeat (cases h with | head => rfl | tail _ h => ?_)); exact nomatch h

end Cert.ReferenceIdeal.Hand

end
-- ==== Proof.RefRun.lean ====
/-
  The reference's run, assembled: the ten pieces composed from the launch's contents. After each piece every buffer
  a later piece reads holds the structured term of the arguments that RefTerms names; at the end the result buffer
  holds `out` of the sixteen arguments, and the arguments are what they were.
-/
import proofs.«175674_j31894427140389_1_alg».proof.Proof.RefTerms
import proofs.«175674_j31894427140389_1_alg».proof.Proof.RefOps
import proofs.«175674_j31894427140389_1_alg».proof.Proof.RefMainEq
import proofs.«175674_j31894427140389_1_alg».proof.Proof.RefPieceA
import proofs.«175674_j31894427140389_1_alg».proof.Proof.RefPieceB
import proofs.«175674_j31894427140389_1_alg».proof.Proof.RefPieceC
import proofs.«175674_j31894427140389_1_alg».proof.Proof.RefPieceD
import proofs.«175674_j31894427140389_1_alg».proof.Proof.RefPieceE
import proofs.«175674_j31894427140389_1_alg».proof.Proof.RefPieceF
import proofs.«175674_j31894427140389_1_alg».proof.Proof.RefPieceG
import proofs.«175674_j31894427140389_1_alg».proof.Proof.RefPieceH
import proofs.«175674_j31894427140389_1_alg».proof.Proof.RefPieceI
import proofs.«175674_j31894427140389_1_alg».proof.Proof.RefPieceJ
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers' contents before the first piece. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl

/-- The buffers' contents after the first 1 piece. -/
def val1 (V0 : Valuation τ sig (Elt F)) : Valuation τ sig (Elt F) := after pA (val0 V0)
theorem val1_main_arg0 (V0 : Valuation τ sig (Elt F)) : val1 V0 (no_index (Proc.devRef .tc main_arg0)) = V0 (Proc.devRef .tc main_arg0) :=
  (pA_keep (val0 V0) main_arg0 (by decide)).trans (val0_main_arg0 V0)
theorem val1_main_arg1 (V0 : Valuation τ sig (Elt F)) : val1 V0 (no_index (Proc.devRef .tc main_arg1)) = V0 (Proc.devRef .tc main_arg1) :=
  (pA_keep (val0 V0) main_arg1 (by decide)).trans (val0_main_arg1 V0)
theorem val1_main_arg2 (V0 : Valuation τ sig (Elt F)) : val1 V0 (no_index (Proc.devRef .tc main_arg2)) = V0 (Proc.devRef .tc main_arg2) :=
  (pA_keep (val0 V0) main_arg2 (by decide)).trans (val0_main_arg2 V0)
theorem val1_main_arg3 (V0 : Valuation τ sig (Elt F)) : val1 V0 (no_index (Proc.devRef .tc main_arg3)) = V0 (Proc.devRef .tc main_arg3) :=
  (pA_keep (val0 V0) main_arg3 (by decide)).trans (val0_main_arg3 V0)
theorem val1_main_arg4 (V0 : Valuation τ sig (Elt F)) : val1 V0 (no_index (Proc.devRef .tc main_arg4)) = V0 (Proc.devRef .tc main_arg4) :=
  (pA_keep (val0 V0) main_arg4 (by decide)).trans (val0_main_arg4 V0)
theorem val1_main_arg5 (V0 : Valuation τ sig (Elt F)) : val1 V0 (no_index (Proc.devRef .tc main_arg5)) = V0 (Proc.devRef .tc main_arg5) :=
  (pA_keep (val0 V0) main_arg5 (by decide)).trans (val0_main_arg5 V0)
theorem val1_main_arg6 (V0 : Valuation τ sig (Elt F)) : val1 V0 (no_index (Proc.devRef .tc main_arg6)) = V0 (Proc.devRef .tc main_arg6) :=
  (pA_keep (val0 V0) main_arg6 (by decide)).trans (val0_main_arg6 V0)
theorem val1_main_arg7 (V0 : Valuation τ sig (Elt F)) : val1 V0 (no_index (Proc.devRef .tc main_arg7)) = V0 (Proc.devRef .tc main_arg7) :=
  (pA_keep (val0 V0) main_arg7 (by decide)).trans (val0_main_arg7 V0)
theorem val1_main_arg8 (V0 : Valuation τ sig (Elt F)) : val1 V0 (no_index (Proc.devRef .tc main_arg8)) = V0 (Proc.devRef .tc main_arg8) :=
  (pA_keep (val0 V0) main_arg8 (by decide)).trans (val0_main_arg8 V0)
theorem val1_main_arg9 (V0 : Valuation τ sig (Elt F)) : val1 V0 (no_index (Proc.devRef .tc main_arg9)) = V0 (Proc.devRef .tc main_arg9) :=
  (pA_keep (val0 V0) main_arg9 (by decide)).trans (val0_main_arg9 V0)
theorem val1_main_arg10 (V0 : Valuation τ sig (Elt F)) : val1 V0 (no_index (Proc.devRef .tc main_arg10)) = V0 (Proc.devRef .tc main_arg10) :=
  (pA_keep (val0 V0) main_arg10 (by decide)).trans (val0_main_arg10 V0)
theorem val1_main_arg11 (V0 : Valuation τ sig (Elt F)) : val1 V0 (no_index (Proc.devRef .tc main_arg11)) = V0 (Proc.devRef .tc main_arg11) :=
  (pA_keep (val0 V0) main_arg11 (by decide)).trans (val0_main_arg11 V0)
theorem val1_main_arg12 (V0 : Valuation τ sig (Elt F)) : val1 V0 (no_index (Proc.devRef .tc main_arg12)) = V0 (Proc.devRef .tc main_arg12) :=
  (pA_keep (val0 V0) main_arg12 (by decide)).trans (val0_main_arg12 V0)
theorem val1_main_arg13 (V0 : Valuation τ sig (Elt F)) : val1 V0 (no_index (Proc.devRef .tc main_arg13)) = V0 (Proc.devRef .tc main_arg13) :=
  (pA_keep (val0 V0) main_arg13 (by decide)).trans (val0_main_arg13 V0)
theorem val1_main_arg14 (V0 : Valuation τ sig (Elt F)) : val1 V0 (no_index (Proc.devRef .tc main_arg14)) = V0 (Proc.devRef .tc main_arg14) :=
  (pA_keep (val0 V0) main_arg14 (by decide)).trans (val0_main_arg14 V0)
theorem val1_main_arg15 (V0 : Valuation τ sig (Elt F)) : val1 V0 (no_index (Proc.devRef .tc main_arg15)) = V0 (Proc.devRef .tc main_arg15) :=
  (pA_keep (val0 V0) main_arg15 (by decide)).trans (val0_main_arg15 V0)
theorem val1_main_v1 (V0 : Valuation τ sig (Elt F)) : val1 V0 (no_index (Proc.devRef .tc main_v1)) = srcOf (V0 (Proc.devRef .tc main_arg1)) :=
  (pA_main_v1 (val0 V0)).trans (by simp only [val0_main_arg1] <;> rfl)
theorem val1_main_v3 (V0 : Valuation τ sig (Elt F)) : val1 V0 (no_index (Proc.devRef .tc main_v3)) = dstOf (V0 (Proc.devRef .tc main_arg1)) :=
  (pA_main_v3 (val0 V0)).trans (by simp only [val0_main_arg1] <;> rfl)
theorem val1_main_v30 (V0 : Valuation τ sig (Elt F)) : val1 V0 (no_index (Proc.devRef .tc main_v30)) = enormOf (srcOf (V0 (Proc.devRef .tc main_arg1))) (dstOf (V0 (Proc.devRef .tc main_arg1))) :=
  (pA_main_v30 (val0 V0)).trans (by simp only [val0_main_arg1] <;> rfl)
theorem val1_main_v31 (V0 : Valuation τ sig (Elt F)) : val1 V0 (no_index (Proc.devRef .tc main_v31)) = dinv2Of (dstOf (V0 (Proc.devRef .tc main_arg1))) :=
  (pA_main_v31 (val0 V0)).trans (by simp only [val0_main_arg1] <;> rfl)

/-- The buffers' contents after the first 2 pieces. -/
def val2 (V0 : Valuation τ sig (Elt F)) : Valuation τ sig (Elt F) := after pB (val1 V0)
theorem val2_main_arg0 (V0 : Valuation τ sig (Elt F)) : val2 V0 (no_index (Proc.devRef .tc main_arg0)) = V0 (Proc.devRef .tc main_arg0) :=
  (pB_keep (val1 V0) main_arg0 (by decide)).trans (val1_main_arg0 V0)
theorem val2_main_arg1 (V0 : Valuation τ sig (Elt F)) : val2 V0 (no_index (Proc.devRef .tc main_arg1)) = V0 (Proc.devRef .tc main_arg1) :=
  (pB_keep (val1 V0) main_arg1 (by decide)).trans (val1_main_arg1 V0)
theorem val2_main_arg2 (V0 : Valuation τ sig (Elt F)) : val2 V0 (no_index (Proc.devRef .tc main_arg2)) = V0 (Proc.devRef .tc main_arg2) :=
  (pB_keep (val1 V0) main_arg2 (by decide)).trans (val1_main_arg2 V0)
theorem val2_main_arg3 (V0 : Valuation τ sig (Elt F)) : val2 V0 (no_index (Proc.devRef .tc main_arg3)) = V0 (Proc.devRef .tc main_arg3) :=
  (pB_keep (val1 V0) main_arg3 (by decide)).trans (val1_main_arg3 V0)
theorem val2_main_arg4 (V0 : Valuation τ sig (Elt F)) : val2 V0 (no_index (Proc.devRef .tc main_arg4)) = V0 (Proc.devRef .tc main_arg4) :=
  (pB_keep (val1 V0) main_arg4 (by decide)).trans (val1_main_arg4 V0)
theorem val2_main_arg5 (V0 : Valuation τ sig (Elt F)) : val2 V0 (no_index (Proc.devRef .tc main_arg5)) = V0 (Proc.devRef .tc main_arg5) :=
  (pB_keep (val1 V0) main_arg5 (by decide)).trans (val1_main_arg5 V0)
theorem val2_main_arg6 (V0 : Valuation τ sig (Elt F)) : val2 V0 (no_index (Proc.devRef .tc main_arg6)) = V0 (Proc.devRef .tc main_arg6) :=
  (pB_keep (val1 V0) main_arg6 (by decide)).trans (val1_main_arg6 V0)
theorem val2_main_arg7 (V0 : Valuation τ sig (Elt F)) : val2 V0 (no_index (Proc.devRef .tc main_arg7)) = V0 (Proc.devRef .tc main_arg7) :=
  (pB_keep (val1 V0) main_arg7 (by decide)).trans (val1_main_arg7 V0)
theorem val2_main_arg8 (V0 : Valuation τ sig (Elt F)) : val2 V0 (no_index (Proc.devRef .tc main_arg8)) = V0 (Proc.devRef .tc main_arg8) :=
  (pB_keep (val1 V0) main_arg8 (by decide)).trans (val1_main_arg8 V0)
theorem val2_main_arg9 (V0 : Valuation τ sig (Elt F)) : val2 V0 (no_index (Proc.devRef .tc main_arg9)) = V0 (Proc.devRef .tc main_arg9) :=
  (pB_keep (val1 V0) main_arg9 (by decide)).trans (val1_main_arg9 V0)
theorem val2_main_arg10 (V0 : Valuation τ sig (Elt F)) : val2 V0 (no_index (Proc.devRef .tc main_arg10)) = V0 (Proc.devRef .tc main_arg10) :=
  (pB_keep (val1 V0) main_arg10 (by decide)).trans (val1_main_arg10 V0)
theorem val2_main_arg11 (V0 : Valuation τ sig (Elt F)) : val2 V0 (no_index (Proc.devRef .tc main_arg11)) = V0 (Proc.devRef .tc main_arg11) :=
  (pB_keep (val1 V0) main_arg11 (by decide)).trans (val1_main_arg11 V0)
theorem val2_main_arg12 (V0 : Valuation τ sig (Elt F)) : val2 V0 (no_index (Proc.devRef .tc main_arg12)) = V0 (Proc.devRef .tc main_arg12) :=
  (pB_keep (val1 V0) main_arg12 (by decide)).trans (val1_main_arg12 V0)
theorem val2_main_arg13 (V0 : Valuation τ sig (Elt F)) : val2 V0 (no_index (Proc.devRef .tc main_arg13)) = V0 (Proc.devRef .tc main_arg13) :=
  (pB_keep (val1 V0) main_arg13 (by decide)).trans (val1_main_arg13 V0)
theorem val2_main_arg14 (V0 : Valuation τ sig (Elt F)) : val2 V0 (no_index (Proc.devRef .tc main_arg14)) = V0 (Proc.devRef .tc main_arg14) :=
  (pB_keep (val1 V0) main_arg14 (by decide)).trans (val1_main_arg14 V0)
theorem val2_main_arg15 (V0 : Valuation τ sig (Elt F)) : val2 V0 (no_index (Proc.devRef .tc main_arg15)) = V0 (Proc.devRef .tc main_arg15) :=
  (pB_keep (val1 V0) main_arg15 (by decide)).trans (val1_main_arg15 V0)
theorem val2_main_v1 (V0 : Valuation τ sig (Elt F)) : val2 V0 (no_index (Proc.devRef .tc main_v1)) = srcOf (V0 (Proc.devRef .tc main_arg1)) :=
  (pB_keep (val1 V0) main_v1 (by decide)).trans (val1_main_v1 V0)
theorem val2_main_v3 (V0 : Valuation τ sig (Elt F)) : val2 V0 (no_index (Proc.devRef .tc main_v3)) = dstOf (V0 (Proc.devRef .tc main_arg1)) :=
  (pB_keep (val1 V0) main_v3 (by decide)).trans (val1_main_v3 V0)
theorem val2_main_v30 (V0 : Valuation τ sig (Elt F)) : val2 V0 (no_index (Proc.devRef .tc main_v30)) = enormOf (srcOf (V0 (Proc.devRef .tc main_arg1))) (dstOf (V0 (Proc.devRef .tc main_arg1))) :=
  (pB_keep (val1 V0) main_v30 (by decide)).trans (val1_main_v30 V0)
theorem val2_main_v31 (V0 : Valuation τ sig (Elt F)) : val2 V0 (no_index (Proc.devRef .tc main_v31)) = dinv2Of (dstOf (V0 (Proc.devRef .tc main_arg1))) :=
  (pB_keep (val1 V0) main_v31 (by decide)).trans (val1_main_v31 V0)
theorem val2_main_v32 (V0 : Valuation τ sig (Elt F)) : val2 V0 (no_index (Proc.devRef .tc main_v32)) = hOf (V0 (Proc.devRef .tc main_arg0)) (V0 (Proc.devRef .tc main_arg2)) :=
  (pB_main_v32 (val1 V0)).trans (by simp only [val1_main_arg0, val1_main_arg2, val1_main_v1, val1_main_v30, val1_main_v3, val1_main_v31] <;> rfl)
theorem val2_main_v45 (V0 : Valuation τ sig (Elt F)) : val2 V0 (no_index (Proc.devRef .tc main_v45)) = aggOf (srcOf (V0 (Proc.devRef .tc main_arg1))) (dstOf (V0 (Proc.devRef .tc main_arg1))) (enormOf (srcOf (V0 (Proc.devRef .tc main_arg1))) (dstOf (V0 (Proc.devRef .tc main_arg1)))) (hOf (V0 (Proc.devRef .tc main_arg0)) (V0 (Proc.devRef .tc main_arg2))) :=
  (pB_main_v45 (val1 V0)).trans (by simp only [val1_main_arg0, val1_main_arg2, val1_main_v1, val1_main_v30, val1_main_v3, val1_main_v31] <;> rfl)
theorem val2_main_v47 (V0 : Valuation τ sig (Elt F)) : val2 V0 (no_index (Proc.devRef .tc main_v47)) = dcolOf (dinv2Of (dstOf (V0 (Proc.devRef .tc main_arg1)))) :=
  (pB_main_v47 (val1 V0)).trans (by simp only [val1_main_arg0, val1_main_arg2, val1_main_v1, val1_main_v30, val1_main_v3, val1_main_v31] <;> rfl)

/-- The buffers' contents after the first 3 pieces. -/
def val3 (V0 : Valuation τ sig (Elt F)) : Valuation τ sig (Elt F) := after pC (val2 V0)
theorem val3_main_arg0 (V0 : Valuation τ sig (Elt F)) : val3 V0 (no_index (Proc.devRef .tc main_arg0)) = V0 (Proc.devRef .tc main_arg0) :=
  (pC_keep (val2 V0) main_arg0 (by decide)).trans (val2_main_arg0 V0)
theorem val3_main_arg1 (V0 : Valuation τ sig (Elt F)) : val3 V0 (no_index (Proc.devRef .tc main_arg1)) = V0 (Proc.devRef .tc main_arg1) :=
  (pC_keep (val2 V0) main_arg1 (by decide)).trans (val2_main_arg1 V0)
theorem val3_main_arg2 (V0 : Valuation τ sig (Elt F)) : val3 V0 (no_index (Proc.devRef .tc main_arg2)) = V0 (Proc.devRef .tc main_arg2) :=
  (pC_keep (val2 V0) main_arg2 (by decide)).trans (val2_main_arg2 V0)
theorem val3_main_arg3 (V0 : Valuation τ sig (Elt F)) : val3 V0 (no_index (Proc.devRef .tc main_arg3)) = V0 (Proc.devRef .tc main_arg3) :=
  (pC_keep (val2 V0) main_arg3 (by decide)).trans (val2_main_arg3 V0)
theorem val3_main_arg4 (V0 : Valuation τ sig (Elt F)) : val3 V0 (no_index (Proc.devRef .tc main_arg4)) = V0 (Proc.devRef .tc main_arg4) :=
  (pC_keep (val2 V0) main_arg4 (by decide)).trans (val2_main_arg4 V0)
theorem val3_main_arg5 (V0 : Valuation τ sig (Elt F)) : val3 V0 (no_index (Proc.devRef .tc main_arg5)) = V0 (Proc.devRef .tc main_arg5) :=
  (pC_keep (val2 V0) main_arg5 (by decide)).trans (val2_main_arg5 V0)
theorem val3_main_arg6 (V0 : Valuation τ sig (Elt F)) : val3 V0 (no_index (Proc.devRef .tc main_arg6)) = V0 (Proc.devRef .tc main_arg6) :=
  (pC_keep (val2 V0) main_arg6 (by decide)).trans (val2_main_arg6 V0)
theorem val3_main_arg7 (V0 : Valuation τ sig (Elt F)) : val3 V0 (no_index (Proc.devRef .tc main_arg7)) = V0 (Proc.devRef .tc main_arg7) :=
  (pC_keep (val2 V0) main_arg7 (by decide)).trans (val2_main_arg7 V0)
theorem val3_main_arg8 (V0 : Valuation τ sig (Elt F)) : val3 V0 (no_index (Proc.devRef .tc main_arg8)) = V0 (Proc.devRef .tc main_arg8) :=
  (pC_keep (val2 V0) main_arg8 (by decide)).trans (val2_main_arg8 V0)
theorem val3_main_arg9 (V0 : Valuation τ sig (Elt F)) : val3 V0 (no_index (Proc.devRef .tc main_arg9)) = V0 (Proc.devRef .tc main_arg9) :=
  (pC_keep (val2 V0) main_arg9 (by decide)).trans (val2_main_arg9 V0)
theorem val3_main_arg10 (V0 : Valuation τ sig (Elt F)) : val3 V0 (no_index (Proc.devRef .tc main_arg10)) = V0 (Proc.devRef .tc main_arg10) :=
  (pC_keep (val2 V0) main_arg10 (by decide)).trans (val2_main_arg10 V0)
theorem val3_main_arg11 (V0 : Valuation τ sig (Elt F)) : val3 V0 (no_index (Proc.devRef .tc main_arg11)) = V0 (Proc.devRef .tc main_arg11) :=
  (pC_keep (val2 V0) main_arg11 (by decide)).trans (val2_main_arg11 V0)
theorem val3_main_arg12 (V0 : Valuation τ sig (Elt F)) : val3 V0 (no_index (Proc.devRef .tc main_arg12)) = V0 (Proc.devRef .tc main_arg12) :=
  (pC_keep (val2 V0) main_arg12 (by decide)).trans (val2_main_arg12 V0)
theorem val3_main_arg13 (V0 : Valuation τ sig (Elt F)) : val3 V0 (no_index (Proc.devRef .tc main_arg13)) = V0 (Proc.devRef .tc main_arg13) :=
  (pC_keep (val2 V0) main_arg13 (by decide)).trans (val2_main_arg13 V0)
theorem val3_main_arg14 (V0 : Valuation τ sig (Elt F)) : val3 V0 (no_index (Proc.devRef .tc main_arg14)) = V0 (Proc.devRef .tc main_arg14) :=
  (pC_keep (val2 V0) main_arg14 (by decide)).trans (val2_main_arg14 V0)
theorem val3_main_arg15 (V0 : Valuation τ sig (Elt F)) : val3 V0 (no_index (Proc.devRef .tc main_arg15)) = V0 (Proc.devRef .tc main_arg15) :=
  (pC_keep (val2 V0) main_arg15 (by decide)).trans (val2_main_arg15 V0)
theorem val3_main_v1 (V0 : Valuation τ sig (Elt F)) : val3 V0 (no_index (Proc.devRef .tc main_v1)) = srcOf (V0 (Proc.devRef .tc main_arg1)) :=
  (pC_keep (val2 V0) main_v1 (by decide)).trans (val2_main_v1 V0)
theorem val3_main_v3 (V0 : Valuation τ sig (Elt F)) : val3 V0 (no_index (Proc.devRef .tc main_v3)) = dstOf (V0 (Proc.devRef .tc main_arg1)) :=
  (pC_keep (val2 V0) main_v3 (by decide)).trans (val2_main_v3 V0)
theorem val3_main_v30 (V0 : Valuation τ sig (Elt F)) : val3 V0 (no_index (Proc.devRef .tc main_v30)) = enormOf (srcOf (V0 (Proc.devRef .tc main_arg1))) (dstOf (V0 (Proc.devRef .tc main_arg1))) :=
  (pC_keep (val2 V0) main_v30 (by decide)).trans (val2_main_v30 V0)
theorem val3_main_v31 (V0 : Valuation τ sig (Elt F)) : val3 V0 (no_index (Proc.devRef .tc main_v31)) = dinv2Of (dstOf (V0 (Proc.devRef .tc main_arg1))) :=
  (pC_keep (val2 V0) main_v31 (by decide)).trans (val2_main_v31 V0)
theorem val3_main_v52 (V0 : Valuation τ sig (Elt F)) : val3 V0 (no_index (Proc.devRef .tc main_v52)) = valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (V0 (Proc.devRef .tc main_arg0)) (V0 (Proc.devRef .tc main_arg2)))) (hOf (V0 (Proc.devRef .tc main_arg0)) (V0 (Proc.devRef .tc main_arg2))) (dinv2Of (dstOf (V0 (Proc.devRef .tc main_arg1)))) (V0 (Proc.devRef .tc main_arg3)) :=
  (pC_main_v52 (val2 V0)).trans (by simp only [val2_main_v32, val2_main_v47, val2_main_v45, val2_main_arg3] <;> rfl)

/-- The buffers' contents after the first 4 pieces. -/
def val4 (V0 : Valuation τ sig (Elt F)) : Valuation τ sig (Elt F) := after pD (val3 V0)
theorem val4_main_arg0 (V0 : Valuation τ sig (Elt F)) : val4 V0 (no_index (Proc.devRef .tc main_arg0)) = V0 (Proc.devRef .tc main_arg0) :=
  (pD_keep (val3 V0) main_arg0 (by decide)).trans (val3_main_arg0 V0)
theorem val4_main_arg1 (V0 : Valuation τ sig (Elt F)) : val4 V0 (no_index (Proc.devRef .tc main_arg1)) = V0 (Proc.devRef .tc main_arg1) :=
  (pD_keep (val3 V0) main_arg1 (by decide)).trans (val3_main_arg1 V0)
theorem val4_main_arg2 (V0 : Valuation τ sig (Elt F)) : val4 V0 (no_index (Proc.devRef .tc main_arg2)) = V0 (Proc.devRef .tc main_arg2) :=
  (pD_keep (val3 V0) main_arg2 (by decide)).trans (val3_main_arg2 V0)
theorem val4_main_arg3 (V0 : Valuation τ sig (Elt F)) : val4 V0 (no_index (Proc.devRef .tc main_arg3)) = V0 (Proc.devRef .tc main_arg3) :=
  (pD_keep (val3 V0) main_arg3 (by decide)).trans (val3_main_arg3 V0)
theorem val4_main_arg4 (V0 : Valuation τ sig (Elt F)) : val4 V0 (no_index (Proc.devRef .tc main_arg4)) = V0 (Proc.devRef .tc main_arg4) :=
  (pD_keep (val3 V0) main_arg4 (by decide)).trans (val3_main_arg4 V0)
theorem val4_main_arg5 (V0 : Valuation τ sig (Elt F)) : val4 V0 (no_index (Proc.devRef .tc main_arg5)) = V0 (Proc.devRef .tc main_arg5) :=
  (pD_keep (val3 V0) main_arg5 (by decide)).trans (val3_main_arg5 V0)
theorem val4_main_arg6 (V0 : Valuation τ sig (Elt F)) : val4 V0 (no_index (Proc.devRef .tc main_arg6)) = V0 (Proc.devRef .tc main_arg6) :=
  (pD_keep (val3 V0) main_arg6 (by decide)).trans (val3_main_arg6 V0)
theorem val4_main_arg7 (V0 : Valuation τ sig (Elt F)) : val4 V0 (no_index (Proc.devRef .tc main_arg7)) = V0 (Proc.devRef .tc main_arg7) :=
  (pD_keep (val3 V0) main_arg7 (by decide)).trans (val3_main_arg7 V0)
theorem val4_main_arg8 (V0 : Valuation τ sig (Elt F)) : val4 V0 (no_index (Proc.devRef .tc main_arg8)) = V0 (Proc.devRef .tc main_arg8) :=
  (pD_keep (val3 V0) main_arg8 (by decide)).trans (val3_main_arg8 V0)
theorem val4_main_arg9 (V0 : Valuation τ sig (Elt F)) : val4 V0 (no_index (Proc.devRef .tc main_arg9)) = V0 (Proc.devRef .tc main_arg9) :=
  (pD_keep (val3 V0) main_arg9 (by decide)).trans (val3_main_arg9 V0)
theorem val4_main_arg10 (V0 : Valuation τ sig (Elt F)) : val4 V0 (no_index (Proc.devRef .tc main_arg10)) = V0 (Proc.devRef .tc main_arg10) :=
  (pD_keep (val3 V0) main_arg10 (by decide)).trans (val3_main_arg10 V0)
theorem val4_main_arg11 (V0 : Valuation τ sig (Elt F)) : val4 V0 (no_index (Proc.devRef .tc main_arg11)) = V0 (Proc.devRef .tc main_arg11) :=
  (pD_keep (val3 V0) main_arg11 (by decide)).trans (val3_main_arg11 V0)
theorem val4_main_arg12 (V0 : Valuation τ sig (Elt F)) : val4 V0 (no_index (Proc.devRef .tc main_arg12)) = V0 (Proc.devRef .tc main_arg12) :=
  (pD_keep (val3 V0) main_arg12 (by decide)).trans (val3_main_arg12 V0)
theorem val4_main_arg13 (V0 : Valuation τ sig (Elt F)) : val4 V0 (no_index (Proc.devRef .tc main_arg13)) = V0 (Proc.devRef .tc main_arg13) :=
  (pD_keep (val3 V0) main_arg13 (by decide)).trans (val3_main_arg13 V0)
theorem val4_main_arg14 (V0 : Valuation τ sig (Elt F)) : val4 V0 (no_index (Proc.devRef .tc main_arg14)) = V0 (Proc.devRef .tc main_arg14) :=
  (pD_keep (val3 V0) main_arg14 (by decide)).trans (val3_main_arg14 V0)
theorem val4_main_arg15 (V0 : Valuation τ sig (Elt F)) : val4 V0 (no_index (Proc.devRef .tc main_arg15)) = V0 (Proc.devRef .tc main_arg15) :=
  (pD_keep (val3 V0) main_arg15 (by decide)).trans (val3_main_arg15 V0)
theorem val4_main_v1 (V0 : Valuation τ sig (Elt F)) : val4 V0 (no_index (Proc.devRef .tc main_v1)) = srcOf (V0 (Proc.devRef .tc main_arg1)) :=
  (pD_keep (val3 V0) main_v1 (by decide)).trans (val3_main_v1 V0)
theorem val4_main_v3 (V0 : Valuation τ sig (Elt F)) : val4 V0 (no_index (Proc.devRef .tc main_v3)) = dstOf (V0 (Proc.devRef .tc main_arg1)) :=
  (pD_keep (val3 V0) main_v3 (by decide)).trans (val3_main_v3 V0)
theorem val4_main_v30 (V0 : Valuation τ sig (Elt F)) : val4 V0 (no_index (Proc.devRef .tc main_v30)) = enormOf (srcOf (V0 (Proc.devRef .tc main_arg1))) (dstOf (V0 (Proc.devRef .tc main_arg1))) :=
  (pD_keep (val3 V0) main_v30 (by decide)).trans (val3_main_v30 V0)
theorem val4_main_v31 (V0 : Valuation τ sig (Elt F)) : val4 V0 (no_index (Proc.devRef .tc main_v31)) = dinv2Of (dstOf (V0 (Proc.devRef .tc main_arg1))) :=
  (pD_keep (val3 V0) main_v31 (by decide)).trans (val3_main_v31 V0)
theorem val4_main_v71 (V0 : Valuation τ sig (Elt F)) : val4 V0 (no_index (Proc.devRef .tc main_v71)) = x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pD_main_v71 (val3 V0)).trans (by simp only [val3_main_v52, val3_main_arg4, val3_main_arg5] <;> rfl)

/-- The buffers' contents after the first 5 pieces. -/
def val5 (V0 : Valuation τ sig (Elt F)) : Valuation τ sig (Elt F) := after pE (val4 V0)
theorem val5_main_arg0 (V0 : Valuation τ sig (Elt F)) : val5 V0 (no_index (Proc.devRef .tc main_arg0)) = V0 (Proc.devRef .tc main_arg0) :=
  (pE_keep (val4 V0) main_arg0 (by decide)).trans (val4_main_arg0 V0)
theorem val5_main_arg1 (V0 : Valuation τ sig (Elt F)) : val5 V0 (no_index (Proc.devRef .tc main_arg1)) = V0 (Proc.devRef .tc main_arg1) :=
  (pE_keep (val4 V0) main_arg1 (by decide)).trans (val4_main_arg1 V0)
theorem val5_main_arg2 (V0 : Valuation τ sig (Elt F)) : val5 V0 (no_index (Proc.devRef .tc main_arg2)) = V0 (Proc.devRef .tc main_arg2) :=
  (pE_keep (val4 V0) main_arg2 (by decide)).trans (val4_main_arg2 V0)
theorem val5_main_arg3 (V0 : Valuation τ sig (Elt F)) : val5 V0 (no_index (Proc.devRef .tc main_arg3)) = V0 (Proc.devRef .tc main_arg3) :=
  (pE_keep (val4 V0) main_arg3 (by decide)).trans (val4_main_arg3 V0)
theorem val5_main_arg4 (V0 : Valuation τ sig (Elt F)) : val5 V0 (no_index (Proc.devRef .tc main_arg4)) = V0 (Proc.devRef .tc main_arg4) :=
  (pE_keep (val4 V0) main_arg4 (by decide)).trans (val4_main_arg4 V0)
theorem val5_main_arg5 (V0 : Valuation τ sig (Elt F)) : val5 V0 (no_index (Proc.devRef .tc main_arg5)) = V0 (Proc.devRef .tc main_arg5) :=
  (pE_keep (val4 V0) main_arg5 (by decide)).trans (val4_main_arg5 V0)
theorem val5_main_arg6 (V0 : Valuation τ sig (Elt F)) : val5 V0 (no_index (Proc.devRef .tc main_arg6)) = V0 (Proc.devRef .tc main_arg6) :=
  (pE_keep (val4 V0) main_arg6 (by decide)).trans (val4_main_arg6 V0)
theorem val5_main_arg7 (V0 : Valuation τ sig (Elt F)) : val5 V0 (no_index (Proc.devRef .tc main_arg7)) = V0 (Proc.devRef .tc main_arg7) :=
  (pE_keep (val4 V0) main_arg7 (by decide)).trans (val4_main_arg7 V0)
theorem val5_main_arg8 (V0 : Valuation τ sig (Elt F)) : val5 V0 (no_index (Proc.devRef .tc main_arg8)) = V0 (Proc.devRef .tc main_arg8) :=
  (pE_keep (val4 V0) main_arg8 (by decide)).trans (val4_main_arg8 V0)
theorem val5_main_arg9 (V0 : Valuation τ sig (Elt F)) : val5 V0 (no_index (Proc.devRef .tc main_arg9)) = V0 (Proc.devRef .tc main_arg9) :=
  (pE_keep (val4 V0) main_arg9 (by decide)).trans (val4_main_arg9 V0)
theorem val5_main_arg10 (V0 : Valuation τ sig (Elt F)) : val5 V0 (no_index (Proc.devRef .tc main_arg10)) = V0 (Proc.devRef .tc main_arg10) :=
  (pE_keep (val4 V0) main_arg10 (by decide)).trans (val4_main_arg10 V0)
theorem val5_main_arg11 (V0 : Valuation τ sig (Elt F)) : val5 V0 (no_index (Proc.devRef .tc main_arg11)) = V0 (Proc.devRef .tc main_arg11) :=
  (pE_keep (val4 V0) main_arg11 (by decide)).trans (val4_main_arg11 V0)
theorem val5_main_arg12 (V0 : Valuation τ sig (Elt F)) : val5 V0 (no_index (Proc.devRef .tc main_arg12)) = V0 (Proc.devRef .tc main_arg12) :=
  (pE_keep (val4 V0) main_arg12 (by decide)).trans (val4_main_arg12 V0)
theorem val5_main_arg13 (V0 : Valuation τ sig (Elt F)) : val5 V0 (no_index (Proc.devRef .tc main_arg13)) = V0 (Proc.devRef .tc main_arg13) :=
  (pE_keep (val4 V0) main_arg13 (by decide)).trans (val4_main_arg13 V0)
theorem val5_main_arg14 (V0 : Valuation τ sig (Elt F)) : val5 V0 (no_index (Proc.devRef .tc main_arg14)) = V0 (Proc.devRef .tc main_arg14) :=
  (pE_keep (val4 V0) main_arg14 (by decide)).trans (val4_main_arg14 V0)
theorem val5_main_arg15 (V0 : Valuation τ sig (Elt F)) : val5 V0 (no_index (Proc.devRef .tc main_arg15)) = V0 (Proc.devRef .tc main_arg15) :=
  (pE_keep (val4 V0) main_arg15 (by decide)).trans (val4_main_arg15 V0)
theorem val5_main_v1 (V0 : Valuation τ sig (Elt F)) : val5 V0 (no_index (Proc.devRef .tc main_v1)) = srcOf (V0 (Proc.devRef .tc main_arg1)) :=
  (pE_keep (val4 V0) main_v1 (by decide)).trans (val4_main_v1 V0)
theorem val5_main_v3 (V0 : Valuation τ sig (Elt F)) : val5 V0 (no_index (Proc.devRef .tc main_v3)) = dstOf (V0 (Proc.devRef .tc main_arg1)) :=
  (pE_keep (val4 V0) main_v3 (by decide)).trans (val4_main_v3 V0)
theorem val5_main_v30 (V0 : Valuation τ sig (Elt F)) : val5 V0 (no_index (Proc.devRef .tc main_v30)) = enormOf (srcOf (V0 (Proc.devRef .tc main_arg1))) (dstOf (V0 (Proc.devRef .tc main_arg1))) :=
  (pE_keep (val4 V0) main_v30 (by decide)).trans (val4_main_v30 V0)
theorem val5_main_v31 (V0 : Valuation τ sig (Elt F)) : val5 V0 (no_index (Proc.devRef .tc main_v31)) = dinv2Of (dstOf (V0 (Proc.devRef .tc main_arg1))) :=
  (pE_keep (val4 V0) main_v31 (by decide)).trans (val4_main_v31 V0)
theorem val5_main_v71 (V0 : Valuation τ sig (Elt F)) : val5 V0 (no_index (Proc.devRef .tc main_v71)) = x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pE_keep (val4 V0) main_v71 (by decide)).trans (val4_main_v71 V0)
theorem val5_main_v92 (V0 : Valuation τ sig (Elt F)) : val5 V0 (no_index (Proc.devRef .tc main_v92)) = valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6))) (dinv2Of (dstOf (V0 (Proc.devRef .tc main_arg1)))) (V0 (Proc.devRef .tc main_arg7)) :=
  (pE_main_v92 (val4 V0)).trans (by simp only [val4_main_v71, val4_main_arg6, val4_main_v1, val4_main_v30, val4_main_v3, val4_main_v31, val4_main_arg7] <;> rfl)

/-- The buffers' contents after the first 6 pieces. -/
def val6 (V0 : Valuation τ sig (Elt F)) : Valuation τ sig (Elt F) := after pF (val5 V0)
theorem val6_main_arg0 (V0 : Valuation τ sig (Elt F)) : val6 V0 (no_index (Proc.devRef .tc main_arg0)) = V0 (Proc.devRef .tc main_arg0) :=
  (pF_keep (val5 V0) main_arg0 (by decide)).trans (val5_main_arg0 V0)
theorem val6_main_arg1 (V0 : Valuation τ sig (Elt F)) : val6 V0 (no_index (Proc.devRef .tc main_arg1)) = V0 (Proc.devRef .tc main_arg1) :=
  (pF_keep (val5 V0) main_arg1 (by decide)).trans (val5_main_arg1 V0)
theorem val6_main_arg2 (V0 : Valuation τ sig (Elt F)) : val6 V0 (no_index (Proc.devRef .tc main_arg2)) = V0 (Proc.devRef .tc main_arg2) :=
  (pF_keep (val5 V0) main_arg2 (by decide)).trans (val5_main_arg2 V0)
theorem val6_main_arg3 (V0 : Valuation τ sig (Elt F)) : val6 V0 (no_index (Proc.devRef .tc main_arg3)) = V0 (Proc.devRef .tc main_arg3) :=
  (pF_keep (val5 V0) main_arg3 (by decide)).trans (val5_main_arg3 V0)
theorem val6_main_arg4 (V0 : Valuation τ sig (Elt F)) : val6 V0 (no_index (Proc.devRef .tc main_arg4)) = V0 (Proc.devRef .tc main_arg4) :=
  (pF_keep (val5 V0) main_arg4 (by decide)).trans (val5_main_arg4 V0)
theorem val6_main_arg5 (V0 : Valuation τ sig (Elt F)) : val6 V0 (no_index (Proc.devRef .tc main_arg5)) = V0 (Proc.devRef .tc main_arg5) :=
  (pF_keep (val5 V0) main_arg5 (by decide)).trans (val5_main_arg5 V0)
theorem val6_main_arg6 (V0 : Valuation τ sig (Elt F)) : val6 V0 (no_index (Proc.devRef .tc main_arg6)) = V0 (Proc.devRef .tc main_arg6) :=
  (pF_keep (val5 V0) main_arg6 (by decide)).trans (val5_main_arg6 V0)
theorem val6_main_arg7 (V0 : Valuation τ sig (Elt F)) : val6 V0 (no_index (Proc.devRef .tc main_arg7)) = V0 (Proc.devRef .tc main_arg7) :=
  (pF_keep (val5 V0) main_arg7 (by decide)).trans (val5_main_arg7 V0)
theorem val6_main_arg8 (V0 : Valuation τ sig (Elt F)) : val6 V0 (no_index (Proc.devRef .tc main_arg8)) = V0 (Proc.devRef .tc main_arg8) :=
  (pF_keep (val5 V0) main_arg8 (by decide)).trans (val5_main_arg8 V0)
theorem val6_main_arg9 (V0 : Valuation τ sig (Elt F)) : val6 V0 (no_index (Proc.devRef .tc main_arg9)) = V0 (Proc.devRef .tc main_arg9) :=
  (pF_keep (val5 V0) main_arg9 (by decide)).trans (val5_main_arg9 V0)
theorem val6_main_arg10 (V0 : Valuation τ sig (Elt F)) : val6 V0 (no_index (Proc.devRef .tc main_arg10)) = V0 (Proc.devRef .tc main_arg10) :=
  (pF_keep (val5 V0) main_arg10 (by decide)).trans (val5_main_arg10 V0)
theorem val6_main_arg11 (V0 : Valuation τ sig (Elt F)) : val6 V0 (no_index (Proc.devRef .tc main_arg11)) = V0 (Proc.devRef .tc main_arg11) :=
  (pF_keep (val5 V0) main_arg11 (by decide)).trans (val5_main_arg11 V0)
theorem val6_main_arg12 (V0 : Valuation τ sig (Elt F)) : val6 V0 (no_index (Proc.devRef .tc main_arg12)) = V0 (Proc.devRef .tc main_arg12) :=
  (pF_keep (val5 V0) main_arg12 (by decide)).trans (val5_main_arg12 V0)
theorem val6_main_arg13 (V0 : Valuation τ sig (Elt F)) : val6 V0 (no_index (Proc.devRef .tc main_arg13)) = V0 (Proc.devRef .tc main_arg13) :=
  (pF_keep (val5 V0) main_arg13 (by decide)).trans (val5_main_arg13 V0)
theorem val6_main_arg14 (V0 : Valuation τ sig (Elt F)) : val6 V0 (no_index (Proc.devRef .tc main_arg14)) = V0 (Proc.devRef .tc main_arg14) :=
  (pF_keep (val5 V0) main_arg14 (by decide)).trans (val5_main_arg14 V0)
theorem val6_main_arg15 (V0 : Valuation τ sig (Elt F)) : val6 V0 (no_index (Proc.devRef .tc main_arg15)) = V0 (Proc.devRef .tc main_arg15) :=
  (pF_keep (val5 V0) main_arg15 (by decide)).trans (val5_main_arg15 V0)
theorem val6_main_v1 (V0 : Valuation τ sig (Elt F)) : val6 V0 (no_index (Proc.devRef .tc main_v1)) = srcOf (V0 (Proc.devRef .tc main_arg1)) :=
  (pF_keep (val5 V0) main_v1 (by decide)).trans (val5_main_v1 V0)
theorem val6_main_v3 (V0 : Valuation τ sig (Elt F)) : val6 V0 (no_index (Proc.devRef .tc main_v3)) = dstOf (V0 (Proc.devRef .tc main_arg1)) :=
  (pF_keep (val5 V0) main_v3 (by decide)).trans (val5_main_v3 V0)
theorem val6_main_v30 (V0 : Valuation τ sig (Elt F)) : val6 V0 (no_index (Proc.devRef .tc main_v30)) = enormOf (srcOf (V0 (Proc.devRef .tc main_arg1))) (dstOf (V0 (Proc.devRef .tc main_arg1))) :=
  (pF_keep (val5 V0) main_v30 (by decide)).trans (val5_main_v30 V0)
theorem val6_main_v31 (V0 : Valuation τ sig (Elt F)) : val6 V0 (no_index (Proc.devRef .tc main_v31)) = dinv2Of (dstOf (V0 (Proc.devRef .tc main_arg1))) :=
  (pF_keep (val5 V0) main_v31 (by decide)).trans (val5_main_v31 V0)
theorem val6_main_v71 (V0 : Valuation τ sig (Elt F)) : val6 V0 (no_index (Proc.devRef .tc main_v71)) = x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (pF_keep (val5 V0) main_v71 (by decide)).trans (val5_main_v71 V0)
theorem val6_main_v92 (V0 : Valuation τ sig (Elt F)) : val6 V0 (no_index (Proc.devRef .tc main_v92)) = valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6))) (dinv2Of (dstOf (V0 (Proc.devRef .tc main_arg1)))) (V0 (Proc.devRef .tc main_arg7)) :=
  (pF_keep (val5 V0) main_v92 (by decide)).trans (val5_main_v92 V0)
theorem val6_main_v96 (V0 : Valuation τ sig (Elt F)) : val6 V0 (no_index (Proc.devRef .tc main_v96)) = meanOf (valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6))) (dinv2Of (dstOf (V0 (Proc.devRef .tc main_arg1)))) (V0 (Proc.devRef .tc main_arg7))) :=
  (pF_main_v96 (val5 V0)).trans (by simp only [val5_main_v92] <;> rfl)
theorem val6_main_v97 (V0 : Valuation τ sig (Elt F)) : val6 V0 (no_index (Proc.devRef .tc main_v97)) = varOf (valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6)))) (hOf (x1Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6))) (dinv2Of (dstOf (V0 (Proc.devRef .tc main_arg1)))) (V0 (Proc.devRef .tc main_arg7))) :=
  (pF_main_v97 (val5 V0)).trans (by simp only [val5_main_v92] <;> rfl)

/-- The buffers' contents after the first 7 pieces. -/
def val7 (V0 : Valuation τ sig (Elt F)) : Valuation τ sig (Elt F) := after pG (val6 V0)
theorem val7_main_arg0 (V0 : Valuation τ sig (Elt F)) : val7 V0 (no_index (Proc.devRef .tc main_arg0)) = V0 (Proc.devRef .tc main_arg0) :=
  (pG_keep (val6 V0) main_arg0 (by decide)).trans (val6_main_arg0 V0)
theorem val7_main_arg1 (V0 : Valuation τ sig (Elt F)) : val7 V0 (no_index (Proc.devRef .tc main_arg1)) = V0 (Proc.devRef .tc main_arg1) :=
  (pG_keep (val6 V0) main_arg1 (by decide)).trans (val6_main_arg1 V0)
theorem val7_main_arg2 (V0 : Valuation τ sig (Elt F)) : val7 V0 (no_index (Proc.devRef .tc main_arg2)) = V0 (Proc.devRef .tc main_arg2) :=
  (pG_keep (val6 V0) main_arg2 (by decide)).trans (val6_main_arg2 V0)
theorem val7_main_arg3 (V0 : Valuation τ sig (Elt F)) : val7 V0 (no_index (Proc.devRef .tc main_arg3)) = V0 (Proc.devRef .tc main_arg3) :=
  (pG_keep (val6 V0) main_arg3 (by decide)).trans (val6_main_arg3 V0)
theorem val7_main_arg4 (V0 : Valuation τ sig (Elt F)) : val7 V0 (no_index (Proc.devRef .tc main_arg4)) = V0 (Proc.devRef .tc main_arg4) :=
  (pG_keep (val6 V0) main_arg4 (by decide)).trans (val6_main_arg4 V0)
theorem val7_main_arg5 (V0 : Valuation τ sig (Elt F)) : val7 V0 (no_index (Proc.devRef .tc main_arg5)) = V0 (Proc.devRef .tc main_arg5) :=
  (pG_keep (val6 V0) main_arg5 (by decide)).trans (val6_main_arg5 V0)
theorem val7_main_arg6 (V0 : Valuation τ sig (Elt F)) : val7 V0 (no_index (Proc.devRef .tc main_arg6)) = V0 (Proc.devRef .tc main_arg6) :=
  (pG_keep (val6 V0) main_arg6 (by decide)).trans (val6_main_arg6 V0)
theorem val7_main_arg7 (V0 : Valuation τ sig (Elt F)) : val7 V0 (no_index (Proc.devRef .tc main_arg7)) = V0 (Proc.devRef .tc main_arg7) :=
  (pG_keep (val6 V0) main_arg7 (by decide)).trans (val6_main_arg7 V0)
theorem val7_main_arg8 (V0 : Valuation τ sig (Elt F)) : val7 V0 (no_index (Proc.devRef .tc main_arg8)) = V0 (Proc.devRef .tc main_arg8) :=
  (pG_keep (val6 V0) main_arg8 (by decide)).trans (val6_main_arg8 V0)
theorem val7_main_arg9 (V0 : Valuation τ sig (Elt F)) : val7 V0 (no_index (Proc.devRef .tc main_arg9)) = V0 (Proc.devRef .tc main_arg9) :=
  (pG_keep (val6 V0) main_arg9 (by decide)).trans (val6_main_arg9 V0)
theorem val7_main_arg10 (V0 : Valuation τ sig (Elt F)) : val7 V0 (no_index (Proc.devRef .tc main_arg10)) = V0 (Proc.devRef .tc main_arg10) :=
  (pG_keep (val6 V0) main_arg10 (by decide)).trans (val6_main_arg10 V0)
theorem val7_main_arg11 (V0 : Valuation τ sig (Elt F)) : val7 V0 (no_index (Proc.devRef .tc main_arg11)) = V0 (Proc.devRef .tc main_arg11) :=
  (pG_keep (val6 V0) main_arg11 (by decide)).trans (val6_main_arg11 V0)
theorem val7_main_arg12 (V0 : Valuation τ sig (Elt F)) : val7 V0 (no_index (Proc.devRef .tc main_arg12)) = V0 (Proc.devRef .tc main_arg12) :=
  (pG_keep (val6 V0) main_arg12 (by decide)).trans (val6_main_arg12 V0)
theorem val7_main_arg13 (V0 : Valuation τ sig (Elt F)) : val7 V0 (no_index (Proc.devRef .tc main_arg13)) = V0 (Proc.devRef .tc main_arg13) :=
  (pG_keep (val6 V0) main_arg13 (by decide)).trans (val6_main_arg13 V0)
theorem val7_main_arg14 (V0 : Valuation τ sig (Elt F)) : val7 V0 (no_index (Proc.devRef .tc main_arg14)) = V0 (Proc.devRef .tc main_arg14) :=
  (pG_keep (val6 V0) main_arg14 (by decide)).trans (val6_main_arg14 V0)
theorem val7_main_arg15 (V0 : Valuation τ sig (Elt F)) : val7 V0 (no_index (Proc.devRef .tc main_arg15)) = V0 (Proc.devRef .tc main_arg15) :=
  (pG_keep (val6 V0) main_arg15 (by decide)).trans (val6_main_arg15 V0)
theorem val7_main_v1 (V0 : Valuation τ sig (Elt F)) : val7 V0 (no_index (Proc.devRef .tc main_v1)) = srcOf (V0 (Proc.devRef .tc main_arg1)) :=
  (pG_keep (val6 V0) main_v1 (by decide)).trans (val6_main_v1 V0)
theorem val7_main_v3 (V0 : Valuation τ sig (Elt F)) : val7 V0 (no_index (Proc.devRef .tc main_v3)) = dstOf (V0 (Proc.devRef .tc main_arg1)) :=
  (pG_keep (val6 V0) main_v3 (by decide)).trans (val6_main_v3 V0)
theorem val7_main_v30 (V0 : Valuation τ sig (Elt F)) : val7 V0 (no_index (Proc.devRef .tc main_v30)) = enormOf (srcOf (V0 (Proc.devRef .tc main_arg1))) (dstOf (V0 (Proc.devRef .tc main_arg1))) :=
  (pG_keep (val6 V0) main_v30 (by decide)).trans (val6_main_v30 V0)
theorem val7_main_v31 (V0 : Valuation τ sig (Elt F)) : val7 V0 (no_index (Proc.devRef .tc main_v31)) = dinv2Of (dstOf (V0 (Proc.devRef .tc main_arg1))) :=
  (pG_keep (val6 V0) main_v31 (by decide)).trans (val6_main_v31 V0)
theorem val7_main_v112 (V0 : Valuation τ sig (Elt F)) : val7 V0 (no_index (Proc.devRef .tc main_v112)) = x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (pG_main_v112 (val6 V0)).trans (by simp only [val6_main_v96, val6_main_v92, val6_main_v97, val6_main_arg8, val6_main_arg9, val6_main_v71] <;> rfl)

/-- The buffers' contents after the first 8 pieces. -/
def val8 (V0 : Valuation τ sig (Elt F)) : Valuation τ sig (Elt F) := after pH (val7 V0)
theorem val8_main_arg0 (V0 : Valuation τ sig (Elt F)) : val8 V0 (no_index (Proc.devRef .tc main_arg0)) = V0 (Proc.devRef .tc main_arg0) :=
  (pH_keep (val7 V0) main_arg0 (by decide)).trans (val7_main_arg0 V0)
theorem val8_main_arg1 (V0 : Valuation τ sig (Elt F)) : val8 V0 (no_index (Proc.devRef .tc main_arg1)) = V0 (Proc.devRef .tc main_arg1) :=
  (pH_keep (val7 V0) main_arg1 (by decide)).trans (val7_main_arg1 V0)
theorem val8_main_arg2 (V0 : Valuation τ sig (Elt F)) : val8 V0 (no_index (Proc.devRef .tc main_arg2)) = V0 (Proc.devRef .tc main_arg2) :=
  (pH_keep (val7 V0) main_arg2 (by decide)).trans (val7_main_arg2 V0)
theorem val8_main_arg3 (V0 : Valuation τ sig (Elt F)) : val8 V0 (no_index (Proc.devRef .tc main_arg3)) = V0 (Proc.devRef .tc main_arg3) :=
  (pH_keep (val7 V0) main_arg3 (by decide)).trans (val7_main_arg3 V0)
theorem val8_main_arg4 (V0 : Valuation τ sig (Elt F)) : val8 V0 (no_index (Proc.devRef .tc main_arg4)) = V0 (Proc.devRef .tc main_arg4) :=
  (pH_keep (val7 V0) main_arg4 (by decide)).trans (val7_main_arg4 V0)
theorem val8_main_arg5 (V0 : Valuation τ sig (Elt F)) : val8 V0 (no_index (Proc.devRef .tc main_arg5)) = V0 (Proc.devRef .tc main_arg5) :=
  (pH_keep (val7 V0) main_arg5 (by decide)).trans (val7_main_arg5 V0)
theorem val8_main_arg6 (V0 : Valuation τ sig (Elt F)) : val8 V0 (no_index (Proc.devRef .tc main_arg6)) = V0 (Proc.devRef .tc main_arg6) :=
  (pH_keep (val7 V0) main_arg6 (by decide)).trans (val7_main_arg6 V0)
theorem val8_main_arg7 (V0 : Valuation τ sig (Elt F)) : val8 V0 (no_index (Proc.devRef .tc main_arg7)) = V0 (Proc.devRef .tc main_arg7) :=
  (pH_keep (val7 V0) main_arg7 (by decide)).trans (val7_main_arg7 V0)
theorem val8_main_arg8 (V0 : Valuation τ sig (Elt F)) : val8 V0 (no_index (Proc.devRef .tc main_arg8)) = V0 (Proc.devRef .tc main_arg8) :=
  (pH_keep (val7 V0) main_arg8 (by decide)).trans (val7_main_arg8 V0)
theorem val8_main_arg9 (V0 : Valuation τ sig (Elt F)) : val8 V0 (no_index (Proc.devRef .tc main_arg9)) = V0 (Proc.devRef .tc main_arg9) :=
  (pH_keep (val7 V0) main_arg9 (by decide)).trans (val7_main_arg9 V0)
theorem val8_main_arg10 (V0 : Valuation τ sig (Elt F)) : val8 V0 (no_index (Proc.devRef .tc main_arg10)) = V0 (Proc.devRef .tc main_arg10) :=
  (pH_keep (val7 V0) main_arg10 (by decide)).trans (val7_main_arg10 V0)
theorem val8_main_arg11 (V0 : Valuation τ sig (Elt F)) : val8 V0 (no_index (Proc.devRef .tc main_arg11)) = V0 (Proc.devRef .tc main_arg11) :=
  (pH_keep (val7 V0) main_arg11 (by decide)).trans (val7_main_arg11 V0)
theorem val8_main_arg12 (V0 : Valuation τ sig (Elt F)) : val8 V0 (no_index (Proc.devRef .tc main_arg12)) = V0 (Proc.devRef .tc main_arg12) :=
  (pH_keep (val7 V0) main_arg12 (by decide)).trans (val7_main_arg12 V0)
theorem val8_main_arg13 (V0 : Valuation τ sig (Elt F)) : val8 V0 (no_index (Proc.devRef .tc main_arg13)) = V0 (Proc.devRef .tc main_arg13) :=
  (pH_keep (val7 V0) main_arg13 (by decide)).trans (val7_main_arg13 V0)
theorem val8_main_arg14 (V0 : Valuation τ sig (Elt F)) : val8 V0 (no_index (Proc.devRef .tc main_arg14)) = V0 (Proc.devRef .tc main_arg14) :=
  (pH_keep (val7 V0) main_arg14 (by decide)).trans (val7_main_arg14 V0)
theorem val8_main_arg15 (V0 : Valuation τ sig (Elt F)) : val8 V0 (no_index (Proc.devRef .tc main_arg15)) = V0 (Proc.devRef .tc main_arg15) :=
  (pH_keep (val7 V0) main_arg15 (by decide)).trans (val7_main_arg15 V0)
theorem val8_main_v112 (V0 : Valuation τ sig (Elt F)) : val8 V0 (no_index (Proc.devRef .tc main_v112)) = x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (pH_keep (val7 V0) main_v112 (by decide)).trans (val7_main_v112 V0)
theorem val8_main_v133 (V0 : Valuation τ sig (Elt F)) : val8 V0 (no_index (Proc.devRef .tc main_v133)) = valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10))) (dinv2Of (dstOf (V0 (Proc.devRef .tc main_arg1)))) (V0 (Proc.devRef .tc main_arg11)) :=
  (pH_main_v133 (val7 V0)).trans (by simp only [val7_main_v112, val7_main_arg10, val7_main_v1, val7_main_v30, val7_main_v3, val7_main_v31, val7_main_arg11] <;> rfl)

/-- The buffers' contents after the first 9 pieces. -/
def val9 (V0 : Valuation τ sig (Elt F)) : Valuation τ sig (Elt F) := after pI (val8 V0)
theorem val9_main_arg0 (V0 : Valuation τ sig (Elt F)) : val9 V0 (no_index (Proc.devRef .tc main_arg0)) = V0 (Proc.devRef .tc main_arg0) :=
  (pI_keep (val8 V0) main_arg0 (by decide)).trans (val8_main_arg0 V0)
theorem val9_main_arg1 (V0 : Valuation τ sig (Elt F)) : val9 V0 (no_index (Proc.devRef .tc main_arg1)) = V0 (Proc.devRef .tc main_arg1) :=
  (pI_keep (val8 V0) main_arg1 (by decide)).trans (val8_main_arg1 V0)
theorem val9_main_arg2 (V0 : Valuation τ sig (Elt F)) : val9 V0 (no_index (Proc.devRef .tc main_arg2)) = V0 (Proc.devRef .tc main_arg2) :=
  (pI_keep (val8 V0) main_arg2 (by decide)).trans (val8_main_arg2 V0)
theorem val9_main_arg3 (V0 : Valuation τ sig (Elt F)) : val9 V0 (no_index (Proc.devRef .tc main_arg3)) = V0 (Proc.devRef .tc main_arg3) :=
  (pI_keep (val8 V0) main_arg3 (by decide)).trans (val8_main_arg3 V0)
theorem val9_main_arg4 (V0 : Valuation τ sig (Elt F)) : val9 V0 (no_index (Proc.devRef .tc main_arg4)) = V0 (Proc.devRef .tc main_arg4) :=
  (pI_keep (val8 V0) main_arg4 (by decide)).trans (val8_main_arg4 V0)
theorem val9_main_arg5 (V0 : Valuation τ sig (Elt F)) : val9 V0 (no_index (Proc.devRef .tc main_arg5)) = V0 (Proc.devRef .tc main_arg5) :=
  (pI_keep (val8 V0) main_arg5 (by decide)).trans (val8_main_arg5 V0)
theorem val9_main_arg6 (V0 : Valuation τ sig (Elt F)) : val9 V0 (no_index (Proc.devRef .tc main_arg6)) = V0 (Proc.devRef .tc main_arg6) :=
  (pI_keep (val8 V0) main_arg6 (by decide)).trans (val8_main_arg6 V0)
theorem val9_main_arg7 (V0 : Valuation τ sig (Elt F)) : val9 V0 (no_index (Proc.devRef .tc main_arg7)) = V0 (Proc.devRef .tc main_arg7) :=
  (pI_keep (val8 V0) main_arg7 (by decide)).trans (val8_main_arg7 V0)
theorem val9_main_arg8 (V0 : Valuation τ sig (Elt F)) : val9 V0 (no_index (Proc.devRef .tc main_arg8)) = V0 (Proc.devRef .tc main_arg8) :=
  (pI_keep (val8 V0) main_arg8 (by decide)).trans (val8_main_arg8 V0)
theorem val9_main_arg9 (V0 : Valuation τ sig (Elt F)) : val9 V0 (no_index (Proc.devRef .tc main_arg9)) = V0 (Proc.devRef .tc main_arg9) :=
  (pI_keep (val8 V0) main_arg9 (by decide)).trans (val8_main_arg9 V0)
theorem val9_main_arg10 (V0 : Valuation τ sig (Elt F)) : val9 V0 (no_index (Proc.devRef .tc main_arg10)) = V0 (Proc.devRef .tc main_arg10) :=
  (pI_keep (val8 V0) main_arg10 (by decide)).trans (val8_main_arg10 V0)
theorem val9_main_arg11 (V0 : Valuation τ sig (Elt F)) : val9 V0 (no_index (Proc.devRef .tc main_arg11)) = V0 (Proc.devRef .tc main_arg11) :=
  (pI_keep (val8 V0) main_arg11 (by decide)).trans (val8_main_arg11 V0)
theorem val9_main_arg12 (V0 : Valuation τ sig (Elt F)) : val9 V0 (no_index (Proc.devRef .tc main_arg12)) = V0 (Proc.devRef .tc main_arg12) :=
  (pI_keep (val8 V0) main_arg12 (by decide)).trans (val8_main_arg12 V0)
theorem val9_main_arg13 (V0 : Valuation τ sig (Elt F)) : val9 V0 (no_index (Proc.devRef .tc main_arg13)) = V0 (Proc.devRef .tc main_arg13) :=
  (pI_keep (val8 V0) main_arg13 (by decide)).trans (val8_main_arg13 V0)
theorem val9_main_arg14 (V0 : Valuation τ sig (Elt F)) : val9 V0 (no_index (Proc.devRef .tc main_arg14)) = V0 (Proc.devRef .tc main_arg14) :=
  (pI_keep (val8 V0) main_arg14 (by decide)).trans (val8_main_arg14 V0)
theorem val9_main_arg15 (V0 : Valuation τ sig (Elt F)) : val9 V0 (no_index (Proc.devRef .tc main_arg15)) = V0 (Proc.devRef .tc main_arg15) :=
  (pI_keep (val8 V0) main_arg15 (by decide)).trans (val8_main_arg15 V0)
theorem val9_main_v112 (V0 : Valuation τ sig (Elt F)) : val9 V0 (no_index (Proc.devRef .tc main_v112)) = x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (pI_keep (val8 V0) main_v112 (by decide)).trans (val8_main_v112 V0)
theorem val9_main_v148 (V0 : Valuation τ sig (Elt F)) : val9 V0 (no_index (Proc.devRef .tc main_v148)) = scaledOf (valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10))) (dinv2Of (dstOf (V0 (Proc.devRef .tc main_arg1)))) (V0 (Proc.devRef .tc main_arg11))) (meanOf (valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10))) (dinv2Of (dstOf (V0 (Proc.devRef .tc main_arg1)))) (V0 (Proc.devRef .tc main_arg11)))) (varOf (valOf (aggOf (srcOf (V0 (Proc.devRef .tc main_arg1))) (dstOf (V0 (Proc.devRef .tc main_arg1))) (enormOf (srcOf (V0 (Proc.devRef .tc main_arg1))) (dstOf (V0 (Proc.devRef .tc main_arg1)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10)))) (hOf (x2Of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg10))) (dinv2Of (dstOf (V0 (Proc.devRef .tc main_arg1)))) (V0 (Proc.devRef .tc main_arg11)))) (V0 (Proc.devRef .tc main_arg12)) :=
  (pI_main_v148 (val8 V0)).trans (by simp only [val8_main_v133, val8_main_arg12, val8_main_arg13] <;> rfl)
theorem val9_main_v149 (V0 : Valuation τ sig (Elt F)) : val9 V0 (no_index (Proc.devRef .tc main_v149)) = rowOf (V0 (Proc.devRef .tc main_arg13)) :=
  (pI_main_v149 (val8 V0)).trans (by simp only [val8_main_v133, val8_main_arg12, val8_main_arg13] <;> rfl)

/-- The buffers' contents after the first 10 pieces. -/
def val10 (V0 : Valuation τ sig (Elt F)) : Valuation τ sig (Elt F) := after pJ (val9 V0)
theorem val10_main_arg0 (V0 : Valuation τ sig (Elt F)) : val10 V0 (no_index (Proc.devRef .tc main_arg0)) = V0 (Proc.devRef .tc main_arg0) :=
  (pJ_keep (val9 V0) main_arg0 (by decide)).trans (val9_main_arg0 V0)
theorem val10_main_arg1 (V0 : Valuation τ sig (Elt F)) : val10 V0 (no_index (Proc.devRef .tc main_arg1)) = V0 (Proc.devRef .tc main_arg1) :=
  (pJ_keep (val9 V0) main_arg1 (by decide)).trans (val9_main_arg1 V0)
theorem val10_main_arg2 (V0 : Valuation τ sig (Elt F)) : val10 V0 (no_index (Proc.devRef .tc main_arg2)) = V0 (Proc.devRef .tc main_arg2) :=
  (pJ_keep (val9 V0) main_arg2 (by decide)).trans (val9_main_arg2 V0)
theorem val10_main_arg3 (V0 : Valuation τ sig (Elt F)) : val10 V0 (no_index (Proc.devRef .tc main_arg3)) = V0 (Proc.devRef .tc main_arg3) :=
  (pJ_keep (val9 V0) main_arg3 (by decide)).trans (val9_main_arg3 V0)
theorem val10_main_arg4 (V0 : Valuation τ sig (Elt F)) : val10 V0 (no_index (Proc.devRef .tc main_arg4)) = V0 (Proc.devRef .tc main_arg4) :=
  (pJ_keep (val9 V0) main_arg4 (by decide)).trans (val9_main_arg4 V0)
theorem val10_main_arg5 (V0 : Valuation τ sig (Elt F)) : val10 V0 (no_index (Proc.devRef .tc main_arg5)) = V0 (Proc.devRef .tc main_arg5) :=
  (pJ_keep (val9 V0) main_arg5 (by decide)).trans (val9_main_arg5 V0)
theorem val10_main_arg6 (V0 : Valuation τ sig (Elt F)) : val10 V0 (no_index (Proc.devRef .tc main_arg6)) = V0 (Proc.devRef .tc main_arg6) :=
  (pJ_keep (val9 V0) main_arg6 (by decide)).trans (val9_main_arg6 V0)
theorem val10_main_arg7 (V0 : Valuation τ sig (Elt F)) : val10 V0 (no_index (Proc.devRef .tc main_arg7)) = V0 (Proc.devRef .tc main_arg7) :=
  (pJ_keep (val9 V0) main_arg7 (by decide)).trans (val9_main_arg7 V0)
theorem val10_main_arg8 (V0 : Valuation τ sig (Elt F)) : val10 V0 (no_index (Proc.devRef .tc main_arg8)) = V0 (Proc.devRef .tc main_arg8) :=
  (pJ_keep (val9 V0) main_arg8 (by decide)).trans (val9_main_arg8 V0)
theorem val10_main_arg9 (V0 : Valuation τ sig (Elt F)) : val10 V0 (no_index (Proc.devRef .tc main_arg9)) = V0 (Proc.devRef .tc main_arg9) :=
  (pJ_keep (val9 V0) main_arg9 (by decide)).trans (val9_main_arg9 V0)
theorem val10_main_arg10 (V0 : Valuation τ sig (Elt F)) : val10 V0 (no_index (Proc.devRef .tc main_arg10)) = V0 (Proc.devRef .tc main_arg10) :=
  (pJ_keep (val9 V0) main_arg10 (by decide)).trans (val9_main_arg10 V0)
theorem val10_main_arg11 (V0 : Valuation τ sig (Elt F)) : val10 V0 (no_index (Proc.devRef .tc main_arg11)) = V0 (Proc.devRef .tc main_arg11) :=
  (pJ_keep (val9 V0) main_arg11 (by decide)).trans (val9_main_arg11 V0)
theorem val10_main_arg12 (V0 : Valuation τ sig (Elt F)) : val10 V0 (no_index (Proc.devRef .tc main_arg12)) = V0 (Proc.devRef .tc main_arg12) :=
  (pJ_keep (val9 V0) main_arg12 (by decide)).trans (val9_main_arg12 V0)
theorem val10_main_arg13 (V0 : Valuation τ sig (Elt F)) : val10 V0 (no_index (Proc.devRef .tc main_arg13)) = V0 (Proc.devRef .tc main_arg13) :=
  (pJ_keep (val9 V0) main_arg13 (by decide)).trans (val9_main_arg13 V0)
theorem val10_main_arg14 (V0 : Valuation τ sig (Elt F)) : val10 V0 (no_index (Proc.devRef .tc main_arg14)) = V0 (Proc.devRef .tc main_arg14) :=
  (pJ_keep (val9 V0) main_arg14 (by decide)).trans (val9_main_arg14 V0)
theorem val10_main_arg15 (V0 : Valuation τ sig (Elt F)) : val10 V0 (no_index (Proc.devRef .tc main_arg15)) = V0 (Proc.devRef .tc main_arg15) :=
  (pJ_keep (val9 V0) main_arg15 (by decide)).trans (val9_main_arg15 V0)
theorem val10_main_v157 (V0 : Valuation τ sig (Elt F)) : val10 V0 (no_index (Proc.devRef .tc main_v157)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (pJ_main_v157 (val9 V0)).trans (by simp only [val9_main_v149, val9_main_v148, val9_main_v112, val9_main_arg14, val9_main_arg15] <;> rfl)

/-- The whole list's fold is the pieces' folds composed. -/
theorem after_ops (V0 : Valuation τ sig (Elt F)) : after ops V0 = val10 V0 := by
  simp only [ops, w0, w1, w2, w3, after_append]
  rfl

theorem ops_sub : (ops : List (HloOp τ sig (Elt F))).Forall fun op => op.bufs ⊆ tcRefs τ sig :=
  List.forall_iff_forall_mem.mpr fun op h => by
    simp only [ops, w0, w1, w2, w3, List.mem_append] at h
    rcases h with (h | h) | (h | h | h | h) | (h | h | h) | h
    exacts [List.forall_iff_forall_mem.mp pA_sub op h, List.forall_iff_forall_mem.mp pB_sub op h, List.forall_iff_forall_mem.mp pC_sub op h, List.forall_iff_forall_mem.mp pD_sub op h, List.forall_iff_forall_mem.mp pE_sub op h, List.forall_iff_forall_mem.mp pF_sub op h, List.forall_iff_forall_mem.mp pG_sub op h, List.forall_iff_forall_mem.mp pH_sub op h, List.forall_iff_forall_mem.mp pI_sub op h, List.forall_iff_forall_mem.mp pJ_sub op h]

theorem ops_fresh : ∀ op ∈ (ops : List (HloOp τ sig (Elt F))), op.fresh = ∅ := fun op h => by
  simp only [ops, w0, w1, w2, w3, List.mem_append] at h
  rcases h with (h | h) | (h | h | h | h) | (h | h | h) | h
  exacts [pA_fresh op h, pB_fresh op h, pC_fresh op h, pD_fresh op h, pE_fresh op h, pF_fresh op h, pG_fresh op h, pH_fresh op h, pI_fresh op h, pJ_fresh op h]

/-- On every device, for any float values, from any memory with zero counters: every weakly fair execution of
    @main terminates with the result buffer at `out` of the sixteen arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v157).trans (by simp only [after_ops]; exact val10_main_v157 (launchContents m c)),
      (h c main_arg0).trans (by simp only [after_ops]; exact val10_main_arg0 (launchContents m c)),
      (h c main_arg1).trans (by simp only [after_ops]; exact val10_main_arg1 (launchContents m c)),
      (h c main_arg2).trans (by simp only [after_ops]; exact val10_main_arg2 (launchContents m c)),
      (h c main_arg3).trans (by simp only [after_ops]; exact val10_main_arg3 (launchContents m c)),
      (h c main_arg4).trans (by simp only [after_ops]; exact val10_main_arg4 (launchContents m c)),
      (h c main_arg5).trans (by simp only [after_ops]; exact val10_main_arg5 (launchContents m c)),
      (h c main_arg6).trans (by simp only [after_ops]; exact val10_main_arg6 (launchContents m c)),
      (h c main_arg7).trans (by simp only [after_ops]; exact val10_main_arg7 (launchContents m c)),
      (h c main_arg8).trans (by simp only [after_ops]; exact val10_main_arg8 (launchContents m c)),
      (h c main_arg9).trans (by simp only [after_ops]; exact val10_main_arg9 (launchContents m c)),
      (h c main_arg10).trans (by simp only [after_ops]; exact val10_main_arg10 (launchContents m c)),
      (h c main_arg11).trans (by simp only [after_ops]; exact val10_main_arg11 (launchContents m c)),
      (h c main_arg12).trans (by simp only [after_ops]; exact val10_main_arg12 (launchContents m c)),
      (h c main_arg13).trans (by simp only [after_ops]; exact val10_main_arg13 (launchContents m c)),
      (h c main_arg14).trans (by simp only [after_ops]; exact val10_main_arg14 (launchContents m c)),
      (h c main_arg15).trans (by simp only [after_ops]; exact val10_main_arg15 (launchContents m c))⟩)
    (run_seq scopedRefs_eq scopedSems_eq defs main (fun _ => ops) main_eq (fun _ => ops_sub) m ρ (fun _ => ops_fresh))

end Cert.ReferenceIdeal.Hand

end
-- ==== Proof.lean ====
/-
  A three-layer graph-convolution network on 100000 nodes with 128 features and 40 classes: per layer a dense product, the
  degree-normalised neighbourhood sum (a gather of the source rows, scaled per edge, scatter-added at the destinations),
  the self term and the bias, a row-wise layer norm and the exponential-linear unit, the last two layers with the layer's
  input added back; then a dense classifier. The kernel program computes the dense products, the combine-norm-unit steps
  and the classifier in seven row-blocked regions (fifty blocks of 2000 rows each) around the same host gathers and
  scatter-adds as the reference.

  On the extended reals the two programs compute one function of the sixteen argument arrays:
  * a block of rows of a matrix product is the product of that block of rows (the bf16 roundings before the matrix unit
    are the identity, the zero accumulator adds nothing), so each product region leaves the reference's dense product;
  * a row of the combine step depends only on the same row of its operands, on that node's self weight and on the three
    parameter rows; its lane sums are the reference's row sums (whose initial zero adds nothing), the reference's
    variance guard 128 − 0 > 0 holds, and 1 · expm1 z = exp z − 1, so each combine region leaves the reference's layer
    norm and unit (plus the layer's input);
  * the host gathers, scatter-adds and reshapes between the regions are the reference's own operations.
  No algebraic law beyond these is needed, and none of them needs the inputs to be finite.

  The three frames are the generated ones (the reference's is its run with the result dropped); the idealization rewrote
  nothing, so `preserves` is trivial.
-/
import proofs.«175674_j31894427140389_1_alg».proof.Defs
import proofs.«175674_j31894427140389_1_alg».proof.Proof.Gen.Kernel
import proofs.«175674_j31894427140389_1_alg».proof.Proof.Gen.Kernel.Frame
import proofs.«175674_j31894427140389_1_alg».proof.Proof.Gen.KernelIdeal
import proofs.«175674_j31894427140389_1_alg».proof.Proof.Gen.KernelIdeal.Frame
import proofs.«175674_j31894427140389_1_alg».proof.Proof.Gen.ReferenceIdeal
import proofs.«175674_j31894427140389_1_alg».proof.Proof.Gen.Pre_finite_inputs
import proofs.«175674_j31894427140389_1_alg».proof.Proof.Chain
import proofs.«175674_j31894427140389_1_alg».proof.Proof.RefRun
import Idealize.ShloMosaic.Adequacy
import Idealize.ShloMosaic.Init

set_option maxHeartbeats 4000000

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end with the reference's result function of the argument arrays, which agree. -/
theorem algebraic : Cert.algebraic_KernelIdeal_ReferenceIdeal := by
  intro m ρ m' ρ' _ hagree
  refine ⟨fun c => Cert.ReferenceIdeal.Hand.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Hand.out_eq m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
